-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S1x3072 : Shape := ⟨2, ![1, 3072]⟩
abbrev S3x16384x1024 : Shape := ⟨3, ![3, 16384, 1024]⟩
abbrev S2048x1024 : Shape := ⟨2, ![2048, 1024]⟩
abbrev S1x1024 : Shape := ⟨2, ![1, 1024]⟩
abbrev S1x2048x1024 : Shape := ⟨3, ![1, 2048, 1024]⟩
abbrev S1x16384x1024 : Shape := ⟨3, ![1, 16384, 1024]⟩
abbrev S1x1024x1024 : Shape := ⟨3, ![1, 1024, 1024]⟩
abbrev S2048x1 : Shape := ⟨2, ![2048, 1]⟩
abbrev S2048 : Shape := ⟨1, ![2048]⟩

abbrev nBuf : Space → Nat
  | .hbm => 23
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S3x16384x1024, .bf16⟩
  | .hbm, ⟨13, _⟩ => ⟨S1x16384x1024, .bf16⟩
  | .hbm, ⟨14, _⟩ => ⟨S16384x1024, .bf16⟩
  | .hbm, ⟨15, _⟩ => ⟨S4x4096x1024, .bf16⟩
  | .hbm, ⟨16, _⟩ => ⟨S1x16384x1024, .bf16⟩
  | .hbm, ⟨17, _⟩ => ⟨S16384x1024, .bf16⟩
  | .hbm, ⟨18, _⟩ => ⟨S4x4096x1024, .bf16⟩
  | .hbm, ⟨19, _⟩ => ⟨S1x16384x1024, .bf16⟩
  | .hbm, ⟨20, _⟩ => ⟨S16384x1024, .bf16⟩
  | .hbm, ⟨21, _⟩ => ⟨S4x4096x1024, .bf16⟩
  | .hbm, ⟨22, _⟩ => ⟨S4x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x2048x1024, .f32⟩
  | .local _ .vmem, ⟨15, _⟩ => ⟨S1x2048x1024, .f32⟩
  | .local _ .vmem, ⟨16, _⟩ => ⟨S2048x1, .f32⟩
  | .local _ .vmem, ⟨17, _⟩ => ⟨S2048x1, .f32⟩
  | .local _ .vmem, ⟨18, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  packedbf16_S1x2048x1024_S1x2048x1024_0_0_0 : (Rect.unit (s := S1x2048x1024) ![0, 0, 0] S1x2048x1024.size inb_S1x2048x1024_S1x2048x1024_0_0_0).PackedRows (EltTy.packing .bf16)
  slices_S3x16384x1024_S1x16384x1024_0_0_0 : S3x16384x1024.Slices ![0, 0, 0] S1x16384x1024
  shapeCasts_S1x16384x1024_S16384x1024 : S1x16384x1024.ShapeCasts S16384x1024
  shapeCasts_S16384x1024_S4x4096x1024 : S16384x1024.ShapeCasts S4x4096x1024
  slices_S3x16384x1024_S1x16384x1024_1_0_0 : S3x16384x1024.Slices ![1, 0, 0] S1x16384x1024
  slices_S3x16384x1024_S1x16384x1024_2_0_0 : S3x16384x1024.Slices ![2, 0, 0] S1x16384x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S2048x1024_S2048 : S2048x1024.Reduces [1] S2048
  shapeCasts_S2048_S2048x1 : S2048.ShapeCasts S2048x1
  broadcasts_S2048x1_S2048x1024 : S2048x1.Broadcasts S2048x1024
  dot_S2048x1024_S1024x1024_S2048x1024_1_0_0_1_n_n_wf : DotDims.WF S2048x1024 S1024x1024 S2048x1024 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S3x16384x1024.size a
  hwx0_3 : ∀ i : grid0.Coords, EltTy.bits .bf16 = 32 ∨ (Rect.block (s := S3x16384x1024) S1x2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x4096x1024.size a
  hwx1_0 : ∀ i : grid1.Coords, EltTy.bits .bf16 = 32 ∨ (Rect.block (s := S4x4096x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .bf16 = 32 ∨ (Rect.block (s := S4x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x4096x1024.size a
  hwx1_3 : ∀ i : grid1.Coords, EltTy.bits .f32 = 32 ∨ (Rect.block (s := S4x4096x1024) S1x2048x1024.size (cc1_transform_3 i) (hinb1_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.WProjRegion.lean ====
/- REGION 0 of @main: the projection kernel (pipeline 0, grid [8, 3]), at the buffer contents `V` the region is
   entered with. Each window's block at a grid point, what the body leaves in the output window's staging
   buffer as a function of the three input blocks, the body's triple, the pipeline's proof data and the body
   obligation — for any float instance `F`. -/
import proofs.«164067_j90838558311219_2_alg».proof.Proof.Gen.Kernel.Launch
import proofs.«164067_j90838558311219_2_alg».proof.Proof.Gen.Kernel.Skeleton
import proofs.«164067_j90838558311219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is
    not fetched its block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1x2048x1024 := Rect.unit (s := S1x2048x1024) ![0, 0, 0] S1x2048x1024.size inb_S1x2048x1024_S1x2048x1024_0_0_0

/-! ## What the body leaves in the output window's buffer -/

/-- Window 3's staging buffer after the body, from the input windows' blocks: its one store, of the whole
    block, of the payload (the rounded product plus bias) at the three blocks as loaded. -/
def out0_3 (x0 : Vec F S2048x1024 .f32) (x1 : Vec F S1024x1024 .bf16) (x2 : Vec F S1x1024 .f32) : Vec F S1x2048x1024 .bf16 :=
  View.canon [⟨r0_3, k0_pay1 (View.ld x0 r0_0) (View.ld x1 r0_1) (View.ld x2 r0_2)⟩]

/-- The one store is of the whole buffer, so it covers it. -/
theorem cover0_3 (p0 : Vec F S1x2048x1024 .bf16) (y : S1x2048x1024.Idx) :
    ∃ pc ∈ ([⟨r0_3, p0⟩] : List (View.Piece (Elt F) S1x2048x1024 .bf16)), y ∈ pc.1.set :=
  View.cover_of_tiled [⟨r0_3, p0⟩] S1x2048x1024.size (by rfl) y

/-! ## The body's triple -/

set_option maxHeartbeats 1000000 in
/-- The kernel body on whole staging memrefs, the inputs' at contents `x0 x1 x2` and the output's at anything, runs
    to the continuation holding the inputs' as they were and the output's at `out0_3 x0 x1 x2`: the value it loads
    from the output buffer is not used, and its one store covers the buffer. -/
theorem sound_kernel0 (c : Dev nD) (E : Set ℕ) (i : grid0.Coords)
    (arg2 : Memref sig .tc .vmem S2048x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x2048x1024 .bf16) (harg5 : arg5.IsWhole)
    (x0 : Vec F S2048x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Proj

end
-- ==== Proof.WFlashShared.lean ====
/-
  Flash attention's region: what its runs share. The body branches twice on the key-block coordinate of the grid
  point (reset the running maximum, the running denominator and the accumulator at the first key block; divide and
  store the output block at the last), so a point is in one of three cases, decided here in closed form over the
  grid's 32 points; the output window is idle except at the last key block of each query block.
-/
import proofs.«164067_j90838558311219_2_alg».proof.Proof.Gen.Kernel.Launch
import proofs.«164067_j90838558311219_2_alg».proof.Proof.Gen.Kernel.Skeleton
import proofs.«164067_j90838558311219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first key block": the body's first branch, as its scalar chain over the third grid coordinate. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4): the key-block coordinate runs fastest, over 4 blocks. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key block": the body's second branch. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output window, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key block the output window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)
/-- The running maximum, the running denominator and the accumulator: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1024 .f32 := Memref.whole cc1_scratch2
/-- The views through which the contents of the output block and of the three scratch buffers are stated. -/
abbrev VO1_3 : View sig .tc .vmem S1x2048x1024 .f32 := (Memref.whole cc1_stg3_0 : Memref sig .tc .vmem S1x2048x1024 .f32).view
abbrev VS1_0 : View sig .tc .vmem S2048x1 .f32 := scM1_0.view
abbrev VS1_1 : View sig .tc .vmem S2048x1 .f32 := scM1_1.view
abbrev VS1_2 : View sig .tc .vmem S2048x1024 .f32 := scM1_2.view

end Cert.Kernel.Flash

end
-- ==== Proof.WFlashRunB.lean ====
/-
  Flash attention's body run at a middle key block.
-/
import proofs.«164067_j90838558311219_2_alg».proof.Proof.WFlashShared

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (a key block that is neither the first nor the last): on whole memrefs — the three input blocks at their
    contents, the output block at contents handed back untouched, the three scratch buffers at what the point before
    left — the body runs to the continuation holding the inputs as they were and each scratch buffer with the pieces
    its stores wrote; the pieces are the witness the run finds. -/
noncomputable def kernelRun1_B (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16)
    (xs0 : Vec F S2048x1 .f32) (xs1 : Vec F S2048x1 .f32) (xs2 : Vec F S2048x1024 .f32) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (xi3 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Flash

end
-- ==== Proof.WFlashRunA.lean ====
/-
  Flash attention's body run at the first key block of a query block.
-/
import proofs.«164067_j90838558311219_2_alg».proof.Proof.WFlashRunB

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (the first key block of a query block): the three scratch buffers may hold anything — the body overwrites
    each whole with the starting maximum, a zero denominator and a zero accumulator before it reads them —; the output
    block is handed back untouched. -/
noncomputable def kernelRun1_A (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (xi3 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Flash

end
-- ==== Proof.WFlashRunC.lean ====
/-
  Flash attention's body run at the last key block of a query block.
-/
import proofs.«164067_j90838558311219_2_alg».proof.Proof.WFlashRunA

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (the last key block of a query block): the scratch buffers at what the point before left; the output
    block's buffer may hold anything and ends with the pieces the final store wrote. -/
noncomputable def kernelRun1_C (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16)
    (xs0 : Vec F S2048x1 .f32) (xs1 : Vec F S2048x1 .f32) (xs2 : Vec F S2048x1024 .f32) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Flash

end
-- ==== Proof.WFlashRegion.lean ====
/-
  Flash attention's region, point by point: what the output block's buffer and the kernel's three scratch buffers
  (the running maximum, the running denominator, the accumulator) hold after each grid point, as a recurrence over
  the points in order; the region's invariant carrying the scratch buffers from one point to the next; the pipeline's
  proof data over them; and the body's obligation at every point, by cases on the point's key block.
-/
import proofs.«164067_j90838558311219_2_alg».proof.Proof.WFlashRunC

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for scratch buffer 0 tile it, so they cover it. -/
theorem scover1_A_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S2048x1.size (by sl_kernel_rfl) y

/-- What case A leaves in scratch buffer 0: its pieces read back. -/
def sout1_A_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch buffer 1 tile it, so they cover it. -/
theorem scover1_A_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S2048x1.size (by sl_kernel_rfl) y

/-- What case A leaves in scratch buffer 1: its pieces read back. -/
def sout1_A_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch buffer 2 tile it, so they cover it. -/
theorem scover1_A_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S2048x1024.size (by sl_kernel_rfl) y

/-- What case A leaves in scratch buffer 2: its pieces read back. -/
def sout1_A_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case A leaves in the output block's buffer is not consulted: the window is idle there (a placeholder). -/
def out1_A_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S1x2048x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case B's pieces for scratch buffer 0 tile it, so they cover it. -/
theorem scover1_B_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S2048x1.size (by sl_kernel_rfl) y

/-- What case B leaves in scratch buffer 0: its pieces read back. -/
def sout1_B_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch buffer 1 tile it, so they cover it. -/
theorem scover1_B_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S2048x1.size (by sl_kernel_rfl) y

/-- What case B leaves in scratch buffer 1: its pieces read back. -/
def sout1_B_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch buffer 2 tile it, so they cover it. -/
theorem scover1_B_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S2048x1024.size (by sl_kernel_rfl) y

/-- What case B leaves in scratch buffer 2: its pieces read back. -/
def sout1_B_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- What case B leaves in the output block's buffer is not consulted: the window is idle there (a placeholder). -/
def out1_B_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S1x2048x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case C's pieces for scratch buffer 0 tile it, so they cover it. -/
theorem scover1_C_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S2048x1.size (by sl_kernel_rfl) y

/-- What case C leaves in scratch buffer 0: its pieces read back. -/
def sout1_C_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch buffer 1 tile it, so they cover it. -/
theorem scover1_C_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S2048x1.size (by sl_kernel_rfl) y

/-- What case C leaves in scratch buffer 1: its pieces read back. -/
def sout1_C_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch buffer 2 tile it, so they cover it. -/
theorem scover1_C_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S2048x1024.size (by sl_kernel_rfl) y

/-- What case C leaves in scratch buffer 2: its pieces read back. -/
def sout1_C_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-- Case C's one store into the output block covers it. -/
theorem cover1_C_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S1x2048x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x2048x1024.size (by sl_kernel_rfl) y

/-- What case C leaves in the output block's buffer: its pieces read back. -/
def out1_C_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S1x2048x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per four points; between fetches its index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The first and the last key block exclude each other -/

theorem not_last_of_first (t : Fin cfg1.N) (h0 : t.val % 4 = 0) : ¬cond1_1 (grid1.coords t) :=
  fun h => by have h' := (hcond1_1 t).mp h; omega
theorem not_first_of_not (t : Fin cfg1.N) (h0 : ¬t.val % 4 = 0) : ¬cond1_0 (grid1.coords t) :=
  fun h => h0 ((hcond1_0 t).mp h)
theorem not_last_of_not (t : Fin cfg1.N) (h1 : ¬t.val % 4 = 3) : ¬cond1_1 (grid1.coords t) :=
  fun h => h1 ((hcond1_1 t).mp h)

/-! ## What the output block and the three scratch buffers hold after each point -/

/-- THE RECURRENCE over the grid's points, in order: the output block's buffer, the running maximum, the running
    denominator and the accumulator after the body at position `n` — the case the position is in (first key block,
    last, or between), run at the point's input blocks, the scratch buffers at what position `n - 1` left (the first
    key block does not look at them). -/
def outsAt1 (c : Dev nD) : (n : ℕ) → n < cfg1.N → Vec F S1x2048x1024 .f32 × Vec F S2048x1 .f32 × Vec F S2048x1 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t)) := by
  obtain ⟨n, hn⟩ := t
  cases n with
  | zero => exact rfl
  | succ n => exact (dif_pos h0).trans rfl

/-- `outsAt1` at a middle key block: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The class invariant with the kernel's three scratch buffers named: the other region's staging buffers and these three
    each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's (every scratch buffer at anything);
    afterwards the three scratch buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the flash-attention pipeline on core `c`: the arrays as the region finds them; after the body
    at point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch buffers at what the point before left (at anything before the first point) and
    takes them back at this point's contents; the output block's buffer is handed back untouched away from a last key
    block and holds the final store there; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · rw [show (dat1 V c).leavesExact 0 t = owns (c : Thread nD τ) (ms1_0 t) fullShare ((dat1 V c).after 0 t) from by
        unfold Dat.leavesExact; rw [liveAt1_0 t], after1_0,
      show (dat1 V c).leavesExact 1 t = owns (c : Thread nD τ) (ms1_1 t) fullShare ((dat1 V c).after 1 t) from by
        unfold Dat.leavesExact; rw [liveAt1_1 t], after1_1,
      show (dat1 V c).leavesExact 2 t = owns (c : Thread nD τ) (ms1_2 t) fullShare ((dat1 V c).after 2 t) from by
        unfold Dat.leavesExact; rw [liveAt1_2 t], after1_2]
    rw [Dat.leavesExact_idle (dat1 V c) 3 t (idleAt1_3 t (not_last_of_first t h0)) (noFlush1_3 t (not_last_of_first t h0))]
    rw [outsAt1_A V c t h0]
    unfold sout1_A_0 sout1_A_1 sout1_A_2; (try dsimp only)
    by_cases hz : t.val = 0
    · rw [PhiS_castSucc V c t, PhiS_zero V c _ _ hz, PhiA1_eq]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (not_last_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_A_0 _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (not_last_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_A_0 _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 0 t = owns (c : Thread nD τ) (ms1_0 t) fullShare ((dat1 V c).after 0 t) from by
          unfold Dat.leavesExact; rw [liveAt1_0 t], after1_0,
        show (dat1 V c).leavesExact 1 t = owns (c : Thread nD τ) (ms1_1 t) fullShare ((dat1 V c).after 1 t) from by
          unfold Dat.leavesExact; rw [liveAt1_1 t], after1_1,
        show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (not_first_of_not t h0) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 _ _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0,
        show (dat1 V c).leavesExact 1 t = owns (c : Thread nD τ) (ms1_1 t) fullShare ((dat1 V c).after 1 t) from by
          unfold Dat.leavesExact; rw [liveAt1_1 t], after1_1,
        show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (not_last_of_not t h1)) (noFlush1_3 t (not_last_of_not t h1))]
      rw [outsAt1_B V c t h0 h1]
      unfold sout1_B_0 sout1_B_1 sout1_B_2; (try dsimp only)
      rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (not_first_of_not t h0) (not_last_of_not t h1) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨HJ0, HJ1, HJ2, HJ3, HJ4, HJ5, HJ6, HJ7, HS0, HS1, HS2⟩, Hg⟩
  isplitl [HJ0 HJ1 HJ2 HJ3 HJ4 HJ5 HJ6 HJ7 HS0 HS1 HS2]
  · isplitl [HJ0]; · iexact HJ0
    isplitl [HJ1]; · iexact HJ1
    isplitl [HJ2]; · iexact HJ2
    isplitl [HJ3]; · iexact HJ3
    isplitl [HJ4]; · iexact HJ4
    isplitl [HJ5]; · iexact HJ5
    isplitl [HJ6]; · iexact HJ6
    isplitl [HJ7]; · iexact HJ7
    isplitl [HS0]; · iexists _; iexact HS0
    isplitl [HS1]; · iexists _; iexact HS1
    iexists _; iexact HS2
  iexact Hg

end Region

end Cert.Kernel.Flash

end
-- ==== Proof.WKernelRun.lean ====
/-
  The whole kernel program as a run: the contents of every buffer at each boundary of @main — after the first host
  stretch (the sequence flattened to rows, the three weight matrices side by side, the three biases end to end), after
  the projection region (its output array at what its write-backs leave), after the second host stretch (the three
  slabs of the projection cut out and given back their batch axis), after the flash-attention region —; each region as
  a segment entered from the contents before it and left at the contents after it; and the launch: every weakly fair
  execution terminates with every unscoped buffer at the last boundary's contents. The frame claim and the result
  array are read off that.
-/
import proofs.«164067_j90838558311219_2_alg».proof.Proof.WProjRegion
import proofs.«164067_j90838558311219_2_alg».proof.Proof.WFlashRegion
import proofs.«164067_j90838558311219_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (Proj.dat0 (V1 m) c).arrAt w cfg0.N
theorem W2_arr (c : Dev nD) (w : Fin cfg0.W) :
    W2 m c (Proc.devRef .tc (Pipeline.arrRef spec0 w)) = (Proj.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Proj.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the flash-attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the flash-attention region's exit. -/
def W4 (c : Dev nD) : Valuation τ sig (Elt F) :=
  Pipeline.withArrays spec1 c (W3 m c) fun w => (Flash.dat1 (V3 m) c).arrAt w cfg1.N
theorem W4_arr (c : Dev nD) (w : Fin cfg1.W) :
    W4 m c (Proc.devRef .tc (Pipeline.arrRef spec1 w)) = (Flash.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Flash.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: no host operation writes one and no region stages one as an output -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat0 (V1 m) c
  | ⟨1, _⟩ => fun c => Flash.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at what its write-backs leave; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what its write-backs leave; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Flash.hin1 (V3 m) c)
    unfold Pipeline.ΦA
    iintro ⟨Hp, -, Hr⟩
    isplitl [Hr]; · iexact Hr
    iexact Hp
  hout c := by
    rw [Pipeline.ownSems0_none]
    refine (Flash.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE RESULT: the run also ends with the result array at what the flash-attention region's write-backs leave, and
    the arguments as launched. -/
theorem run_result : θ_run defs (onTc (τ := τ) (main (F := F))) ⟨m, fun _ => 0, ρ⟩ (fun r => ∀ c : Dev nD,
      r.2.mem ((c.tc : Thread nD τ).loc main_v15) = (Flash.dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v15 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Run

end
-- ==== Proof.ProjRegion.lean ====
/- REGION 0 of @main: the projection kernel (pipeline 0, grid [8, 3]), at the buffer contents `V` the region is
   entered with. Each window's block at a grid point, what the body leaves in the output window's staging
   buffer as a function of the three input blocks, the body's triple, the pipeline's proof data and the body
   obligation — for any float instance `F`. -/
import proofs.«164067_j90838558311219_2_alg».proof.Proof.Gen.KernelIdeal.Launch
import proofs.«164067_j90838558311219_2_alg».proof.Proof.Gen.KernelIdeal.Skeleton
import proofs.«164067_j90838558311219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is
    not fetched its block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1x2048x1024 := Rect.unit (s := S1x2048x1024) ![0, 0, 0] S1x2048x1024.size inb_S1x2048x1024_S1x2048x1024_0_0_0

/-! ## What the body leaves in the output window's buffer -/

/-- Window 3's staging buffer after the body, from the input windows' blocks: its one store, of the whole
    block, of the payload (the rounded product plus bias) at the three blocks as loaded. -/
def out0_3 (x0 : Vec F S2048x1024 .f32) (x1 : Vec F S1024x1024 .bf16) (x2 : Vec F S1x1024 .f32) : Vec F S1x2048x1024 .bf16 :=
  View.canon [⟨r0_3, k0_pay1 (View.ld x0 r0_0) (View.ld x1 r0_1) (View.ld x2 r0_2)⟩]

/-- The one store is of the whole buffer, so it covers it. -/
theorem cover0_3 (p0 : Vec F S1x2048x1024 .bf16) (y : S1x2048x1024.Idx) :
    ∃ pc ∈ ([⟨r0_3, p0⟩] : List (View.Piece (Elt F) S1x2048x1024 .bf16)), y ∈ pc.1.set :=
  View.cover_of_tiled [⟨r0_3, p0⟩] S1x2048x1024.size (by rfl) y

/-! ## The body's triple -/

set_option maxHeartbeats 1000000 in
/-- The kernel body on whole staging memrefs, the inputs' at contents `x0 x1 x2` and the output's at anything, runs
    to the continuation holding the inputs' as they were and the output's at `out0_3 x0 x1 x2`: the value it loads
    from the output buffer is not used, and its one store covers the buffer. -/
theorem sound_kernel0 (c : Dev nD) (E : Set ℕ) (i : grid0.Coords)
    (arg2 : Memref sig .tc .vmem S2048x1024 .f32) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x2048x1024 .bf16) (harg5 : arg5.IsWhole)
    (x0 : Vec F S2048x1024 .f32) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Proj

end
-- ==== Proof.FlashShared.lean ====
/-
  Flash attention's region: what its runs share. The body branches twice on the key-block coordinate of the grid
  point (reset the running maximum, the running denominator and the accumulator at the first key block; divide and
  store the output block at the last), so a point is in one of three cases, decided here in closed form over the
  grid's 32 points; the output window is idle except at the last key block of each query block.
-/
import proofs.«164067_j90838558311219_2_alg».proof.Proof.Gen.KernelIdeal.Launch
import proofs.«164067_j90838558311219_2_alg».proof.Proof.Gen.KernelIdeal.Skeleton
import proofs.«164067_j90838558311219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first key block": the body's first branch, as its scalar chain over the third grid coordinate. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4): the key-block coordinate runs fastest, over 4 blocks. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key block": the body's second branch. -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output window, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key block the output window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x1024 .f32 := win1_3.stage (cfg1.slots t 3)
abbrev hs1_3 (t : Fin cfg1.N) : (ms1_3 t).IsWhole := hstage1_3 ((cfg1.slots t 3).cast nbuf1_3)
/-- The running maximum, the running denominator and the accumulator: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1024 .f32 := Memref.whole cc1_scratch2
/-- The views through which the contents of the output block and of the three scratch buffers are stated. -/
abbrev VO1_3 : View sig .tc .vmem S1x2048x1024 .f32 := (Memref.whole cc1_stg3_0 : Memref sig .tc .vmem S1x2048x1024 .f32).view
abbrev VS1_0 : View sig .tc .vmem S2048x1 .f32 := scM1_0.view
abbrev VS1_1 : View sig .tc .vmem S2048x1 .f32 := scM1_1.view
abbrev VS1_2 : View sig .tc .vmem S2048x1024 .f32 := scM1_2.view

end Cert.KernelIdeal.Flash

end
-- ==== Proof.FlashRunB.lean ====
/-
  Flash attention's body run at a middle key block.
-/
import proofs.«164067_j90838558311219_2_alg».proof.Proof.FlashShared

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (a key block that is neither the first nor the last): on whole memrefs — the three input blocks at their
    contents, the output block at contents handed back untouched, the three scratch buffers at what the point before
    left — the body runs to the continuation holding the inputs as they were and each scratch buffer with the pieces
    its stores wrote; the pieces are the witness the run finds. -/
noncomputable def kernelRun1_B (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16)
    (xs0 : Vec F S2048x1 .f32) (xs1 : Vec F S2048x1 .f32) (xs2 : Vec F S2048x1024 .f32) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (xi3 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Flash

end
-- ==== Proof.FlashRunA.lean ====
/-
  Flash attention's body run at the first key block of a query block.
-/
import proofs.«164067_j90838558311219_2_alg».proof.Proof.FlashRunB

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (the first key block of a query block): the three scratch buffers may hold anything — the body overwrites
    each whole with the starting maximum, a zero denominator and a zero accumulator before it reads them —; the output
    block is handed back untouched. -/
noncomputable def kernelRun1_A (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (xi3 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Flash

end
-- ==== Proof.FlashRunC.lean ====
/-
  Flash attention's body run at the last key block of a query block.
-/
import proofs.«164067_j90838558311219_2_alg».proof.Proof.FlashRunA

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (the last key block of a query block): the scratch buffers at what the point before left; the output
    block's buffer may hold anything and ends with the pieces the final store wrote. -/
noncomputable def kernelRun1_C (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16)
    (xs0 : Vec F S2048x1 .f32) (xs1 : Vec F S2048x1 .f32) (xs2 : Vec F S2048x1024 .f32) :
    Σ' (L3 : List (View.Piece (Elt F) S1x2048x1024 .f32)) (LS0 : List (View.Piece (Elt F) S2048x1 .f32)) (LS1 : List (View.Piece (Elt F) S2048x1 .f32)), { LS2 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Flash

end
-- ==== Proof.FlashRegion.lean ====
/-
  Flash attention's region, point by point: what the output block's buffer and the kernel's three scratch buffers
  (the running maximum, the running denominator, the accumulator) hold after each grid point, as a recurrence over
  the points in order; the region's invariant carrying the scratch buffers from one point to the next; the pipeline's
  proof data over them; and the body's obligation at every point, by cases on the point's key block.
-/
import proofs.«164067_j90838558311219_2_alg».proof.Proof.FlashRunC

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for scratch buffer 0 tile it, so they cover it. -/
theorem scover1_A_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S2048x1.size (by sl_kernel_rfl) y

/-- What case A leaves in scratch buffer 0: its pieces read back. -/
def sout1_A_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch buffer 1 tile it, so they cover it. -/
theorem scover1_A_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S2048x1.size (by sl_kernel_rfl) y

/-- What case A leaves in scratch buffer 1: its pieces read back. -/
def sout1_A_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch buffer 2 tile it, so they cover it. -/
theorem scover1_A_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) (y : S2048x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S2048x1024.size (by sl_kernel_rfl) y

/-- What case A leaves in scratch buffer 2: its pieces read back. -/
def sout1_A_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S2048x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- What case A leaves in the output block's buffer is not consulted: the window is idle there (a placeholder). -/
def out1_A_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) : Vec F S1x2048x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case B's pieces for scratch buffer 0 tile it, so they cover it. -/
theorem scover1_B_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S2048x1.size (by sl_kernel_rfl) y

/-- What case B leaves in scratch buffer 0: its pieces read back. -/
def sout1_B_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch buffer 1 tile it, so they cover it. -/
theorem scover1_B_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S2048x1.size (by sl_kernel_rfl) y

/-- What case B leaves in scratch buffer 1: its pieces read back. -/
def sout1_B_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch buffer 2 tile it, so they cover it. -/
theorem scover1_B_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S2048x1024.size (by sl_kernel_rfl) y

/-- What case B leaves in scratch buffer 2: its pieces read back. -/
def sout1_B_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- What case B leaves in the output block's buffer is not consulted: the window is idle there (a placeholder). -/
def out1_B_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S1x2048x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case C's pieces for scratch buffer 0 tile it, so they cover it. -/
theorem scover1_C_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S2048x1.size (by sl_kernel_rfl) y

/-- What case C leaves in scratch buffer 0: its pieces read back. -/
def sout1_C_0 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch buffer 1 tile it, so they cover it. -/
theorem scover1_C_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S2048x1.size (by sl_kernel_rfl) y

/-- What case C leaves in scratch buffer 1: its pieces read back. -/
def sout1_C_1 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch buffer 2 tile it, so they cover it. -/
theorem scover1_C_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S2048x1024.size (by sl_kernel_rfl) y

/-- What case C leaves in scratch buffer 2: its pieces read back. -/
def sout1_C_2 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S2048x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-- Case C's one store into the output block covers it. -/
theorem cover1_C_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) (y : S1x2048x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x2048x1024.size (by sl_kernel_rfl) y

/-- What case C leaves in the output block's buffer: its pieces read back. -/
def out1_C_3 (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) : Vec F S1x2048x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched once per four points; between fetches its index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The first and the last key block exclude each other -/

theorem not_last_of_first (t : Fin cfg1.N) (h0 : t.val % 4 = 0) : ¬cond1_1 (grid1.coords t) :=
  fun h => by have h' := (hcond1_1 t).mp h; omega
theorem not_first_of_not (t : Fin cfg1.N) (h0 : ¬t.val % 4 = 0) : ¬cond1_0 (grid1.coords t) :=
  fun h => h0 ((hcond1_0 t).mp h)
theorem not_last_of_not (t : Fin cfg1.N) (h1 : ¬t.val % 4 = 3) : ¬cond1_1 (grid1.coords t) :=
  fun h => h1 ((hcond1_1 t).mp h)

/-! ## What the output block and the three scratch buffers hold after each point -/

/-- THE RECURRENCE over the grid's points, in order: the output block's buffer, the running maximum, the running
    denominator and the accumulator after the body at position `n` — the case the position is in (first key block,
    last, or between), run at the point's input blocks, the scratch buffers at what position `n - 1` left (the first
    key block does not look at them). -/
def outsAt1 (c : Dev nD) : (n : ℕ) → n < cfg1.N → Vec F S1x2048x1024 .f32 × Vec F S2048x1 .f32 × Vec F S2048x1 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (not_last_of_first ⟨0, hn⟩ (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (not_last_of_first ⟨n + 1, hn⟩ h0) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (not_first_of_not ⟨n + 1, hn⟩ h0) (not_last_of_not ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key block: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t)) := by
  obtain ⟨n, hn⟩ := t
  cases n with
  | zero => exact rfl
  | succ n => exact (dif_pos h0).trans rfl

/-- `outsAt1` at a middle key block: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) (not_last_of_not t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key block: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (not_first_of_not t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The class invariant with the kernel's three scratch buffers named: the other region's staging buffers and these three
    each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's (every scratch buffer at anything);
    afterwards the three scratch buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the flash-attention pipeline on core `c`: the arrays as the region finds them; after the body
    at point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch buffers at what the point before left (at anything before the first point) and
    takes them back at this point's contents; the output block's buffer is handed back untouched away from a last key
    block and holds the final store there; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · rw [show (dat1 V c).leavesExact 0 t = owns (c : Thread nD τ) (ms1_0 t) fullShare ((dat1 V c).after 0 t) from by
        unfold Dat.leavesExact; rw [liveAt1_0 t], after1_0,
      show (dat1 V c).leavesExact 1 t = owns (c : Thread nD τ) (ms1_1 t) fullShare ((dat1 V c).after 1 t) from by
        unfold Dat.leavesExact; rw [liveAt1_1 t], after1_1,
      show (dat1 V c).leavesExact 2 t = owns (c : Thread nD τ) (ms1_2 t) fullShare ((dat1 V c).after 2 t) from by
        unfold Dat.leavesExact; rw [liveAt1_2 t], after1_2]
    rw [Dat.leavesExact_idle (dat1 V c) 3 t (idleAt1_3 t (not_last_of_first t h0)) (noFlush1_3 t (not_last_of_first t h0))]
    rw [outsAt1_A V c t h0]
    unfold sout1_A_0 sout1_A_1 sout1_A_2; (try dsimp only)
    by_cases hz : t.val = 0
    · rw [PhiS_castSucc V c t, PhiS_zero V c _ _ hz, PhiA1_eq]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (not_last_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_A_0 _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (not_last_of_first t h0) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_A_0 _ _ _ _ _ _ _ _ _ _ _ _ _ _ _ _ _ _ _ _ _)
          isplitl [HS1]
          · unfold owns; iexists _; isplitr
            swap; · iexact HS1
            ipureintro; exact View.read_writes_of_cover _ _ _ _ _ (scover1_A_1 _ _ _ _ _ _ _ _ _ _ _ _ _ _ _ _ _ _ _ _ _)
          unfold owns; iexists _; isplitr
          swap; · iexact HS2
          ipureintro; exact View.read_writes_of_cover _ _ _ _ _ (scover1_A_2 _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 0 t = owns (c : Thread nD τ) (ms1_0 t) fullShare ((dat1 V c).after 0 t) from by
          unfold Dat.leavesExact; rw [liveAt1_0 t], after1_0,
        show (dat1 V c).leavesExact 1 t = owns (c : Thread nD τ) (ms1_1 t) fullShare ((dat1 V c).after 1 t) from by
          unfold Dat.leavesExact; rw [liveAt1_1 t], after1_1,
        show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (not_first_of_not t h0) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 _ _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0,
        show (dat1 V c).leavesExact 1 t = owns (c : Thread nD τ) (ms1_1 t) fullShare ((dat1 V c).after 1 t) from by
          unfold Dat.leavesExact; rw [liveAt1_1 t], after1_1,
        show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (not_last_of_not t h1)) (noFlush1_3 t (not_last_of_not t h1))]
      rw [outsAt1_B V c t h0 h1]
      unfold sout1_B_0 sout1_B_1 sout1_B_2; (try dsimp only)
      rw [PhiS_castSucc V c t, PhiS_pos V c _ _ hz]
      iintro ⟨⟨⟨HJ0, HJ1, HJ2, HJ3, HJ4, HJ5, HJ6, HJ7, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (not_first_of_not t h0) (not_last_of_not t h1) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HJ0 HJ1 HJ2 HJ3 HJ4 HJ5 HJ6 HJ7 HS0 HS1 HS2 Hg]
      · isplitl [HJ0 HJ1 HJ2 HJ3 HJ4 HJ5 HJ6 HJ7 HS0 HS1 HS2]
        · isplitl [HJ0]; · iexact HJ0
          isplitl [HJ1]; · iexact HJ1
          isplitl [HJ2]; · iexact HJ2
          isplitl [HJ3]; · iexact HJ3
          isplitl [HJ4]; · iexact HJ4
          isplitl [HJ5]; · iexact HJ5
          isplitl [HJ6]; · iexact HJ6
          isplitl [HJ7]; · iexact HJ7
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨HJ0, HJ1, HJ2, HJ3, HJ4, HJ5, HJ6, HJ7, HS0, HS1, HS2⟩, Hg⟩
  isplitl [HJ0 HJ1 HJ2 HJ3 HJ4 HJ5 HJ6 HJ7 HS0 HS1 HS2]
  · isplitl [HJ0]; · iexact HJ0
    isplitl [HJ1]; · iexact HJ1
    isplitl [HJ2]; · iexact HJ2
    isplitl [HJ3]; · iexact HJ3
    isplitl [HJ4]; · iexact HJ4
    isplitl [HJ5]; · iexact HJ5
    isplitl [HJ6]; · iexact HJ6
    isplitl [HJ7]; · iexact HJ7
    isplitl [HS0]; · iexists _; iexact HS0
    isplitl [HS1]; · iexists _; iexact HS1
    iexists _; iexact HS2
  iexact Hg

end Region

end Cert.KernelIdeal.Flash

end
-- ==== Proof.KernelRun.lean ====
/-
  The whole kernel program as a run: the contents of every buffer at each boundary of @main — after the first host
  stretch (the sequence flattened to rows, the three weight matrices side by side, the three biases end to end), after
  the projection region (its output array at what its write-backs leave), after the second host stretch (the three
  slabs of the projection cut out and given back their batch axis), after the flash-attention region —; each region as
  a segment entered from the contents before it and left at the contents after it; and the launch: every weakly fair
  execution terminates with every unscoped buffer at the last boundary's contents. The frame claim and the result
  array are read off that.
-/
import proofs.«164067_j90838558311219_2_alg».proof.Proof.ProjRegion
import proofs.«164067_j90838558311219_2_alg».proof.Proof.FlashRegion
import proofs.«164067_j90838558311219_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (Proj.dat0 (V1 m) c).arrAt w cfg0.N
theorem W2_arr (c : Dev nD) (w : Fin cfg0.W) :
    W2 m c (Proc.devRef .tc (Pipeline.arrRef spec0 w)) = (Proj.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Proj.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the flash-attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the flash-attention region's exit. -/
def W4 (c : Dev nD) : Valuation τ sig (Elt F) :=
  Pipeline.withArrays spec1 c (W3 m c) fun w => (Flash.dat1 (V3 m) c).arrAt w cfg1.N
theorem W4_arr (c : Dev nD) (w : Fin cfg1.W) :
    W4 m c (Proc.devRef .tc (Pipeline.arrRef spec1 w)) = (Flash.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Flash.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched: no host operation writes one and no region stages one as an output -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat0 (V1 m) c
  | ⟨1, _⟩ => fun c => Flash.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at what its write-backs leave; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what its write-backs leave; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Flash.hin1 (V3 m) c)
    unfold Pipeline.ΦA
    iintro ⟨Hp, -, Hr⟩
    isplitl [Hr]; · iexact Hr
    iexact Hp
  hout c := by
    rw [Pipeline.ownSems0_none]
    refine (Flash.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE RESULT: the run also ends with the result array at what the flash-attention region's write-backs leave, and
    the arguments as launched. -/
theorem run_result : θ_run defs (onTc (τ := τ) (main (F := F))) ⟨m, fun _ => 0, ρ⟩ (fun r => ∀ c : Dev nD,
      r.2.mem ((c.tc : Thread nD τ).loc main_v15) = (Flash.dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v15 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Run

end
-- ==== Proof.FlashPieces.lean ====
/-
  What each case of the flash-attention body leaves in the three scratch buffers and in the output block, as the
  body's own arithmetic: the new running maximum, the rescaled denominator plus this block's row sums, the rescaled
  accumulator plus this block's weighted values — from the scratch buffers' previous contents (the starting values at
  a first key block) — and, at a last key block, the accumulator divided by the denominator.
-/
import proofs.«164067_j90838558311219_2_alg».proof.Proof.FlashRegion
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-! ## A first key block: from the starting maximum, a zero denominator and a zero accumulator -/

theorem sout1_A_0_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) :
    sout1_A_0 (F := F) c i arg3 harg3 arg4 harg4 arg5 harg5 arg6 harg6 arg7 harg7 arg8 harg8 arg9 harg9 hc0 hc1 x0 x1 x2 = k1_pay2 (k1_pay9 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_A_1_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) :
    sout1_A_1 (F := F) c i arg3 harg3 arg4 harg4 arg5 harg5 arg6 harg6 arg7 harg7 arg8 harg8 arg9 harg9 hc0 hc1 x0 x1 x2 = k1_pay12 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_A_2_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : cond1_0 i) (hc1 : ¬cond1_1 i)
    (x0 : Vec F S1x2048x1024 .bf16) (x1 : Vec F S1x1024x1024 .bf16) (x2 : Vec F S1x1024x1024 .bf16) :
    sout1_A_2 (F := F) c i arg3 harg3 arg4 harg4 arg5 harg5 arg6 harg6 arg7 harg7 arg8 harg8 arg9 harg9 hc0 hc1 x0 x1 x2 = k1_pay1 (k1_pay7 x2) (k1_pay10 x0 x1 (k1_pay4 (F := F)) (k1_pay4 (F := F))) (k1_pay11 x0 x1 (k1_pay4 (F := F))) (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

/-! ## A middle key block: from what the point before left -/

theorem sout1_B_0_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_B_0 (F := F) c i arg3 harg3 arg4 harg4 arg5 harg5 arg6 harg6 arg7 harg7 arg8 harg8 arg9 harg9 hc0 hc1 x0 x1 x2 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_B_1_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_B_1 (F := F) c i arg3 harg3 arg4 harg4 arg5 harg5 arg6 harg6 arg7 harg7 arg8 harg8 arg9 harg9 hc0 hc1 x0 x1 x2 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_B_2_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : ¬cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_B_2 (F := F) c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

/-! ## A last key block: the same update, and the output block is the new accumulator over the new denominator -/

theorem sout1_C_0_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_C_0 (F := F) c i arg3 harg3 arg4 harg4 arg5 harg5 arg6 harg6 arg7 harg7 arg8 harg8 arg9 harg9 hc0 hc1 x0 x1 x2 xs0 xs1 xs2 = k1_pay2 (k1_pay9 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_C_1_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_C_1 (F := F) c i arg3 harg3 arg4 harg4 arg5 harg5 arg6 harg6 arg7 harg7 arg8 harg8 arg9 harg9 hc0 hc1 x0 x1 x2 xs0 xs1 xs2 = k1_pay12 x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem sout1_C_2_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    sout1_C_2 (F := F) c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  first | rw [View.canon_unit_zero hz2] | rw [View.canon_cons_unit_zero hz2]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

theorem out1_C_3_eq (c : Dev nD) (i : grid1.Coords) (arg3 : Memref sig .tc .vmem S1x2048x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (hc0 : ¬cond1_0 i) (hc1 : cond1_1 i)
    (x0 : Vec F S1x2048x1024 .bf16) (x1 : Vec F S1x1024x1024 .bf16) (x2 : Vec F S1x1024x1024 .bf16) (xs0 : Vec F S2048x1 .f32) (xs1 : Vec F S2048x1 .f32) (xs2 : Vec F S2048x1024 .f32) :
    out1_C_3 (F := F) c i arg3 harg3 arg4 harg4 arg5 harg5 arg6 harg6 arg7 harg7 arg8 harg8 arg9 harg9 hc0 hc1 x0 x1 x2 xs0 xs1 xs2 = k1_pay3 (k1_pay1 (k1_pay7 x2) (k1_pay10 x0 x1 xs0 xs0) (k1_pay11 x0 x1 xs0) xs2) (k1_pay12 x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  first | rw [View.canon_unit_zero hz3] | rw [View.canon_cons_unit_zero hz3]
  simp only [View.readCov_unit_zero (S := S2048x1) _ hz2, View.readCov_unit_zero (S := S2048x1024) _ hz2, View.readAt_eq_ld, Memref.IsWhole.read_unread, View.ld_unit_zero (S := S1x2048x1024) hz3, View.ld_unit_zero (S := S1x1024x1024) hz3, View.ld_unit_zero (S := S2048x1) hz2, View.ld_unit_zero (S := S2048x1024) hz2]

end Cert.KernelIdeal.Flash

end
-- ==== Proof.FlashState.lean ====
/-
  The flash-attention recurrence in plain form. After a first key block the running maximum, the denominator and the
  accumulator are one update step from the starting values; after any other key block they are one update step from
  what the point before left; and at a last key block the output block is the new accumulator divided by the new
  denominator.
-/
import proofs.«164067_j90838558311219_2_alg».proof.Proof.FlashPieces

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- After a first key block. -/
theorem state_first (c : Dev nD) (t : Fin cfg1.N) (h0 : t.val % 4 = 0) :
    (outsAt1 V c t.val t.isLt).2.1 = k1_pay2 (k1_pay9 (iblk1 V c 0 t) (iblk1 V c 1 t) (k1_pay4 (F := F)))
    ∧ (outsAt1 V c t.val t.isLt).2.2.1 = k1_pay12 (iblk1 V c 0 t) (iblk1 V c 1 t) (k1_pay4 (F := F)) (k1_pay4 (F := F)) (k1_pay5 (F := F))
    ∧ (outsAt1 V c t.val t.isLt).2.2.2 = k1_pay1 (k1_pay7 (iblk1 V c 2 t)) (k1_pay10 (iblk1 V c 0 t) (iblk1 V c 1 t) (k1_pay4 (F := F)) (k1_pay4 (F := F))) (k1_pay11 (iblk1 V c 0 t) (iblk1 V c 1 t) (k1_pay4 (F := F))) (k1_pay6 (F := F)) := by
  rw [outsAt1_A V c t h0]
  dsimp only
  refine ⟨?_, ?_, ?_⟩
  · rw [sout1_A_0_eq]
  · rw [sout1_A_1_eq]
  · rw [sout1_A_2_eq]

/-- After any other key block: one step from what the point before left. -/
theorem state_next (c : Dev nD) (t : Fin cfg1.N) (h0 : ¬t.val % 4 = 0) :
    (outsAt1 V c t.val t.isLt).2.1 = k1_pay2 (k1_pay9 (iblk1 V c 0 t) (iblk1 V c 1 t) (outsAt1 V c (t.val - 1) (Nat.lt_of_le_of_lt (Nat.sub_le _ _) t.isLt)).2.1)
    ∧ (outsAt1 V c t.val t.isLt).2.2.1 = k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2 = k1_pay1 (k1_pay7 (iblk1 V c 2 t)) (k1_pay10 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2 := by
  by_cases h1 : t.val % 4 = 3
  · rw [outsAt1_C V c t h0 h1]
    dsimp only
    refine ⟨?_, ?_, ?_⟩
    · rw [sout1_C_0_eq]
    · rw [sout1_C_1_eq]
    · rw [sout1_C_2_eq]
  · rw [outsAt1_B V c t h0 h1]
    dsimp only
    refine ⟨?_, ?_, ?_⟩
    · rw [sout1_B_0_eq]
    · rw [sout1_B_1_eq]
    · rw [sout1_B_2_eq]

/-- At a last key block the output block is the new accumulator over the new denominator. -/
theorem state_out (c : Dev nD) (t : Fin cfg1.N) (h1 : t.val % 4 = 3) :
    (outsAt1 V c t.val t.isLt).1 = k1_pay3 (outsAt1 V c t.val t.isLt).2.2.2 (outsAt1 V c t.val t.isLt).2.2.1 := by
  have h0 : ¬t.val % 4 = 0 := by omega
  rw [outsAt1_C V c t h0 h1]
  dsimp only
  rw [out1_C_3_eq, sout1_C_2_eq, sout1_C_1_eq]

end

end Cert.KernelIdeal.Flash

end
-- ==== Proof.ProjValue.lean ====
/- The projection kernel's output block at an index, at the exact values: the block the body leaves in the
   output window's staging buffer, read at row `r` and column `k`, is the dot product of row `r` of the
   activation block with column `k` of the weight block, plus the bias at `k`. -/
import proofs.«164067_j90838558311219_2_alg».proof.Proof.ProjRegion
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Proj

open Cert.KernelIdeal Cert.KernelIdeal.Gen
open Idealize.ShloMosaic Idealize.ShloMosaic.ValueIdx
open scoped BigOperators

/-! ## The one covering store leaves its payload -/

section AnyInstance
variable {F : FTy → Type} [FloatOps F]

/-- The whole-buffer loads read the buffers and the one covering store leaves its payload: the output staging
    buffer after the body is the payload of the three input buffers. -/
theorem out0_3_eq (x0 : Vec F S2048x1024 .f32) (x1 : Vec F S1024x1024 .bf16) (x2 : Vec F S1x1024 .f32) :
    out0_3 (F := F) x0 x1 x2 = k0_pay1 x0 x1 x2 := by
  have hz3 : (![0, 0, 0] : Fin S1x2048x1024.rank → Nat) = fun _ => 0 := funext fun a => by fin_cases a <;> rfl
  have hz0 : (![0, 0] : Fin S2048x1024.rank → Nat) = fun _ => 0 := funext fun a => by fin_cases a <;> rfl
  have hz1 : (![0, 0] : Fin S1024x1024.rank → Nat) = fun _ => 0 := funext fun a => by fin_cases a <;> rfl
  have hz2 : (![0, 0] : Fin S1x1024.rank → Nat) = fun _ => 0 := funext fun a => by fin_cases a <;> rfl
  unfold out0_3
  rw [View.canon_unit_zero hz3, View.ld_unit_zero hz0, View.ld_unit_zero hz1, View.ld_unit_zero hz2]

end AnyInstance

/-! ## The matrix product at an index -/

/-- The left operand is read at the output's row and the contraction index, -/
theorem proj_lhs_0 (j : S2048x1024.Idx) (q : dot_S2048x1024_S1024x1024_S2048x1024_1_0_0_1_n_n.contr.Idx) :
    (dot_S2048x1024_S1024x1024_S2048x1024_1_0_0_1_n_n.lhsIdx j q 0).val = (j 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem proj_lhs_1 (j : S2048x1024.Idx) (q : dot_S2048x1024_S1024x1024_S2048x1024_1_0_0_1_n_n.contr.Idx) :
    (dot_S2048x1024_S1024x1024_S2048x1024_1_0_0_1_n_n.lhsIdx j q 1).val = (q ⟨0, by decide⟩).val :=
  dot_S2048x1024_S1024x1024_S2048x1024_1_0_0_1_n_n.lhsIdx_val_of_single rfl j q
/-- the right operand at the contraction index and the output's column. -/
theorem proj_rhs_0 (j : S2048x1024.Idx) (q : dot_S2048x1024_S1024x1024_S2048x1024_1_0_0_1_n_n.contr.Idx) :
    (dot_S2048x1024_S1024x1024_S2048x1024_1_0_0_1_n_n.rhsIdx j q 0).val = (q ⟨0, by decide⟩).val :=
  dot_S2048x1024_S1024x1024_S2048x1024_1_0_0_1_n_n.rhsIdx_val_of_single rfl j q
theorem proj_rhs_1 (j : S2048x1024.Idx) (q : dot_S2048x1024_S1024x1024_S2048x1024_1_0_0_1_n_n.contr.Idx) :
    (dot_S2048x1024_S1024x1024_S2048x1024_1_0_0_1_n_n.rhsIdx j q 1).val = (j 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The matrix product into a zero accumulator, read at `(r, k)`: the sum over the contraction index `e` of the
    left operand at `(r, e)` times the right operand at `(e, k)`. -/
theorem proj_matmul_apply (a : FVec Ideal S2048x1024 .bf16) (b : FVec Ideal S1024x1024 .bf16) (r : Fin 2048) (k : Fin 1024) :
    matmul (F := Ideal) dot_S2048x1024_S1024x1024_S2048x1024_1_0_0_1_n_n none a b (constant (F := Ideal) S2048x1024 .f32 0x00000000#32) (ix2 r k)
      = ∑ e : Fin 1024, a (ix2 r e) * b (ix2 e k) := by
  refine (Ideal.matmul_constant_zero_apply dot_S2048x1024_S1024x1024_S2048x1024_1_0_0_1_n_n none a b (ix2 r k)).trans ?_
  rw [← Equiv.sum_comp (contrEquiv1 dot_S2048x1024_S1024x1024_S2048x1024_1_0_0_1_n_n 1024 rfl rfl).symm]
  refine Finset.sum_congr rfl fun e _ => ?_
  have he := contrEquiv1_symm_val dot_S2048x1024_S1024x1024_S2048x1024_1_0_0_1_n_n 1024 rfl rfl e
  have el : dot_S2048x1024_S1024x1024_S2048x1024_1_0_0_1_n_n.lhsIdx (ix2 r k) ((contrEquiv1 dot_S2048x1024_S1024x1024_S2048x1024_1_0_0_1_n_n 1024 rfl rfl).symm e) = ix2 r e := funext fun ax => Fin.ext (by
    match ax with
    | ⟨0, _⟩ => exact proj_lhs_0 _ _
    | ⟨1, _⟩ => exact (proj_lhs_1 _ _).trans he)
  have er : dot_S2048x1024_S1024x1024_S2048x1024_1_0_0_1_n_n.rhsIdx (ix2 r k) ((contrEquiv1 dot_S2048x1024_S1024x1024_S2048x1024_1_0_0_1_n_n 1024 rfl rfl).symm e) = ix2 e k := funext fun ax => Fin.ext (by
    match ax with
    | ⟨0, _⟩ => exact (proj_rhs_0 _ _).trans he
    | ⟨1, _⟩ => exact proj_rhs_1 _ _)
  rw [el, er]

/-! ## The output block at an index -/

/-- The payload at `(0, r, k)`: at the exact values the changes of float format are the identity, the added unit
    axis is dropped, and the bias row is read at its column. -/
theorem k0_pay1_apply (x0 : Vec Ideal S2048x1024 .f32) (x1 : Vec Ideal S1024x1024 .bf16) (x2 : Vec Ideal S1x1024 .f32)
    (r : Fin 2048) (k : Fin 1024) :
    k0_pay1 (F := Ideal) x0 x1 x2 (ix3 (0 : Fin 1) r k)
      = (∑ e : Fin 1024, x0 (ix2 r e) * x1 (ix2 e k)) + x2 (ix2 (0 : Fin 1) k) := by
  unfold k0_pay1
  rw [shapeCast_ab_1ab_apply, truncf_apply, addf_apply, proj_matmul_apply, broadcastTo_1b_ab_apply]
  simp only [shapeCast_self, truncf_apply]

/-- The output window's staging buffer after the body, read at `(0, r, k)`. -/
theorem out0_3_apply (x0 : Vec Ideal S2048x1024 .f32) (x1 : Vec Ideal S1024x1024 .bf16) (x2 : Vec Ideal S1x1024 .f32)
    (r : Fin 2048) (k : Fin 1024) :
    out0_3 (F := Ideal) x0 x1 x2 (ix3 (0 : Fin 1) r k)
      = (∑ e : Fin 1024, x0 (ix2 r e) * x1 (ix2 e k)) + x2 (ix2 (0 : Fin 1) k) := by
  rw [out0_3_eq, k0_pay1_apply]

end Cert.KernelIdeal.Proj

end
-- ==== Proof.LibRealOps.lean ====
import Idealize.ShloMosaic.PureOps.Ideal
import Idealize.ShloMosaic.PureOps.Ideal.Laws
import Mathlib

/-!
# Extended-real operations on coerced reals

At the ideal instance a float is an extended real and every operation is exact.  When every value
involved is a real number `((x : ℝ) : EReal)`, each operation is the coercion of the same operation
over `ℝ`.  The equations here are oriented from the extended reals TO the reals (operation of
coercions `=` coercion of the operation), so `simp only [...]` with them moves a whole expression
under one coercion.  (They are not tagged `simp`: Mathlib tags the opposite orientation.)

Existing one-line names, for reference (Mathlib's are oriented the other way, coercion of an
operation `=` operation of coercions):
* `EReal.coe_add`, `EReal.coe_mul`, `EReal.coe_sub`, `EReal.coe_neg`, `EReal.coe_zero`,
  `EReal.coe_one`, `EReal.coe_inv`, `EReal.coe_le_coe_iff`, `EReal.coe_lt_coe_iff`,
  `EReal.coe_ne_bot`, `EReal.coe_ne_top`, `EReal.bot_lt_coe`, `EReal.coe_lt_top`,
  `EReal.coe_toReal`;
* `Idealize.ShloMosaic.Ideal.exp_coe : Ideal.exp ↑r = ↑(Real.exp r)`,
  `Ideal.sqrt_coe : Ideal.sqrt ↑r = if r < 0 then ⊥ else ↑(Real.sqrt r)`,
  `Ideal.div_coe (h : y ≠ 0) (x : EReal) : Ideal.div x ↑y = x * ↑(1 / y)`,
  `Ideal.ofBits_def`, `Ideal.maximumf_def`, `Ideal.divf_def`, `Ideal.exp_def`, `Ideal.sqrt_def`;
* the coercion's compatibility with `max` / `min` and with finite sums is proved here: `max_coe`,
  `min_coe`, `sum_coe`.
-/

noncomputable section

namespace RealOps

open Idealize.ShloMosaic

/-! ## Field operations and order -/

/-- The sum of two coerced reals is the coerced sum. -/
theorem add_coe (x y : ℝ) : (x : EReal) + (y : EReal) = ((x + y : ℝ) : EReal) :=
  (EReal.coe_add x y).symm

/-- The product of two coerced reals is the coerced product. -/
theorem mul_coe (x y : ℝ) : (x : EReal) * (y : EReal) = ((x * y : ℝ) : EReal) :=
  (EReal.coe_mul x y).symm

/-- The difference of two coerced reals is the coerced difference. -/
theorem sub_coe (x y : ℝ) : (x : EReal) - (y : EReal) = ((x - y : ℝ) : EReal) :=
  (EReal.coe_sub x y).symm

/-- The negation of a coerced real is the coerced negation. -/
theorem neg_coe (x : ℝ) : -(x : EReal) = ((-x : ℝ) : EReal) :=
  (EReal.coe_neg x).symm

/-- The maximum of two coerced reals is the coerced maximum (the coercion is monotone). -/
theorem max_coe (x y : ℝ) : max (x : EReal) (y : EReal) = ((max x y : ℝ) : EReal) :=
  (EReal.coe_strictMono.monotone.map_max).symm

/-- The minimum of two coerced reals is the coerced minimum. -/
theorem min_coe (x y : ℝ) : min (x : EReal) (y : EReal) = ((min x y : ℝ) : EReal) :=
  (EReal.coe_strictMono.monotone.map_min).symm

/-- The extended-real `1` is the coerced real `1`. -/
theorem one_eq_coe : (1 : EReal) = ((1 : ℝ) : EReal) := rfl

/-- The extended-real `0` is the coerced real `0`. -/
theorem zero_eq_coe : (0 : EReal) = ((0 : ℝ) : EReal) := rfl

/-- The exponential of a coerced real is the coerced real exponential. -/
theorem exp_coe (x : ℝ) : Ideal.exp (x : EReal) = ((Real.exp x : ℝ) : EReal) := rfl

/-- The quotient of coerced reals with a nonzero denominator is the coerced quotient. -/
theorem div_coe_coe (x : ℝ) {y : ℝ} (h : y ≠ 0) :
    Ideal.div (x : EReal) (y : EReal) = ((x / y : ℝ) : EReal) := by
  rw [Ideal.div_coe h, ← EReal.coe_mul, mul_one_div]

/-- `1 / y` for a nonzero real `y`, with the numerator the extended-real `1`. -/
theorem div_one_coe {y : ℝ} (h : y ≠ 0) : Ideal.div 1 (y : EReal) = ((1 / y : ℝ) : EReal) := by
  rw [one_eq_coe, div_coe_coe 1 h]

/-- The square root of a coerced nonnegative real is the coerced real square root. -/
theorem sqrt_coe_of_nonneg {x : ℝ} (h : 0 ≤ x) :
    Ideal.sqrt (x : EReal) = ((Real.sqrt x : ℝ) : EReal) := by
  rw [Ideal.sqrt_coe, if_neg (not_lt.mpr h)]

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- A finite sum of extended reals each of which is a coerced real is a coerced real: the sum of
the real parts. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [Finset.sum_congr rfl h, sum_coe]

/-! ## Maximum reductions

The library spells a maximum reduction over one axis as `Finset.fold max init g s` (a kernel's
`vector.multi_reduction <maximumf>`) or as `Finset.fold FloatOps.maximumf init g s` (a host
`reduce` with a maximum body); the second is the first by definition. -/

/-- An extended real strictly between `⊥` and `⊤` is a coerced real. -/
theorem exists_real_of_ne {x : EReal} (hb : x ≠ ⊥) (ht : x ≠ ⊤) : ∃ r : ℝ, x = (r : EReal) :=
  ⟨x.toReal, (EReal.coe_toReal ht hb).symm⟩

/-- The fold of `max` from a coerced real over coerced reals is the coerced fold over the reals. -/
theorem fold_max_coe {ι : Type*} (s : Finset ι) (r0 : ℝ) (f : ι → ℝ) :
    s.fold max ((r0 : ℝ) : EReal) (fun i => ((f i : ℝ) : EReal))
      = ((s.fold max r0 f : ℝ) : EReal) := by
  classical
  refine Finset.induction_on s ?_ ?_
  · simp
  · intro a s ha ih
    rw [Finset.fold_insert ha, Finset.fold_insert ha, ih, max_coe]

/-- The fold of `max` from `⊥` over a NONEMPTY family of coerced reals is a coerced real (the
family's maximum): it is above some member, so not `⊥`, and every member is below `⊤`. -/
theorem exists_real_fold_max_bot {ι : Type*} (s : Finset ι) (hs : s.Nonempty) (g : ι → EReal)
    (hg : ∀ i ∈ s, ∃ r : ℝ, g i = (r : EReal)) :
    ∃ r : ℝ, s.fold max (⊥ : EReal) g = (r : EReal) := by
  refine exists_real_of_ne (ne_of_gt ?_) (ne_of_lt ?_)
  · obtain ⟨i, hi⟩ := hs
    obtain ⟨r, hr⟩ := hg i hi
    exact (Finset.lt_fold_max _).2 (Or.inr ⟨i, hi, hr ▸ EReal.bot_lt_coe r⟩)
  · refine (Finset.fold_max_lt _).2 ⟨bot_lt_top, fun i hi => ?_⟩
    obtain ⟨r, hr⟩ := hg i hi
    exact hr ▸ EReal.coe_lt_top r

/-- The fold of `max` from a coerced real over a (possibly empty) family of coerced reals is a
coerced real. -/
theorem exists_real_fold_max_coe {ι : Type*} (s : Finset ι) (r0 : ℝ) (g : ι → EReal)
    (hg : ∀ i ∈ s, ∃ r : ℝ, g i = (r : EReal)) :
    ∃ r : ℝ, s.fold max ((r0 : ℝ) : EReal) g = (r : EReal) := by
  refine exists_real_of_ne (ne_of_gt ?_) (ne_of_lt ?_)
  · exact (Finset.lt_fold_max _).2 (Or.inl (EReal.bot_lt_coe r0))
  · refine (Finset.fold_max_lt _).2 ⟨EReal.coe_lt_top r0, fun i hi => ?_⟩
    obtain ⟨r, hr⟩ := hg i hi
    exact hr ▸ EReal.coe_lt_top r

/-- The fold of `max` is above each member: the reduction's result bounds every element. -/
theorem le_fold_max_of_mem {ι : Type*} (s : Finset ι) (b : EReal) (g : ι → EReal) {i : ι}
    (hi : i ∈ s) : g i ≤ s.fold max b g :=
  (Finset.le_fold_max _).2 (Or.inr ⟨i, hi, le_rfl⟩)

/-- A fold of the ideal instance's `maximumf` is the fold of `max`. -/
theorem fold_maximumf_eq_fold_max {φ : FTy} {ι : Type*} (s : Finset ι) (b : EReal) (g : ι → EReal) :
    s.fold (FloatOps.maximumf (F := Ideal) (φ := φ)) b g = s.fold max b g := rfl

/-- Over all of a nonempty finite type: the fold of `max` from `⊥` over coerced reals is a coerced
real. -/
theorem exists_real_fold_max_bot_univ {ι : Type*} [Fintype ι] [Nonempty ι] (g : ι → EReal)
    (hg : ∀ i, ∃ r : ℝ, g i = (r : EReal)) :
    ∃ r : ℝ, (Finset.univ : Finset ι).fold max (⊥ : EReal) g = (r : EReal) :=
  exists_real_fold_max_bot _ Finset.univ_nonempty g fun i _ => hg i

/-- The same for the ideal instance's `maximumf` as the folded operation. -/
theorem exists_real_fold_maximumf_bot_univ {φ : FTy} {ι : Type*} [Fintype ι] [Nonempty ι]
    (g : ι → EReal) (hg : ∀ i, ∃ r : ℝ, g i = (r : EReal)) :
    ∃ r : ℝ, (Finset.univ : Finset ι).fold (FloatOps.maximumf (F := Ideal) (φ := φ)) (⊥ : EReal) g
      = (r : EReal) :=
  exists_real_fold_max_bot_univ g hg

/-! ## Particular values -/

/-- `√1024 = 32`. -/
theorem sqrt_1024 : Ideal.sqrt ((1024 : ℝ) : EReal) = ((32 : ℝ) : EReal) := by
  rw [sqrt_coe_of_nonneg (by norm_num), show (1024 : ℝ) = 32 ^ 2 by norm_num,
    Real.sqrt_sq (by norm_num)]

/-- `1 / 32 = 0.03125`. -/
theorem div_one_32 : Ideal.div 1 ((32 : ℝ) : EReal) = ((0.03125 : ℝ) : EReal) := by
  rw [div_one_coe (by norm_num)]; norm_num

/-- `1 / 32`, the quotient left as a real fraction. -/
theorem div_one_32' : Ideal.div 1 ((32 : ℝ) : EReal) = ((1 / 32 : ℝ) : EReal) :=
  div_one_coe (by norm_num)

/-- The pattern `0x3D000000` denotes `2⁻⁵ = 0.03125`. -/
theorem ofBits_0x3D000000 : Ideal.ofBits .f32 0x3D000000#32 = ((0.03125 : ℝ) : EReal) := by
  simp [Ideal.ofBits, Ideal.ieee, -EReal.coe_mul]; norm_num

/-- The pattern `0x44800000` denotes `2¹⁰ = 1024`. -/
theorem ofBits_0x44800000 : Ideal.ofBits .f32 0x44800000#32 = ((1024 : ℝ) : EReal) := by
  simp [Ideal.ofBits, Ideal.ieee, -EReal.coe_mul]; norm_num

/-- The pattern `0x3F800000` denotes `1`. -/
theorem ofBits_0x3F800000 : Ideal.ofBits .f32 0x3F800000#32 = 1 := by
  simp [Ideal.ofBits, Ideal.ieee, -EReal.coe_mul]; norm_num

/-- The pattern `0xFF800000` denotes `-∞`. -/
theorem ofBits_0xFF800000 : Ideal.ofBits .f32 0xFF800000#32 = ⊥ := by
  simp [Ideal.ofBits, Ideal.ieee]

/-- The pattern `0x00000000` denotes `0`. -/
theorem ofBits_0x00000000 : Ideal.ofBits .f32 0x00000000#32 = 0 := by
  simp [Ideal.ofBits, Ideal.ieee]

/-- The pattern `0xFF333332` (sign set, exponent field 254, fraction field `0x333332`) denotes the
finite real `-(2²³ + 3355442) · 2¹⁰⁴`. -/
theorem ofBits_0xFF333332 :
    Ideal.ofBits .f32 0xFF333332#32 = ((-(11744050 * (2 : ℝ) ^ (104 : ℤ)) : ℝ) : EReal) := by
  simp [Ideal.ofBits, Ideal.ieee, -EReal.coe_mul, -EReal.coe_neg]

/-- The pattern `0xFF333332` denotes a real number. -/
theorem exists_real_ofBits_0xFF333332 : ∃ r : ℝ, Ideal.ofBits .f32 0xFF333332#32 = (r : EReal) :=
  ⟨_, ofBits_0xFF333332⟩

end RealOps

end
-- ==== Proof.FlashValue.lean ====
/- The attention kernel's payloads read at an index, at the exact values: the scaled score matrix as a sum over
   the feature axis, the running row maximum as a fold of `max`, the two exponentials, the running row sum, the
   rescaled accumulator plus the probability–value product, and the final quotient — each payload that occurs
   inside another left folded. -/
import proofs.«164067_j90838558311219_2_alg».proof.Proof.Gen.KernelIdeal.Skeleton
import proofs.«164067_j90838558311219_2_alg».proof.Proof.ProjValue
import proofs.«164067_j90838558311219_2_alg».proof.Proof.LibRealOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.FlashPay

open Cert.KernelIdeal Cert.KernelIdeal.Gen
open Cert.KernelIdeal.Proj (proj_matmul_apply)
open Idealize.ShloMosaic Idealize.ShloMosaic.ValueIdx
open scoped BigOperators

/-! ## Two column layouts -/

section Layout
variable {α : Type}

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The row reductions -/

/-- Over result row `r`, the source index with coordinate `s` on the reduced axis is `(r, s)`. -/
theorem lift_row (r : Fin 2048) (s : Fin 1024) : reduces_S2048x1024_S2048.lift (ix1 r) s = ix2 r s :=
  funext fun c => Fin.ext (by
    match c with
    | ⟨0, _⟩ => rfl
    | ⟨1, _⟩ => rfl)

/-- A row maximum started from the word of `-∞`, at row `r`: the fold of `max` from `⊥` over the row. -/
theorem rowMax_apply (X : FVec Ideal S2048x1024 .f32) (hφ : FKind.Formats .f32)
    (hacc : (0xFF800000#32 : BitVec FTy.f32.bits) = FKind.maximumf.neutral .f32 hφ) (r : Fin 2048) :
    multiReduction .maximumf [1] S2048 X 0xFF800000#32 reduces_S2048x1024_S2048 hφ hacc (ix1 r)
      = (Finset.univ : Finset (Fin 1024)).fold max (⊥ : EReal) (fun s => X (ix2 r s)) := by
  refine (Ideal.multiReduction_maximumf_single X 0xFF800000#32 reduces_S2048x1024_S2048 hφ hacc (ix1 r)).trans ?_
  show (Finset.univ : Finset (Fin 1024)).fold max (Ideal.ofBits .f32 0xFF800000#32) (fun s => X (reduces_S2048x1024_S2048.lift (ix1 r) s)) = _
  rw [RealOps.ofBits_0xFF800000]
  exact Finset.fold_congr fun s _ => congrArg X (lift_row r s)

/-- A row sum started from the zero word, at row `r`: the sum over the row. -/
theorem rowSum_apply (X : FVec Ideal S2048x1024 .f32) (hφ : FKind.Formats .f32)
    (hacc : (0x00000000#32 : BitVec FTy.f32.bits) = FKind.add.neutral .f32 hφ) (r : Fin 2048) :
    multiReduction .add [1] S2048 X 0x00000000#32 reduces_S2048x1024_S2048 hφ hacc (ix1 r) = ∑ s : Fin 1024, X (ix2 r s) := by
  refine (Ideal.multiReduction_add_single X 0x00000000#32 reduces_S2048x1024_S2048 hφ hacc (ix1 r)).trans ?_
  show ∑ s : Fin 1024, X (reduces_S2048x1024_S2048.lift (ix1 r) s) = _
  simp only [lift_row]

/-! ## The score product: both operands contracted on their feature axis -/

theorem scores_lhs_0 (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem scores_lhs_1 (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
theorem scores_rhs_0 (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem scores_rhs_1 (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The product of a `[2048, 1024]` matrix with the transpose of a `[1024, 1024]` one into a zero accumulator, read
    at `(r, s)`: the sum over the feature index `d` of the left operand at `(r, d)` times the right one at `(s, d)`. -/
theorem scores_matmul_apply (a : FVec Ideal S2048x1024 .bf16) (b : FVec Ideal S1024x1024 .bf16) (r : Fin 2048) (s : Fin 1024) :
    matmul (F := Ideal) dot_S2048x1024_S1024x1024_S2048x1024_1_1_0_0_n_n none a b (constant (F := Ideal) S2048x1024 .f32 0x00000000#32) (ix2 r s)
      = ∑ d : Fin 1024, a (ix2 r d) * b (ix2 s d) := by
  refine (Ideal.matmul_constant_zero_apply dot_S2048x1024_S1024x1024_S2048x1024_1_1_0_0_n_n none a b (ix2 r s)).trans ?_
  rw [← Equiv.sum_comp (contrEquiv1 dot_S2048x1024_S1024x1024_S2048x1024_1_1_0_0_n_n 1024 rfl rfl).symm]
  refine Finset.sum_congr rfl fun d _ => ?_
  have hd := contrEquiv1_symm_val dot_S2048x1024_S1024x1024_S2048x1024_1_1_0_0_n_n 1024 rfl rfl d
  have el : dot_S2048x1024_S1024x1024_S2048x1024_1_1_0_0_n_n.lhsIdx (ix2 r s) ((contrEquiv1 dot_S2048x1024_S1024x1024_S2048x1024_1_1_0_0_n_n 1024 rfl rfl).symm d) = ix2 r d := funext fun ax => Fin.ext (by
    match ax with
    | ⟨0, _⟩ => exact scores_lhs_0 _ _
    | ⟨1, _⟩ => exact (scores_lhs_1 _ _).trans hd)
  have er : dot_S2048x1024_S1024x1024_S2048x1024_1_1_0_0_n_n.rhsIdx (ix2 r s) ((contrEquiv1 dot_S2048x1024_S1024x1024_S2048x1024_1_1_0_0_n_n 1024 rfl rfl).symm d) = ix2 s d := funext fun ax => Fin.ext (by
    match ax with
    | ⟨0, _⟩ => exact scores_rhs_0 _ _
    | ⟨1, _⟩ => exact (scores_rhs_1 _ _).trans hd)
  rw [el, er]

/-! ## The payloads at an index -/

/-- The scaled scores at `(r, s)`: the dot product of query row `r` with key row `s`, times the scale word's value. -/
theorem k1_pay8_apply (q : Vec Ideal S1x2048x1024 .bf16) (k : Vec Ideal S1x1024x1024 .bf16) (r : Fin 2048) (s : Fin 1024) :
    k1_pay8 (F := Ideal) q k (ix2 r s)
      = (∑ d : Fin 1024, q (ix3 (0 : Fin 1) r d) * k (ix3 (0 : Fin 1) s d)) * Ideal.ofBits .f32 0x3D000000#32 := by
  unfold k1_pay8
  rw [mulf_apply, broadcast_apply, scores_matmul_apply]
  simp only [shapeCast_1ab_ab_apply]
  rfl

/-- The new running maximum at row `r`: the larger of the old one and the row maximum of the scaled scores. -/
theorem k1_pay9_apply (q : Vec Ideal S1x2048x1024 .bf16) (k : Vec Ideal S1x1024x1024 .bf16) (m : Vec Ideal S2048x1 .f32) (r : Fin 2048) :
    k1_pay9 (F := Ideal) q k m (ix2 r (0 : Fin 1))
      = max (m (ix2 r (0 : Fin 1)))
          ((Finset.univ : Finset (Fin 1024)).fold max (⊥ : EReal) (fun s => k1_pay8 (F := Ideal) q k (ix2 r s))) := by
  unfold k1_pay9
  rw [maximumf_apply, shapeCast_a_a1_apply]
  exact congrArg (max (m (ix2 r (0 : Fin 1)))) (rowMax_apply (k1_pay8 (F := Ideal) q k) _ _ r)

/-- The rescaling factor at row `r`: the exponential of the old maximum less the new one. -/
theorem k1_pay10_apply (q : Vec Ideal S1x2048x1024 .bf16) (k : Vec Ideal S1x1024x1024 .bf16) (m m' : Vec Ideal S2048x1 .f32) (r : Fin 2048) :
    k1_pay10 (F := Ideal) q k m m' (ix2 r (0 : Fin 1))
      = Ideal.exp (m' (ix2 r (0 : Fin 1)) - k1_pay9 (F := Ideal) q k m (ix2 r (0 : Fin 1))) := by
  unfold k1_pay10
  rfl

/-- The unnormalised probabilities at `(r, s)`: the exponential of the scaled score less the new row maximum. -/
theorem k1_pay11_apply (q : Vec Ideal S1x2048x1024 .bf16) (k : Vec Ideal S1x1024x1024 .bf16) (m : Vec Ideal S2048x1 .f32)
    (r : Fin 2048) (s : Fin 1024) :
    k1_pay11 (F := Ideal) q k m (ix2 r s)
      = Ideal.exp (k1_pay8 (F := Ideal) q k (ix2 r s) - k1_pay9 (F := Ideal) q k m (ix2 r (0 : Fin 1))) := by
  unfold k1_pay11
  show Ideal.exp (k1_pay8 (F := Ideal) q k (ix2 r s)
    - broadcastTo S2048x1024 (k1_pay9 (F := Ideal) q k m) broadcasts_S2048x1_S2048x1024 (ix2 r s)) = _
  rw [broadcastTo_a1_ab_apply]

/-- The new running sum at row `r`: the old one rescaled, plus the row sum of the unnormalised probabilities. -/
theorem k1_pay12_apply (q : Vec Ideal S1x2048x1024 .bf16) (k : Vec Ideal S1x1024x1024 .bf16) (m m' l : Vec Ideal S2048x1 .f32) (r : Fin 2048) :
    k1_pay12 (F := Ideal) q k m m' l (ix2 r (0 : Fin 1))
      = k1_pay10 (F := Ideal) q k m m' (ix2 r (0 : Fin 1)) * l (ix2 r (0 : Fin 1))
        + ∑ s : Fin 1024, k1_pay11 (F := Ideal) q k m (ix2 r s) := by
  unfold k1_pay12
  rw [shapeCast_self, addf_apply, mulf_apply, shapeCast_a_a1_apply]
  exact congrArg (k1_pay10 (F := Ideal) q k m m' (ix2 r (0 : Fin 1)) * l (ix2 r (0 : Fin 1)) + ·)
    (rowSum_apply (k1_pay11 (F := Ideal) q k m) _ _ r)

/-- The new accumulator at `(r, col)`: the old one rescaled, plus the product of the probabilities' row `r` with the
    values' column `col`. -/
theorem k1_pay1_apply (v : Vec Ideal S1x1024x1024 .bf16) (a : FVec Ideal S2048x1 .f32) (p : FVec Ideal S2048x1024 .f32)
    (acc : Vec Ideal S2048x1024 .f32) (r : Fin 2048) (col : Fin 1024) :
    k1_pay1 (F := Ideal) (k1_pay7 (F := Ideal) v) a p acc (ix2 r col)
      = a (ix2 r (0 : Fin 1)) * acc (ix2 r col) + ∑ s : Fin 1024, p (ix2 r s) * v (ix3 (0 : Fin 1) s col) := by
  unfold k1_pay1 k1_pay7
  rw [shapeCast_self, addf_apply, mulf_apply, broadcastTo_a1_ab_apply, proj_matmul_apply]
  simp only [truncf_apply, shapeCast_1ab_ab_apply]

section AnyInstance
variable {F : FTy → Type} [FloatOps F]

/-- The running maximum is stored as computed. -/
theorem k1_pay2_eq (m : FVec F S2048x1 .f32) : k1_pay2 (F := F) m = m := by
  unfold k1_pay2
  exact shapeCast_self m _

end AnyInstance

/-- The output at `(0, r, col)`: the accumulator over the running sum of its row. -/
theorem k1_pay3_apply (acc : Vec Ideal S2048x1024 .f32) (l : Vec Ideal S2048x1 .f32) (r : Fin 2048) (col : Fin 1024) :
    k1_pay3 (F := Ideal) acc l (ix3 (0 : Fin 1) r col) = Ideal.div (acc (ix2 r col)) (l (ix2 r (0 : Fin 1))) := by
  unfold k1_pay3
  rw [shapeCast_ab_1ab_apply, divf_apply, broadcastTo_a1_ab_apply]

/-- The three initial values: a large negative finite maximum, a zero sum, a zero accumulator. -/
theorem k1_pay4_apply (r : Fin 2048) : k1_pay4 (F := Ideal) (ix2 r (0 : Fin 1)) = Ideal.ofBits .f32 0xFF333332#32 := by
  unfold k1_pay4
  rw [shapeCast_self]
  rfl
theorem k1_pay5_apply (r : Fin 2048) : k1_pay5 (F := Ideal) (ix2 r (0 : Fin 1)) = Ideal.ofBits .f32 0x00000000#32 := by
  unfold k1_pay5
  rw [shapeCast_self]
  rfl
theorem k1_pay6_apply (r : Fin 2048) (col : Fin 1024) : k1_pay6 (F := Ideal) (ix2 r col) = Ideal.ofBits .f32 0x00000000#32 := by
  unfold k1_pay6
  rw [shapeCast_self]
  rfl

end Cert.KernelIdeal.FlashPay

end
-- ==== Proof.AttnSpec.lean ====
/-
  The function both programs compute, over the reals. For a batch `b`, a query row `q` and an output column `c`:
  the three projections are rows of `x` times columns of a weight matrix plus a bias; a score is the inner product of a
  projected query row with a projected key row, times 1/32 (the model width is 1024 = 32²); the result is the softmax
  of the score row, as weights, applied to the projected value column. The softmax is written without a shift:
  exp (S s) / Σ exp (S s'). Every shifted spelling, exp (S s − ν) over Σ exp (S s' − ν), is the same number (the factor
  exp (−ν) cancels), so each program is compared with this one form.
-/
import Idealize.ShloMosaic.Lib.ValueIdx
import Idealize.ShloMosaic.PureOps.Ideal

noncomputable section

open scoped BigOperators

namespace Cert.AttnSpec

open Idealize.ShloMosaic Idealize.ShloMosaic.ValueIdx

/-- The input sequence: 4 batches of 4096 rows of width 1024. -/
abbrev SX : Shape := ⟨3, ![4, 4096, 1024]⟩
/-- A weight matrix, laid out input feature by output feature. -/
abbrev SW : Shape := ⟨2, ![1024, 1024]⟩
/-- A bias vector. -/
abbrev SB : Shape := ⟨1, ![1024]⟩

/-- A projection of the sequence: row `(b, q)` of `x` against column `k` of `W`, plus the bias at `k`. -/
def proj (x : SX.Idx → ℝ) (W : SW.Idx → ℝ) (bias : SB.Idx → ℝ) (b : Fin 4) (q : Fin 4096) (k : Fin 1024) : ℝ :=
  (∑ e : Fin 1024, x (ix3 b q e) * W (ix2 e k)) + bias (ix1 k)

/-- The scaled score of query row `q` against key row `s` of batch `b`: their inner product over the 1024 features,
    times 1/32. -/
def score (Q K : Fin 4 → Fin 4096 → Fin 1024 → ℝ) (b : Fin 4) (q s : Fin 4096) : ℝ :=
  (∑ k : Fin 1024, Q b q k * K b s k) * (1 / 32 : ℝ)

/-- Softmax weights of a score row applied to a value column. -/
def softmaxDot (S V : Fin 4096 → ℝ) : ℝ :=
  ∑ s : Fin 4096, (Real.exp (S s) / ∑ s' : Fin 4096, Real.exp (S s')) * V s

/-- Attention's output at batch `b`, query row `q`, column `c`, from the seven argument arrays. -/
def out (x : SX.Idx → ℝ) (Wq : SW.Idx → ℝ) (bq : SB.Idx → ℝ) (Wk : SW.Idx → ℝ) (bk : SB.Idx → ℝ)
    (Wv : SW.Idx → ℝ) (bv : SB.Idx → ℝ) (b : Fin 4) (q : Fin 4096) (c : Fin 1024) : ℝ :=
  softmaxDot (fun s => score (proj x Wq bq) (proj x Wk bk) b q s) (fun s => proj x Wv bv b s c)

end Cert.AttnSpec

end
-- ==== Proof.LibOnlineSoftmax.lean ====
import Mathlib

/-!
# Online (blocked, rescaled) softmax accumulation over the reals

A softmax-weighted average `(∑ j, exp (s j - M) * v j) / (∑ j, exp (s j - M))` does not depend on
the shift `M`.  A blocked evaluation keeps a running shift `mu t` and running sums
`l t = ∑ exp (s j - mu t)`, `a t = ∑ exp (s j - mu t) * v j` over the keys seen so far; moving from
shift `mu` to shift `mu'` multiplies both by `exp (mu - mu')`.  Nothing here uses that the shifts are
maxima: they are arbitrary reals.
-/

namespace OnlineSoftmax

open Finset

/-- Changing the shift: `exp (mu - mu') * exp (x - mu) = exp (x - mu')`. -/
theorem exp_rescale (mu mu' x : ℝ) :
    Real.exp (mu - mu') * Real.exp (x - mu) = Real.exp (x - mu') := by
  rw [← Real.exp_add]; congr 1; ring

/-! ## (a) one step -/

/-- One step, denominators: rescaling the old sum from shift `mu` to `mu'` and adding the new block's
terms gives the sum over old and new keys together at shift `mu'`. -/
theorem step_sum {J K : Type*} [Fintype J] [Fintype K] (mu mu' : ℝ) (s : J → ℝ) (s' : K → ℝ) :
    Real.exp (mu - mu') * (∑ j, Real.exp (s j - mu)) + ∑ k, Real.exp (s' k - mu')
      = ∑ x : J ⊕ K, Real.exp (Sum.elim s s' x - mu') := by
  rw [Fintype.sum_sum_type, Finset.mul_sum]
  simp only [Sum.elim_inl, Sum.elim_inr, exp_rescale]

/-- One step, numerators: the same with each term weighted by its value. -/
theorem step_wsum {J K : Type*} [Fintype J] [Fintype K] (mu mu' : ℝ)
    (s : J → ℝ) (v : J → ℝ) (s' : K → ℝ) (v' : K → ℝ) :
    Real.exp (mu - mu') * (∑ j, Real.exp (s j - mu) * v j) + ∑ k, Real.exp (s' k - mu') * v' k
      = ∑ x : J ⊕ K, Real.exp (Sum.elim s s' x - mu') * Sum.elim v v' x := by
  rw [Fintype.sum_sum_type, Finset.mul_sum]
  simp only [Sum.elim_inl, Sum.elim_inr, ← mul_assoc, exp_rescale]

/-! ## (b) the blocked recurrence -/

/-- The blocks with index below `t + 1` are the block `t` together with the blocks below `t`. -/
theorem filter_lt_succ {n : ℕ} (t : ℕ) (h : t < n) :
    (univ.filter fun b : Fin n => b.val < t + 1)
      = insert (⟨t, h⟩ : Fin n) (univ.filter fun b : Fin n => b.val < t) := by
  ext b
  simp only [mem_filter, mem_univ, true_and, mem_insert, Fin.ext_iff]
  omega

/-- The block `t` is not among the blocks below `t`. -/
theorem not_mem_filter_lt {n : ℕ} (t : ℕ) (h : t < n) :
    (⟨t, h⟩ : Fin n) ∉ (univ.filter fun b : Fin n => b.val < t) := by
  simp

/-- When `t = n` every block is below `t`. -/
theorem filter_lt_self (n : ℕ) : (univ.filter fun b : Fin n => b.val < n) = univ := by
  ext b; simp

/-- Closed form of a rescaled weighted accumulation: if `a 0 = 0` and, for every block `t < n`,
`a (t+1) = exp (mu t - mu (t+1)) * a t + ∑ k, exp (S t k - mu (t+1)) * W t k`, then after `t ≤ n`
blocks `a t` is the weighted sum over the first `t` blocks at shift `mu t`. -/
theorem blocked_wsum {n K : ℕ} (S W : Fin n → Fin K → ℝ) (mu : ℕ → ℝ) (a : ℕ → ℝ)
    (ha0 : a 0 = 0)
    (ha : ∀ (t : ℕ) (h : t < n), a (t + 1)
      = Real.exp (mu t - mu (t + 1)) * a t
        + ∑ k, Real.exp (S ⟨t, h⟩ k - mu (t + 1)) * W ⟨t, h⟩ k) :
    ∀ t, t ≤ n →
      a t = ∑ b ∈ univ.filter (fun b : Fin n => b.val < t), ∑ k, Real.exp (S b k - mu t) * W b k := by
  intro t
  induction t with
  | zero => intro _; simp [ha0]
  | succ t ih =>
    intro ht
    have h : t < n := ht
    rw [ha t h, ih (Nat.le_of_lt h), filter_lt_succ t h, sum_insert (not_mem_filter_lt t h),
      Finset.mul_sum, add_comm]
    congr 1
    refine sum_congr rfl fun b _ => ?_
    rw [Finset.mul_sum]
    refine sum_congr rfl fun k _ => ?_
    rw [← mul_assoc, exp_rescale]

/-- Closed form of the rescaled unweighted accumulation (the softmax denominator). -/
theorem blocked_sum {n K : ℕ} (S : Fin n → Fin K → ℝ) (mu : ℕ → ℝ) (l : ℕ → ℝ)
    (hl0 : l 0 = 0)
    (hl : ∀ (t : ℕ) (h : t < n), l (t + 1)
      = Real.exp (mu t - mu (t + 1)) * l t + ∑ k, Real.exp (S ⟨t, h⟩ k - mu (t + 1))) :
    ∀ t, t ≤ n →
      l t = ∑ b ∈ univ.filter (fun b : Fin n => b.val < t), ∑ k, Real.exp (S b k - mu t) := by
  intro t ht
  have := blocked_wsum S (fun _ _ => 1) mu l hl0 (by simpa using hl) t ht
  simpa using this

/-- After all `n` blocks the unweighted accumulation is the full double sum at the last shift. -/
theorem blocked_sum_final {n K : ℕ} (S : Fin n → Fin K → ℝ) (mu : ℕ → ℝ) (l : ℕ → ℝ)
    (hl0 : l 0 = 0)
    (hl : ∀ (t : ℕ) (h : t < n), l (t + 1)
      = Real.exp (mu t - mu (t + 1)) * l t + ∑ k, Real.exp (S ⟨t, h⟩ k - mu (t + 1))) :
    l n = ∑ b, ∑ k, Real.exp (S b k - mu n) := by
  rw [blocked_sum S mu l hl0 hl n le_rfl, filter_lt_self]

/-- After all `n` blocks the weighted accumulation is the full weighted double sum at the last
shift. -/
theorem blocked_wsum_final {n K : ℕ} (S W : Fin n → Fin K → ℝ) (mu : ℕ → ℝ) (a : ℕ → ℝ)
    (ha0 : a 0 = 0)
    (ha : ∀ (t : ℕ) (h : t < n), a (t + 1)
      = Real.exp (mu t - mu (t + 1)) * a t
        + ∑ k, Real.exp (S ⟨t, h⟩ k - mu (t + 1)) * W ⟨t, h⟩ k) :
    a n = ∑ b, ∑ k, Real.exp (S b k - mu n) * W b k := by
  rw [blocked_wsum S W mu a ha0 ha n le_rfl, filter_lt_self]

/-! ## (c) shift invariance and normalisation -/

/-- A nonempty sum of exponentials is positive. -/
theorem sum_exp_pos {J : Type*} [Fintype J] [Nonempty J] (s : J → ℝ) (M : ℝ) :
    0 < ∑ j, Real.exp (s j - M) :=
  Finset.sum_pos (fun _ _ => Real.exp_pos _) Finset.univ_nonempty

/-- A nonempty sum of exponentials is nonzero. -/
theorem sum_exp_ne_zero {J : Type*} [Fintype J] [Nonempty J] (s : J → ℝ) (M : ℝ) :
    (∑ j, Real.exp (s j - M)) ≠ 0 :=
  (sum_exp_pos s M).ne'

/-- The softmax-weighted average does not depend on the shift: the quotient of the two sums at any
shift `M` is the sum of the values weighted by the normalised exponentials at any shift `nu`. -/
theorem softmax_shift {J : Type*} [Fintype J] [Nonempty J] (s v : J → ℝ) (M nu : ℝ) :
    (∑ j, Real.exp (s j - M) * v j) / (∑ j, Real.exp (s j - M))
      = ∑ j, (Real.exp (s j - nu) / ∑ i, Real.exp (s i - nu)) * v j := by
  have hnu : (∑ i, Real.exp (s i - nu)) ≠ 0 := sum_exp_ne_zero s nu
  have hc : Real.exp (nu - M) ≠ 0 := (Real.exp_pos _).ne'
  have h1 : ∑ j, Real.exp (s j - M) * v j
      = Real.exp (nu - M) * ∑ j, Real.exp (s j - nu) * v j := by
    rw [Finset.mul_sum]
    refine sum_congr rfl fun j _ => ?_
    rw [← mul_assoc, exp_rescale]
  have h2 : ∑ j, Real.exp (s j - M) = Real.exp (nu - M) * ∑ j, Real.exp (s j - nu) := by
    rw [Finset.mul_sum]
    refine sum_congr rfl fun j _ => ?_
    rw [exp_rescale]
  rw [h1, h2, mul_div_mul_left _ _ hc, Finset.sum_div]
  refine sum_congr rfl fun j _ => ?_
  rw [div_mul_eq_mul_div]

/-- With shift `0` on the right: the quotient of the two sums at any shift `M` is the plain softmax
average `∑ j, (exp (s j) / ∑ i, exp (s i)) * v j`. -/
theorem softmax_unshift {J : Type*} [Fintype J] [Nonempty J] (s v : J → ℝ) (M : ℝ) :
    (∑ j, Real.exp (s j - M) * v j) / (∑ j, Real.exp (s j - M))
      = ∑ j, (Real.exp (s j) / ∑ i, Real.exp (s i)) * v j := by
  simpa using softmax_shift s v M 0

/-- The normalised weights at any shift `nu` give the same average as the unshifted ones. -/
theorem softmax_weights_shift {J : Type*} [Fintype J] [Nonempty J] (s v : J → ℝ) (nu : ℝ) :
    ∑ j, (Real.exp (s j - nu) / ∑ i, Real.exp (s i - nu)) * v j
      = ∑ j, (Real.exp (s j) / ∑ i, Real.exp (s i)) * v j := by
  rw [← softmax_shift s v nu nu, softmax_unshift]

/-! ## (d) re-indexing a sum over `Fin (n * K)` as a double sum -/

/-- Offset `k` of block `b` lies below `n * K` (index written `K * b + k`). -/
theorem mul_add_lt {n K : ℕ} (b : Fin n) (k : Fin K) : K * b.val + k.val < n * K :=
  calc K * b.val + k.val < K * b.val + K := Nat.add_lt_add_left k.isLt _
    _ = K * (b.val + 1) := by ring
    _ ≤ K * n := Nat.mul_le_mul_left _ b.isLt
    _ = n * K := Nat.mul_comm _ _

/-- Offset `k` of block `b` lies below `n * K` (index written `b * K + k`). -/
theorem add_mul_lt {n K : ℕ} (b : Fin n) (k : Fin K) : b.val * K + k.val < n * K := by
  rw [Nat.mul_comm b.val K]; exact mul_add_lt b k

/-- A sum over `Fin (n * K)` is the double sum over blocks `b` and offsets `k`, with index
`K * b + k`. -/
theorem sum_fin_mul {n K : ℕ} (f : Fin (n * K) → ℝ) :
    ∑ i, f i = ∑ b : Fin n, ∑ k : Fin K, f ⟨K * b.val + k.val, mul_add_lt b k⟩ := by
  rw [← Fintype.sum_prod_type', ← Equiv.sum_comp finProdFinEquiv f]
  refine sum_congr rfl fun x _ => ?_
  congr 1
  ext
  simp [finProdFinEquiv, Nat.add_comm]

/-- The same with index `b * K + k`. -/
theorem sum_fin_mul' {n K : ℕ} (f : Fin (n * K) → ℝ) :
    ∑ i, f i = ∑ b : Fin n, ∑ k : Fin K, f ⟨b.val * K + k.val, add_mul_lt b k⟩ := by
  rw [sum_fin_mul f]
  refine sum_congr rfl fun b _ => sum_congr rfl fun k _ => ?_
  congr 1
  ext
  simp [Nat.mul_comm]

/-! ## The blocked evaluation computes the softmax average -/

/-- If `l`, `a` start at `0` and follow the rescaled accumulation through `n` blocks of `K` keys, with
arbitrary shifts `mu t`, then `a n / l n` is the softmax average of `V` with scores `S` over all
`n * K` keys (written with weights normalised at an arbitrary shift `nu`). -/
theorem online_softmax {n K : ℕ} (hn : 0 < n) (hK : 0 < K) (S V : Fin n → Fin K → ℝ)
    (mu l a : ℕ → ℝ) (hl0 : l 0 = 0) (ha0 : a 0 = 0)
    (hl : ∀ (t : ℕ) (h : t < n), l (t + 1)
      = Real.exp (mu t - mu (t + 1)) * l t + ∑ k, Real.exp (S ⟨t, h⟩ k - mu (t + 1)))
    (ha : ∀ (t : ℕ) (h : t < n), a (t + 1)
      = Real.exp (mu t - mu (t + 1)) * a t
        + ∑ k, Real.exp (S ⟨t, h⟩ k - mu (t + 1)) * V ⟨t, h⟩ k)
    (nu : ℝ) :
    a n / l n
      = ∑ b, ∑ k, (Real.exp (S b k - nu) / ∑ b', ∑ k', Real.exp (S b' k' - nu)) * V b k := by
  haveI : Nonempty (Fin n × Fin K) := ⟨(⟨0, hn⟩, ⟨0, hK⟩)⟩
  rw [blocked_sum_final S mu l hl0 hl, blocked_wsum_final S V mu a ha0 ha]
  have h := softmax_shift (J := Fin n × Fin K) (fun p => S p.1 p.2) (fun p => V p.1 p.2) (mu n) nu
  simp only [Fintype.sum_prod_type] at h
  exact h

/-- The same for keys laid out flat, key `K * b + k` being offset `k` of block `b`: `a n / l n` is
the softmax average over `Fin (n * K)`. -/
theorem online_softmax_flat {n K : ℕ} (hn : 0 < n) (hK : 0 < K) (s v : Fin (n * K) → ℝ)
    (mu l a : ℕ → ℝ) (hl0 : l 0 = 0) (ha0 : a 0 = 0)
    (hl : ∀ (t : ℕ) (h : t < n), l (t + 1)
      = Real.exp (mu t - mu (t + 1)) * l t
        + ∑ k : Fin K, Real.exp (s ⟨K * t + k.val, mul_add_lt ⟨t, h⟩ k⟩ - mu (t + 1)))
    (ha : ∀ (t : ℕ) (h : t < n), a (t + 1)
      = Real.exp (mu t - mu (t + 1)) * a t
        + ∑ k : Fin K, Real.exp (s ⟨K * t + k.val, mul_add_lt ⟨t, h⟩ k⟩ - mu (t + 1))
            * v ⟨K * t + k.val, mul_add_lt ⟨t, h⟩ k⟩)
    (nu : ℝ) :
    a n / l n = ∑ j, (Real.exp (s j - nu) / ∑ i, Real.exp (s i - nu)) * v j := by
  have h := online_softmax hn hK (fun b k => s ⟨K * b.val + k.val, mul_add_lt b k⟩)
    (fun b k => v ⟨K * b.val + k.val, mul_add_lt b k⟩) mu l a hl0 ha0 hl ha nu
  rw [h, sum_fin_mul (fun j => (Real.exp (s j - nu) / ∑ i, Real.exp (s i - nu)) * v j),
    sum_fin_mul (fun i => Real.exp (s i - nu))]

end OnlineSoftmax
-- ==== Proof.FlashRowMath.lean ====
/-
  The closing step of the online softmax over the reals, at this program's sizes: 4 blocks of 1024 keys. A running
  pair (l, a) that starts at 0 and, at each block, is rescaled from the old shift to the new one and increased by the
  block's exponentials (weighted by the values for a) ends, whatever the shifts were, with a / l the softmax average of
  the values over all 4096 keys.
-/
import proofs.«164067_j90838558311219_2_alg».proof.Proof.LibOnlineSoftmax
import proofs.«164067_j90838558311219_2_alg».proof.Proof.LibRealOps
import proofs.«164067_j90838558311219_2_alg».proof.Proof.AttnSpec

noncomputable section

namespace Cert.FlashRowMath

open OnlineSoftmax

/-- After the four blocks the running denominator is the sum of the exponentials over all 4096 keys at the last
    shift. -/
theorem l4_eq (S : Fin 4096 → ℝ) (mu l : ℕ → ℝ) (hl0 : l 0 = 0)
    (hl : ∀ (j : ℕ) (h : j < 4), l (j + 1)
      = Real.exp (mu j - mu (j + 1)) * l j
        + ∑ s : Fin 1024, Real.exp (S ⟨1024 * j + s.val, by omega⟩ - mu (j + 1))) :
    l 4 = ∑ i : Fin 4096, Real.exp (S i - mu 4) := by
  have h := blocked_sum_final (n := 4) (K := 1024)
    (fun b k => S ⟨1024 * b.val + k.val, by have := b.isLt; have := k.isLt; omega⟩) mu l hl0 hl
  rw [h]
  exact (sum_fin_mul (n := 4) (K := 1024) (fun i => Real.exp (S i - mu 4))).symm

/-- After the four blocks the running numerator is the sum of the exponentials times the values over all 4096 keys
    at the last shift. -/
theorem a4_eq (S V : Fin 4096 → ℝ) (mu a : ℕ → ℝ) (ha0 : a 0 = 0)
    (ha : ∀ (j : ℕ) (h : j < 4), a (j + 1)
      = Real.exp (mu j - mu (j + 1)) * a j
        + ∑ s : Fin 1024, Real.exp (S ⟨1024 * j + s.val, by omega⟩ - mu (j + 1))
            * V ⟨1024 * j + s.val, by omega⟩) :
    a 4 = ∑ i : Fin 4096, Real.exp (S i - mu 4) * V i := by
  have h := blocked_wsum_final (n := 4) (K := 1024)
    (fun b k => S ⟨1024 * b.val + k.val, by have := b.isLt; have := k.isLt; omega⟩)
    (fun b k => V ⟨1024 * b.val + k.val, by have := b.isLt; have := k.isLt; omega⟩) mu a ha0 ha
  rw [h]
  exact (sum_fin_mul (n := 4) (K := 1024) (fun i => Real.exp (S i - mu 4) * V i)).symm

/-- (i) The final denominator is not zero: it is a sum of 4096 exponentials. -/
theorem l4_ne_zero (S : Fin 4096 → ℝ) (mu l : ℕ → ℝ) (hl0 : l 0 = 0)
    (hl : ∀ (j : ℕ) (h : j < 4), l (j + 1)
      = Real.exp (mu j - mu (j + 1)) * l j
        + ∑ s : Fin 1024, Real.exp (S ⟨1024 * j + s.val, by omega⟩ - mu (j + 1))) :
    l 4 ≠ 0 := by
  haveI : Nonempty (Fin 4096) := ⟨⟨0, by norm_num⟩⟩
  rw [l4_eq S mu l hl0 hl]
  exact sum_exp_ne_zero S (mu 4)

/-- (ii) The final quotient is the softmax average of the values over all 4096 keys. -/
theorem ratio_eq_softmaxDot (S V : Fin 4096 → ℝ) (mu l a : ℕ → ℝ) (hl0 : l 0 = 0) (ha0 : a 0 = 0)
    (hl : ∀ (j : ℕ) (h : j < 4), l (j + 1)
      = Real.exp (mu j - mu (j + 1)) * l j
        + ∑ s : Fin 1024, Real.exp (S ⟨1024 * j + s.val, by omega⟩ - mu (j + 1)))
    (ha : ∀ (j : ℕ) (h : j < 4), a (j + 1)
      = Real.exp (mu j - mu (j + 1)) * a j
        + ∑ s : Fin 1024, Real.exp (S ⟨1024 * j + s.val, by omega⟩ - mu (j + 1))
            * V ⟨1024 * j + s.val, by omega⟩) :
    a 4 / l 4 = Cert.AttnSpec.softmaxDot S V := by
  haveI : Nonempty (Fin 4096) := ⟨⟨0, by norm_num⟩⟩
  rw [a4_eq S V mu a ha0 ha, l4_eq S mu l hl0 hl, Cert.AttnSpec.softmaxDot]
  exact softmax_unshift S V (mu 4)

/-- (iii) The same over the extended reals: the quotient of the coerced final pair is the coerced softmax average. -/
theorem div_eq_softmaxDot (S V : Fin 4096 → ℝ) (mu l a : ℕ → ℝ) (hl0 : l 0 = 0) (ha0 : a 0 = 0)
    (hl : ∀ (j : ℕ) (h : j < 4), l (j + 1)
      = Real.exp (mu j - mu (j + 1)) * l j
        + ∑ s : Fin 1024, Real.exp (S ⟨1024 * j + s.val, by omega⟩ - mu (j + 1)))
    (ha : ∀ (j : ℕ) (h : j < 4), a (j + 1)
      = Real.exp (mu j - mu (j + 1)) * a j
        + ∑ s : Fin 1024, Real.exp (S ⟨1024 * j + s.val, by omega⟩ - mu (j + 1))
            * V ⟨1024 * j + s.val, by omega⟩) :
    Idealize.ShloMosaic.Ideal.div ((a 4 : ℝ) : EReal) ((l 4 : ℝ) : EReal)
      = ((Cert.AttnSpec.softmaxDot S V : ℝ) : EReal) := by
  rw [RealOps.div_coe_coe (a 4) (l4_ne_zero S mu l hl0 hl), ratio_eq_softmaxDot S V mu l a hl0 ha0 hl ha]

end Cert.FlashRowMath

end
-- ==== Proof.FlashInduct.lean ====
/-
  The flash-attention recurrence on real numbers. Fix a query row of a query block and an output column. If the row of
  the query block, the key blocks and the value blocks' column hold (coerced) real numbers, then after each key block
  the row's running maximum, denominator and the accumulator's entry are coerced reals mu, l, a obeying
      l' = exp (mu − mu') · l + Σ_s exp (S s − mu'),     a' = exp (mu − mu') · a + Σ_s exp (S s − mu') · v s
  from l = 0, a = 0 — S the row's scaled scores against this block's keys. After the fourth key block the output
  block's entry is a / l.
-/
import proofs.«164067_j90838558311219_2_alg».proof.Proof.FlashState
import proofs.«164067_j90838558311219_2_alg».proof.Proof.FlashValue
import proofs.«164067_j90838558311219_2_alg».proof.Proof.LibRealOps
import proofs.«164067_j90838558311219_2_alg».proof.Proof.AttnSpec
import proofs.«164067_j90838558311219_2_alg».proof.Proof.FlashRowMath

set_option maxRecDepth 16384

noncomputable section

open scoped BigOperators

namespace Cert.KernelIdeal.FlashInd

open Cert.KernelIdeal Cert.KernelIdeal.Gen Cert.KernelIdeal.Flash Cert.KernelIdeal.FlashPay
open Idealize.ShloMosaic Idealize.ShloMosaic.TcCoe Idealize.ShloMosaic.ValueIdx

/-- The finite stand-in the running maximum starts from, as a real number. -/
abbrev negBig : ℝ := -(11744050 * (2 : ℝ) ^ (104 : ℤ))

/-- The scaled score of a query row `qv` against a key row `kv`. -/
abbrev rowScore (qv kv : Fin 1024 → ℝ) : ℝ := (∑ d : Fin 1024, qv d * kv d) * (1 / 32 : ℝ)

/-- ONE UPDATE STEP on a row whose entries are real: the new maximum is some real `m1`, and the new denominator and
    accumulator entry are the rescaled old ones plus this block's sums. -/
theorem flash_step (Q : Vec Ideal S1x2048x1024 .bf16) (K Vb : Vec Ideal S1x1024x1024 .bf16)
    (m l : Vec Ideal S2048x1 .f32) (acc : Vec Ideal S2048x1024 .f32) (r : Fin 2048) (col : Fin 1024)
    (qv : Fin 1024 → ℝ) (kv : Fin 1024 → Fin 1024 → ℝ) (vv : Fin 1024 → ℝ) (m0 l0 a0 : ℝ)
    (hQ : ∀ d, Q (ix3 (0 : Fin 1) r d) = ((qv d : ℝ) : EReal))
    (hK : ∀ s d, K (ix3 (0 : Fin 1) s d) = ((kv s d : ℝ) : EReal))
    (hV : ∀ s, Vb (ix3 (0 : Fin 1) s col) = ((vv s : ℝ) : EReal))
    (hm : m (ix2 r (0 : Fin 1)) = ((m0 : ℝ) : EReal)) (hl : l (ix2 r (0 : Fin 1)) = ((l0 : ℝ) : EReal))
    (ha : acc (ix2 r col) = ((a0 : ℝ) : EReal)) :
    ∃ m1 : ℝ,
      (k1_pay2 (F := Ideal) (k1_pay9 (F := Ideal) Q K m)) (ix2 r (0 : Fin 1)) = ((m1 : ℝ) : EReal)
      ∧ (k1_pay12 (F := Ideal) Q K m m l) (ix2 r (0 : Fin 1))
          = ((Real.exp (m0 - m1) * l0 + ∑ s : Fin 1024, Real.exp (rowScore qv (kv s) - m1) : ℝ) : EReal)
      ∧ (k1_pay1 (F := Ideal) (k1_pay7 (F := Ideal) Vb) (k1_pay10 (F := Ideal) Q K m m) (k1_pay11 (F := Ideal) Q K m) acc) (ix2 r col)
          = ((Real.exp (m0 - m1) * a0 + ∑ s : Fin 1024, Real.exp (rowScore qv (kv s) - m1) * vv s : ℝ) : EReal) := by
  have h8 : ∀ s : Fin 1024, k1_pay8 (F := Ideal) Q K (ix2 r s) = ((rowScore qv (kv s) : ℝ) : EReal) := by
    intro s
    rw [k1_pay8_apply]
    simp only [hQ, hK, RealOps.mul_coe, RealOps.sum_coe, RealOps.ofBits_0x3D000000]
    congr 1
    norm_num [rowScore]
  obtain ⟨mx, hmx⟩ : ∃ mx : ℝ, (Finset.univ : Finset (Fin 1024)).fold max (⊥ : EReal) (fun s => k1_pay8 (F := Ideal) Q K (ix2 r s)) = ((mx : ℝ) : EReal) :=
    RealOps.exists_real_fold_max_bot_univ _ (fun s => ⟨_, h8 s⟩)
  have h9 : k1_pay9 (F := Ideal) Q K m (ix2 r (0 : Fin 1)) = ((max m0 mx : ℝ) : EReal) := by
    rw [k1_pay9_apply, hm, hmx, RealOps.max_coe]
  have h10 : k1_pay10 (F := Ideal) Q K m m (ix2 r (0 : Fin 1)) = ((Real.exp (m0 - max m0 mx) : ℝ) : EReal) := by
    rw [k1_pay10_apply, h9, hm, RealOps.sub_coe, RealOps.exp_coe]
  have h11 : ∀ s : Fin 1024, k1_pay11 (F := Ideal) Q K m (ix2 r s) = ((Real.exp (rowScore qv (kv s) - max m0 mx) : ℝ) : EReal) := by
    intro s
    rw [k1_pay11_apply, h8, h9, RealOps.sub_coe, RealOps.exp_coe]
  refine ⟨max m0 mx, ?_, ?_, ?_⟩
  · rw [k1_pay2_eq]; exact h9
  · rw [k1_pay12_apply, h10, hl]
    simp only [h11, RealOps.mul_coe, RealOps.sum_coe, RealOps.add_coe]
  · rw [k1_pay1_apply, h10, ha]
    simp only [h11, hV, RealOps.mul_coe, RealOps.sum_coe, RealOps.add_coe]

/-- The starting values at a row: the finite stand-in, zero, zero. -/
theorem start_m (r : Fin 2048) : (k1_pay4 (F := Ideal)) (ix2 r (0 : Fin 1)) = ((negBig : ℝ) : EReal) := by
  rw [k1_pay4_apply, RealOps.ofBits_0xFF333332]
theorem start_l (r : Fin 2048) : (k1_pay5 (F := Ideal)) (ix2 r (0 : Fin 1)) = ((0 : ℝ) : EReal) := by
  rw [k1_pay5_apply, RealOps.ofBits_0x00000000]; rfl
theorem start_a (r : Fin 2048) (col : Fin 1024) : (k1_pay6 (F := Ideal)) (ix2 r col) = ((0 : ℝ) : EReal) := by
  rw [k1_pay6_apply, RealOps.ofBits_0x00000000]; rfl

section
variable (V : (c : Dev nD) → (b : Ref sig .tc) → Buf (Elt Ideal) ((c : Thread nD τ).loc b)) (c : Dev nD)

/-- The grid point of query-block group `g` (batch and query block together: 8 groups) at key block `n`. -/
def pt (g n : ℕ) (hg : g < 8) (hn : n < 4) : Fin cfg1.N := ⟨4 * g + n, by have h : cfg1.N = 32 := N_1; omega⟩

theorem outsAt1_congr {n n' : ℕ} (h : n = n') (hn : n < cfg1.N) (hn' : n' < cfg1.N) :
    outsAt1 V c n hn = outsAt1 V c n' hn' := by subst h; rfl

/-- THE INVARIANT, by induction on the key block: after key block `n` of a group the row's running maximum,
    denominator and accumulator entry are coerced reals obeying the recurrence up to `n`. -/
theorem flash_rows (g : ℕ) (hg : g < 8) (r : Fin 2048) (col : Fin 1024)
    (qv : Fin 1024 → ℝ) (kv : Fin 4096 → Fin 1024 → ℝ) (vv : Fin 4096 → ℝ)
    (hQ : ∀ (n : ℕ) (hn : n < 4) (d : Fin 1024), (iblk1 V c 0 (pt g n hg hn) : Vec Ideal S1x2048x1024 .bf16) (ix3 (0 : Fin 1) r d) = ((qv d : ℝ) : EReal))
    (hK : ∀ (n : ℕ) (hn : n < 4) (s d : Fin 1024), (iblk1 V c 1 (pt g n hg hn) : Vec Ideal S1x1024x1024 .bf16) (ix3 (0 : Fin 1) s d) = ((kv ⟨1024 * n + s.val, by omega⟩ d : ℝ) : EReal))
    (hV : ∀ (n : ℕ) (hn : n < 4) (s : Fin 1024), (iblk1 V c 2 (pt g n hg hn) : Vec Ideal S1x1024x1024 .bf16) (ix3 (0 : Fin 1) s col) = ((vv ⟨1024 * n + s.val, by omega⟩ : ℝ) : EReal)) :
    ∀ (n : ℕ) (hn : n < 4), ∃ mu l a : ℕ → ℝ, l 0 = 0 ∧ a 0 = 0
      ∧ (∀ (j : ℕ) (hj : j < 4), j ≤ n → l (j + 1) = Real.exp (mu j - mu (j + 1)) * l j + ∑ s : Fin 1024, Real.exp (rowScore qv (kv ⟨1024 * j + s.val, by omega⟩) - mu (j + 1)))
      ∧ (∀ (j : ℕ) (hj : j < 4), j ≤ n → a (j + 1) = Real.exp (mu j - mu (j + 1)) * a j + ∑ s : Fin 1024, Real.exp (rowScore qv (kv ⟨1024 * j + s.val, by omega⟩) - mu (j + 1)) * vv ⟨1024 * j + s.val, by omega⟩)
      ∧ (outsAt1 V c (pt g n hg hn).val (pt g n hg hn).isLt).2.1 (ix2 r (0 : Fin 1)) = ((mu (n + 1) : ℝ) : EReal)
      ∧ (outsAt1 V c (pt g n hg hn).val (pt g n hg hn).isLt).2.2.1 (ix2 r (0 : Fin 1)) = ((l (n + 1) : ℝ) : EReal)
      ∧ (outsAt1 V c (pt g n hg hn).val (pt g n hg hn).isLt).2.2.2 (ix2 r col) = ((a (n + 1) : ℝ) : EReal) := by
  intro n
  induction n with
  | zero =>
    intro hn
    have h0 : (pt g 0 hg hn).val % 4 = 0 := by show (4 * g + 0) % 4 = 0; omega
    obtain ⟨e0, e1, e2⟩ := state_first V c (pt g 0 hg hn) h0
    obtain ⟨m1, s0, s1, s2⟩ := flash_step (iblk1 V c 0 (pt g 0 hg hn)) (iblk1 V c 1 (pt g 0 hg hn)) (iblk1 V c 2 (pt g 0 hg hn))
      (k1_pay4 (F := Ideal)) (k1_pay5 (F := Ideal)) (k1_pay6 (F := Ideal)) r col qv (fun s => kv ⟨1024 * 0 + s.val, by omega⟩) (fun s => vv ⟨1024 * 0 + s.val, by omega⟩)
      negBig 0 0 (hQ 0 hn) (hK 0 hn) (hV 0 hn) (start_m r) (start_l r) (start_a r col)
    refine ⟨fun j => if j ≤ 0 then negBig else m1,
      fun j => if j ≤ 0 then 0 else Real.exp (negBig - m1) * 0 + ∑ s : Fin 1024, Real.exp (rowScore qv (kv ⟨1024 * 0 + s.val, by omega⟩) - m1),
      fun j => if j ≤ 0 then 0 else Real.exp (negBig - m1) * 0 + ∑ s : Fin 1024, Real.exp (rowScore qv (kv ⟨1024 * 0 + s.val, by omega⟩) - m1) * vv ⟨1024 * 0 + s.val, by omega⟩,
      if_pos (le_refl 0), if_pos (le_refl 0), ?_, ?_, ?_, ?_, ?_⟩
    · intro j hj hle
      obtain rfl : j = 0 := by omega
      simp only [if_pos (le_refl 0), if_neg (by omega : ¬(0 + 1 ≤ 0))]
    · intro j hj hle
      obtain rfl : j = 0 := by omega
      simp only [if_pos (le_refl 0), if_neg (by omega : ¬(0 + 1 ≤ 0))]
    · rw [e0]; simp only [if_neg (by omega : ¬(0 + 1 ≤ 0))]; exact s0
    · rw [e1]; simp only [if_neg (by omega : ¬(0 + 1 ≤ 0))]; exact s1
    · rw [e2]; simp only [if_neg (by omega : ¬(0 + 1 ≤ 0))]; exact s2
  | succ n ih =>
    intro hn
    have hn' : n < 4 := by omega
    obtain ⟨mu, l, a, hl0, ha0, hl, ha, em, el, ea⟩ := ih hn'
    have h0 : ¬(pt g (n + 1) hg hn).val % 4 = 0 := by show ¬(4 * g + (n + 1)) % 4 = 0; omega
    obtain ⟨e0, e1, e2⟩ := state_next V c (pt g (n + 1) hg hn) h0
    have hprev : outsAt1 V c ((pt g (n + 1) hg hn).val - 1) (Nat.lt_of_le_of_lt (Nat.sub_le _ _) (pt g (n + 1) hg hn).isLt)
        = (outsAt1 V c (pt g n hg hn').val (pt g n hg hn').isLt) :=
      outsAt1_congr V c (by show 4 * g + (n + 1) - 1 = 4 * g + n; omega) _ _
    rw [hprev] at e0 e1 e2
    obtain ⟨m1, s0, s1, s2⟩ := flash_step (iblk1 V c 0 (pt g (n + 1) hg hn)) (iblk1 V c 1 (pt g (n + 1) hg hn)) (iblk1 V c 2 (pt g (n + 1) hg hn))
      (outsAt1 V c (pt g n hg hn').val (pt g n hg hn').isLt).2.1 (outsAt1 V c (pt g n hg hn').val (pt g n hg hn').isLt).2.2.1 (outsAt1 V c (pt g n hg hn').val (pt g n hg hn').isLt).2.2.2 r col qv
      (fun s => kv ⟨1024 * (n + 1) + s.val, by omega⟩) (fun s => vv ⟨1024 * (n + 1) + s.val, by omega⟩)
      (mu (n + 1)) (l (n + 1)) (a (n + 1)) (hQ (n + 1) hn) (hK (n + 1) hn) (hV (n + 1) hn) em el ea
    have hlt : ¬(n + 1 + 1 ≤ n + 1) := by omega
    refine ⟨fun j => if j ≤ n + 1 then mu j else m1,
      fun j => if j ≤ n + 1 then l j else Real.exp (mu (n + 1) - m1) * l (n + 1) + ∑ s : Fin 1024, Real.exp (rowScore qv (kv ⟨1024 * (n + 1) + s.val, by omega⟩) - m1),
      fun j => if j ≤ n + 1 then a j else Real.exp (mu (n + 1) - m1) * a (n + 1) + ∑ s : Fin 1024, Real.exp (rowScore qv (kv ⟨1024 * (n + 1) + s.val, by omega⟩) - m1) * vv ⟨1024 * (n + 1) + s.val, by omega⟩,
      (if_pos (Nat.zero_le _)).trans hl0, (if_pos (Nat.zero_le _)).trans ha0, ?_, ?_, ?_, ?_, ?_⟩
    · intro j hj hle
      by_cases hjn : j ≤ n
      · simp only [if_pos (by omega : j + 1 ≤ n + 1), if_pos (by omega : j ≤ n + 1)]
        exact hl j hj hjn
      · obtain rfl : j = n + 1 := by omega
        simp only [if_neg hlt, if_pos (le_refl (n + 1))]
    · intro j hj hle
      by_cases hjn : j ≤ n
      · simp only [if_pos (by omega : j + 1 ≤ n + 1), if_pos (by omega : j ≤ n + 1)]
        exact ha j hj hjn
      · obtain rfl : j = n + 1 := by omega
        simp only [if_neg hlt, if_pos (le_refl (n + 1))]
    · rw [e0]; simp only [if_neg hlt]; exact s0
    · rw [e1]; simp only [if_neg hlt]; exact s1
    · rw [e2]; simp only [if_neg hlt]; exact s2

/-- THE OUTPUT BLOCK's entry at a group's last key block: the softmax of the row's 4096 scaled scores applied to the
    value column. -/
theorem flash_out (g : ℕ) (hg : g < 8) (r : Fin 2048) (col : Fin 1024)
    (qv : Fin 1024 → ℝ) (kv : Fin 4096 → Fin 1024 → ℝ) (vv : Fin 4096 → ℝ)
    (hQ : ∀ (n : ℕ) (hn : n < 4) (d : Fin 1024), (iblk1 V c 0 (pt g n hg hn) : Vec Ideal S1x2048x1024 .bf16) (ix3 (0 : Fin 1) r d) = ((qv d : ℝ) : EReal))
    (hK : ∀ (n : ℕ) (hn : n < 4) (s d : Fin 1024), (iblk1 V c 1 (pt g n hg hn) : Vec Ideal S1x1024x1024 .bf16) (ix3 (0 : Fin 1) s d) = ((kv ⟨1024 * n + s.val, by omega⟩ d : ℝ) : EReal))
    (hV : ∀ (n : ℕ) (hn : n < 4) (s : Fin 1024), (iblk1 V c 2 (pt g n hg hn) : Vec Ideal S1x1024x1024 .bf16) (ix3 (0 : Fin 1) s col) = ((vv ⟨1024 * n + s.val, by omega⟩ : ℝ) : EReal)) :
    (outsAt1 V c (pt g 3 hg (by omega)).val (pt g 3 hg (by omega)).isLt).1 (ix3 (0 : Fin 1) r col)
      = ((Cert.AttnSpec.softmaxDot (fun κ => rowScore qv (kv κ)) vv : ℝ) : EReal) := by
  obtain ⟨mu, l, a, hl0, ha0, hl, ha, em, el, ea⟩ := flash_rows V c g hg r col qv kv vv hQ hK hV 3 (by omega)
  have h1 : (pt g 3 hg (by omega)).val % 4 = 3 := by show (4 * g + 3) % 4 = 3; omega
  rw [state_out V c (pt g 3 hg (by omega)) h1, k1_pay3_apply, ea, el]
  exact Cert.FlashRowMath.div_eq_softmaxDot (fun κ => rowScore qv (kv κ)) vv mu l a hl0 ha0
    (fun j h => hl j h (by omega)) (fun j h => ha j h (by omega))

end

end Cert.KernelIdeal.FlashInd

end
-- ==== Proof.FlashArray.lean ====
/- REGION 1's windows read at an index and its result array from its blocks: the query block at a grid point is a
   band of rows of one batch of the query array, the key and value blocks a band of rows of the same batch; and
   the result array after the region is any function `G` that every written-back block agrees with — the blocks
   written back (one per batch and query band, at the last key band) tile the array. -/
import proofs.«164067_j90838558311219_2_alg».proof.Proof.FlashRegion
import Idealize.ShloMosaic.Lib.Pipeline.Value
import Idealize.ShloMosaic.Lib.ValueIdx

set_option maxRecDepth 16384

noncomputable section

namespace Cert.KernelIdeal.FlashArr

open Cert.KernelIdeal Cert.KernelIdeal.Gen Cert.KernelIdeal.Flash
open Idealize.ShloMosaic Idealize.ShloMosaic.TcCoe Idealize.SL.Sem Idealize.ShloMosaic.ValueIdx
open Idealize.ShloMosaic.Pipeline (Dat)

variable {F : FTy → Type} [FloatOps F]

/-! ## The grid point's batch, query band and key band -/

/-- Point `t = 8·b + 4·qi + ki` of the `4 × 2 × 4` grid: its batch `t / 8` is below 4, -/
theorem batch_lt (t : Fin cfg1.N) : t.val / 8 < 4 := by
  have := t.isLt; have hN : cfg1.N = 32 := N_1; omega
/-- row `r` of its query band `(t / 4) % 2` is a row of the 4096, -/
theorem qrow_lt (t : Fin cfg1.N) (r : Fin 2048) : 2048 * ((t.val / 4) % 2) + r.val < 4096 := by
  have := r.isLt; omega
/-- and row `s` of its key band `t % 4` likewise. -/
theorem krow_lt (t : Fin cfg1.N) (s : Fin 1024) : 1024 * (t.val % 4) + s.val < 4096 := by
  have := s.isLt; omega

/-- The printed index maps, decided over the grid's 32 points: the query window's block index is (batch, query band, 0), -/
theorem idx_q : ∀ t : Fin cfg1.N, win1_0.index t (0 : Fin 3) = t.val / 8 ∧ win1_0.index t (1 : Fin 3) = (t.val / 4) % 2
    ∧ win1_0.index t (2 : Fin 3) = 0 :=
  (by decide +kernel : ∀ t : Fin grid1.N, win1_0.index t (0 : Fin 3) = t.val / 8 ∧ win1_0.index t (1 : Fin 3) = (t.val / 4) % 2
    ∧ win1_0.index t (2 : Fin 3) = 0)
/-- the key window's (batch, key band, 0), -/
theorem idx_k : ∀ t : Fin cfg1.N, win1_1.index t (0 : Fin 3) = t.val / 8 ∧ win1_1.index t (1 : Fin 3) = t.val % 4
    ∧ win1_1.index t (2 : Fin 3) = 0 :=
  (by decide +kernel : ∀ t : Fin grid1.N, win1_1.index t (0 : Fin 3) = t.val / 8 ∧ win1_1.index t (1 : Fin 3) = t.val % 4
    ∧ win1_1.index t (2 : Fin 3) = 0)
/-- the value window's the same, -/
theorem idx_v : ∀ t : Fin cfg1.N, win1_2.index t (0 : Fin 3) = t.val / 8 ∧ win1_2.index t (1 : Fin 3) = t.val % 4
    ∧ win1_2.index t (2 : Fin 3) = 0 :=
  (by decide +kernel : ∀ t : Fin grid1.N, win1_2.index t (0 : Fin 3) = t.val / 8 ∧ win1_2.index t (1 : Fin 3) = t.val % 4
    ∧ win1_2.index t (2 : Fin 3) = 0)
/-- and the output window's (batch, query band, 0). -/
theorem idx_o : ∀ t : Fin cfg1.N, win1_3.index t (0 : Fin 3) = t.val / 8 ∧ win1_3.index t (1 : Fin 3) = (t.val / 4) % 2
    ∧ win1_3.index t (2 : Fin 3) = 0 :=
  (by decide +kernel : ∀ t : Fin grid1.N, win1_3.index t (0 : Fin 3) = t.val / 8 ∧ win1_3.index t (1 : Fin 3) = (t.val / 4) % 2
    ∧ win1_3.index t (2 : Fin 3) = 0)

section Region
variable (V : (c : Dev nD) → (b : Ref sig .tc) → Buf (Elt F) ((c : Thread nD τ).loc b))

/-! ## The input blocks at an index -/

/-- The query block at point `t`, at `(0, r, d)`: the query array at (batch, row `r` of the query band, `d`). -/
theorem iblk1_q_apply (c : Dev nD) (t : Fin cfg1.N) (r : Fin 2048) (d : Fin 1024) :
    (iblk1 V c 0 t : Vec F S1x2048x1024 .bf16) (ix3 (0 : Fin 1) r d)
      = (V c main_v8 : S4x4096x1024.Idx → Elt F .bf16)
          (ix3 (⟨t.val / 8, batch_lt t⟩ : Fin 4) (⟨2048 * ((t.val / 4) % 2) + r.val, qrow_lt t r⟩ : Fin 4096) d) := by
  obtain ⟨e0, e1, e2⟩ := idx_q t
  unfold iblk1
  rw [View.read_apply]
  show V c main_v8 _ = V c main_v8 _
  congr 1
  funext a
  apply Fin.ext
  match a with
  | ⟨0, _⟩ => show win1_0.index t (0 : Fin 3) * 1 + 1 * 0 = t.val / 8; omega
  | ⟨1, _⟩ => show win1_0.index t (1 : Fin 3) * 2048 + 1 * r.val = 2048 * ((t.val / 4) % 2) + r.val; omega
  | ⟨2, _⟩ => show win1_0.index t (2 : Fin 3) * 1024 + 1 * d.val = d.val; omega

/-- The key block at point `t`, at `(0, s, d)`: the key array at (batch, row `s` of the key band, `d`). -/
theorem iblk1_k_apply (c : Dev nD) (t : Fin cfg1.N) (s : Fin 1024) (d : Fin 1024) :
    (iblk1 V c 1 t : Vec F S1x1024x1024 .bf16) (ix3 (0 : Fin 1) s d)
      = (V c main_v11 : S4x4096x1024.Idx → Elt F .bf16)
          (ix3 (⟨t.val / 8, batch_lt t⟩ : Fin 4) (⟨1024 * (t.val % 4) + s.val, krow_lt t s⟩ : Fin 4096) d) := by
  obtain ⟨e0, e1, e2⟩ := idx_k t
  unfold iblk1
  rw [View.read_apply]
  show V c main_v11 _ = V c main_v11 _
  congr 1
  funext a
  apply Fin.ext
  match a with
  | ⟨0, _⟩ => show win1_1.index t (0 : Fin 3) * 1 + 1 * 0 = t.val / 8; omega
  | ⟨1, _⟩ => show win1_1.index t (1 : Fin 3) * 1024 + 1 * s.val = 1024 * (t.val % 4) + s.val; omega
  | ⟨2, _⟩ => show win1_1.index t (2 : Fin 3) * 1024 + 1 * d.val = d.val; omega

/-- The value block at point `t`, at `(0, s, col)`: the value array at (batch, row `s` of the key band, `col`). -/
theorem iblk1_v_apply (c : Dev nD) (t : Fin cfg1.N) (s : Fin 1024) (col : Fin 1024) :
    (iblk1 V c 2 t : Vec F S1x1024x1024 .bf16) (ix3 (0 : Fin 1) s col)
      = (V c main_v14 : S4x4096x1024.Idx → Elt F .bf16)
          (ix3 (⟨t.val / 8, batch_lt t⟩ : Fin 4) (⟨1024 * (t.val % 4) + s.val, krow_lt t s⟩ : Fin 4096) col) := by
  obtain ⟨e0, e1, e2⟩ := idx_v t
  unfold iblk1
  rw [View.read_apply]
  show V c main_v14 _ = V c main_v14 _
  congr 1
  funext a
  apply Fin.ext
  match a with
  | ⟨0, _⟩ => show win1_2.index t (0 : Fin 3) * 1 + 1 * 0 = t.val / 8; omega
  | ⟨1, _⟩ => show win1_2.index t (1 : Fin 3) * 1024 + 1 * s.val = 1024 * (t.val % 4) + s.val; omega
  | ⟨2, _⟩ => show win1_2.index t (2 : Fin 3) * 1024 + 1 * col.val = col.val; omega

/-! ## The result array from its blocks -/

/-- An index of the result array is in point `t`'s output block iff each coordinate is in the block's range on its axis. -/
theorem mem_blk_o (t : Fin cfg1.N) (i : S4x4096x1024.Idx) :
    i ∈ ((cfg1.win 3).blk t).view.set ↔ ∀ a : Fin 3, win1_3.index t a * S1x2048x1024.size a ≤ (i a).val
      ∧ (i a).val < win1_3.index t a * S1x2048x1024.size a + S1x2048x1024.size a := by
  show i ∈ ((View.whole main_v15).slice (win1_3.rect t)).set ↔ _
  rw [View.set_slice_whole, Rect.mem_set_unit]
  exact Iff.rfl

/-- What a writing point writes back is its block of `G`, for any `G` the output blocks at the writing points agree with. -/
theorem flushed_eq (c : Dev nD) (G : S4x4096x1024.Idx → Elt F .f32)
    (hG : ∀ t : Fin cfg1.N, t.val % 4 = 3 → ∀ (r : Fin 2048) (col : Fin 1024),
      (outsAt1 V c t.val t.isLt).1 (ix3 (0 : Fin 1) r col)
        = G (ix3 (⟨t.val / 8, batch_lt t⟩ : Fin 4) (⟨2048 * ((t.val / 4) % 2) + r.val, qrow_lt t r⟩ : Fin 4096) col))
    (t : Fin cfg1.N) (hf : (cfg1.win 3).flush t = true) :
    (dat1 V c).flushed 3 t = ((cfg1.win 3).blk t).view.read (Elt F) G := by
  have h3 : t.val % 4 = 3 := (flush1_3 t).mp hf
  obtain ⟨e0, e1, e2⟩ := idx_o t
  show (cfg1.win 3).cut (grid1.coords t) ((dat1 V c).after 3 t) = _
  rw [after1_3]
  funext j
  obtain ⟨u, r, col, rfl⟩ : ∃ (u : Fin 1) (r : Fin 2048) (col : Fin 1024), j = ix3 u r col := ⟨j 0, j 1, j 2, eq_ix3 j⟩
  obtain rfl : u = 0 := Subsingleton.elim _ _
  show (outsAt1 V c t.val t.isLt).1 (ix3 (0 : Fin 1) r col) = G (((cfg1.win 3).blk t).view.emb (ix3 (0 : Fin 1) r col))
  rw [hG t h3 r col]
  congr 1
  funext a
  apply Fin.ext
  match a with
  | ⟨0, _⟩ => show t.val / 8 = win1_3.index t (0 : Fin 3) * 1 + 1 * 0; omega
  | ⟨1, _⟩ => show 2048 * ((t.val / 4) % 2) + r.val = win1_3.index t (1 : Fin 3) * 2048 + 1 * r.val; omega
  | ⟨2, _⟩ => show col.val = win1_3.index t (2 : Fin 3) * 1024 + 1 * col.val; omega

/-- Every index of the result array is in the output block of the last key band's point of its batch and query band. -/
theorem cover_o (i : S4x4096x1024.Idx) :
    ∃ t : Fin cfg1.N, (cfg1.win 3).flush t = true ∧ i ∈ ((cfg1.win 3).blk t).view.set := by
  have hN : cfg1.N = 32 := N_1
  have h0 : (i 0).val < 4 := (i 0).isLt
  have h1 : (i 1).val < 4096 := (i 1).isLt
  have h2 : (i 2).val < 1024 := (i 2).isLt
  let t : Fin cfg1.N := ⟨8 * (i 0).val + 4 * ((i 1).val / 2048) + 3, by omega⟩
  have ht : t.val = 8 * (i 0).val + 4 * ((i 1).val / 2048) + 3 := rfl
  obtain ⟨e0, e1, e2⟩ := idx_o t
  refine ⟨t, (flush1_3 t).mpr (by omega), ?_⟩
  rw [mem_blk_o]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 1024 ≤ (i 2).val ∧ (i 2).val < win1_3.index t (2 : Fin 3) * 1024 + 1024; omega

/-- THE RESULT ARRAY after the region is `G`, for any `G` that the output block of every writing point (the last key
    band of each batch and query band) agrees with, row by row. -/
theorem arrAt_eq (c : Dev nD) (G : S4x4096x1024.Idx → Elt F .f32)
    (hG : ∀ t : Fin cfg1.N, t.val % 4 = 3 → ∀ (r : Fin 2048) (col : Fin 1024),
      (outsAt1 V c t.val t.isLt).1 (ix3 (0 : Fin 1) r col)
        = G (ix3 (⟨t.val / 8, batch_lt t⟩ : Fin 4) (⟨2048 * ((t.val / 4) % 2) + r.val, qrow_lt t r⟩ : Fin 4096) col)) :
    (dat1 V c).arrAt 3 cfg1.N = G :=
  (dat1 V c).arrAt_eq_of_cover 3 G (flushed_eq V c G hG) cover_o

end Region

end Cert.KernelIdeal.FlashArr

end
-- ==== Proof.ProjArray.lean ====
/-
  Region 0's result array at an index. The projection kernel runs on an 8 × 3 grid: point `t` = 3·i + j reads row
  block `i` of the activations (2048 rows), column block `j` of the weights and of the bias (1024 columns), and
  writes block (j, i) of the result. Each block read through its window is the array at block index × block size
  plus the coordinate inside the block; what a point writes back is the block of ONE function of the result's
  index — the row of the activations against the column of the weights plus the bias —; the 24 blocks cover the
  result, so the result array is that function.
-/
import proofs.«164067_j90838558311219_2_alg».proof.Proof.ProjValue
import Idealize.ShloMosaic.Lib.Pipeline.Value
import Idealize.ShloMosaic.Lib.ValueIdx

set_option maxRecDepth 16384

noncomputable section

namespace Cert.KernelIdeal.ProjArr

open Cert.KernelIdeal Cert.KernelIdeal.Gen Cert.KernelIdeal.Proj
open Idealize.ShloMosaic Idealize.ShloMosaic.TcCoe Idealize.ShloMosaic.ValueIdx
open Idealize.SL Idealize.SL.Sem
open Idealize.ShloMosaic.Pipeline (Dat Cfg Window)
open scoped BigOperators

/-- The printed index maps, decided once over the grid: at point `t` the activations' window is at row block
    `t / 3`, the weights' and the bias's at column block `t % 3`, the result's at block (`t % 3`, `t / 3`, 0). -/
theorem idx_facts : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = 0 ∧ win0_2.index t (1 : Fin 2) = t.val % 3
    ∧ win0_3.index t (0 : Fin 3) = t.val % 3 ∧ win0_3.index t (1 : Fin 3) = t.val / 3
    ∧ win0_3.index t (2 : Fin 3) = 0 :=
  (by decide +kernel : ∀ t : Fin grid0.N, _)

/-- The grid has 24 points. -/
theorem point_lt (t : Fin cfg0.N) : t.val < 24 := by
  have hN : cfg0.N = 24 := N_0
  have := t.isLt
  omega

section Region
-- the TensorCore's buffer contents when the region is entered
variable (V : (c : Dev nD) → (b : Ref sig .tc) → Buf (Elt Ideal) ((c : Thread nD τ).loc b))

/-! ## The input blocks read through their windows -/

/-- The activations' block at point `t`, at row `r`: row `2048 · (t / 3) + r` of the array. -/
theorem iblk0_0_apply (c : Dev nD) (t : Fin cfg0.N) (r : Fin 2048) (e : Fin 1024) :
    (iblk0 V c 0 t : S2048x1024.Idx → EReal) (ix2 r e)
      = (V c main_v0 : S16384x1024.Idx → EReal)
          (ix2 (⟨2048 * (t.val / 3) + r.val, by have := point_lt t; have := r.isLt; omega⟩ : Fin 16384) e) := by
  obtain ⟨h00, h01, -⟩ := idx_facts t
  unfold iblk0
  rw [View.read_apply]
  show (V c main_v0 : S16384x1024.Idx → EReal) _ = _
  congr 1
  funext a
  apply Fin.ext
  match a with
  | ⟨0, _⟩ => show win0_0.index t (0 : Fin 2) * 2048 + 1 * r.val = 2048 * (t.val / 3) + r.val; rw [h00]; omega
  | ⟨1, _⟩ => show win0_0.index t (1 : Fin 2) * 1024 + 1 * e.val = e.val; rw [h01]; omega

/-- The weights' block at point `t`, at column `k`: column `1024 · (t % 3) + k` of the array. -/
theorem iblk0_1_apply (c : Dev nD) (t : Fin cfg0.N) (e k : Fin 1024) :
    (iblk0 V c 1 t : S1024x1024.Idx → EReal) (ix2 e k)
      = (V c main_v2 : S1024x3072.Idx → EReal)
          (ix2 e (⟨1024 * (t.val % 3) + k.val, by have := k.isLt; omega⟩ : Fin 3072)) := by
  obtain ⟨-, -, h10, h11, -⟩ := idx_facts t
  unfold iblk0
  rw [View.read_apply]
  show (V c main_v2 : S1024x3072.Idx → EReal) _ = _
  congr 1
  funext a
  apply Fin.ext
  match a with
  | ⟨0, _⟩ => show win0_1.index t (0 : Fin 2) * 1024 + 1 * e.val = e.val; rw [h10]; omega
  | ⟨1, _⟩ => show win0_1.index t (1 : Fin 2) * 1024 + 1 * k.val = 1024 * (t.val % 3) + k.val; rw [h11]; omega

/-- The bias's block at point `t`, at column `k`: column `1024 · (t % 3) + k` of the one-row array. -/
theorem iblk0_2_apply (c : Dev nD) (t : Fin cfg0.N) (k : Fin 1024) :
    (iblk0 V c 2 t : S1x1024.Idx → EReal) (ix2 (0 : Fin 1) k)
      = (V c main_v4 : S1x3072.Idx → EReal)
          (ix2 (0 : Fin 1) (⟨1024 * (t.val % 3) + k.val, by have := k.isLt; omega⟩ : Fin 3072)) := by
  obtain ⟨-, -, -, -, h20, h21, -⟩ := idx_facts t
  unfold iblk0
  rw [View.read_apply]
  show (V c main_v4 : S1x3072.Idx → EReal) _ = _
  congr 1
  funext a
  apply Fin.ext
  match a with
  | ⟨0, _⟩ => show win0_2.index t (0 : Fin 2) * 1 + 1 * 0 = 0; rw [h20]
  | ⟨1, _⟩ => show win0_2.index t (1 : Fin 2) * 1024 + 1 * k.val = 1024 * (t.val % 3) + k.val; rw [h21]; omega

/-! ## The result as one function of its index -/

/-- Entry (j, ρ, k) of the result, from the three arrays the region reads: row `ρ` of the activations against column
    `1024 · j + k` of the weights, plus the bias at that column. -/
def entry (a0 : S16384x1024.Idx → EReal) (a1 : S1024x3072.Idx → EReal) (a2 : S1x3072.Idx → EReal)
    (j : Fin 3) (ρ : Fin 16384) (k : Fin 1024) : EReal :=
  (∑ e : Fin 1024, a0 (ix2 ρ e)
      * a1 (ix2 e (⟨1024 * j.val + k.val, by have := j.isLt; have := k.isLt; omega⟩ : Fin 3072)))
    + a2 (ix2 (0 : Fin 1) (⟨1024 * j.val + k.val, by have := j.isLt; have := k.isLt; omega⟩ : Fin 3072))

/-- The definition, as an equation to rewrite with. -/
theorem entry_eq (a0 : S16384x1024.Idx → EReal) (a1 : S1024x3072.Idx → EReal) (a2 : S1x3072.Idx → EReal)
    (j : Fin 3) (ρ : Fin 16384) (k : Fin 1024) :
    entry a0 a1 a2 j ρ k
      = (∑ e : Fin 1024, a0 (ix2 ρ e)
            * a1 (ix2 e (⟨1024 * j.val + k.val, by have := j.isLt; have := k.isLt; omega⟩ : Fin 3072)))
          + a2 (ix2 (0 : Fin 1) (⟨1024 * j.val + k.val, by have := j.isLt; have := k.isLt; omega⟩ : Fin 3072)) := rfl

/-- The whole result array, index by index. -/
def G (a0 : S16384x1024.Idx → EReal) (a1 : S1024x3072.Idx → EReal) (a2 : S1x3072.Idx → EReal) :
    S3x16384x1024.Idx → EReal := fun i =>
  entry a0 a1 a2 ⟨(i 0).val, (i 0).isLt⟩ ⟨(i 1).val, (i 1).isLt⟩ ⟨(i 2).val, (i 2).isLt⟩

/-- `G` at an index given by its coordinates. -/
theorem G_apply (a0 : S16384x1024.Idx → EReal) (a1 : S1024x3072.Idx → EReal) (a2 : S1x3072.Idx → EReal)
    (j : Fin 3) (ρ : Fin 16384) (k : Fin 1024) : G a0 a1 a2 (ix3 j ρ k) = entry a0 a1 a2 j ρ k := rfl

/-! ## What a point writes back -/

/-- What point `t` writes back is block `t` of `G`: the output block's entry (0, r, k) sits at
    (t % 3, 2048 · (t / 3) + r, k) of the array, and the three input blocks are read at the matching row and column. -/
theorem flushed_eq (c : Dev nD) (t : Fin cfg0.N) :
    (dat0 V c).flushed 3 t = ((cfg0.win 3).blk t).view.read (Elt Ideal) (G (V c main_v0) (V c main_v2) (V c main_v4)) := by
  obtain ⟨-, -, -, -, -, -, h30, h31, h32⟩ := idx_facts t
  have ht := point_lt t
  show (cfg0.win 3).cut (grid0.coords t) ((dat0 V c).after 3 t) = _
  rw [after0_3]
  funext y
  obtain ⟨z, r, k, rfl⟩ : ∃ (z : Fin 1) (r : Fin 2048) (k : Fin 1024), y = ix3 z r k := ⟨y 0, y 1, y 2, eq_ix3 y⟩
  obtain rfl : z = 0 := Subsingleton.elim _ _
  rw [View.read_apply]
  have hemb : ((cfg0.win 3).blk t).view.emb (ix3 (0 : Fin 1) r k)
      = ix3 (⟨t.val % 3, by omega⟩ : Fin 3) (⟨2048 * (t.val / 3) + r.val, by have := r.isLt; omega⟩ : Fin 16384) k := by
    funext a
    apply Fin.ext
    match a with
    | ⟨0, _⟩ => show win0_3.index t (0 : Fin 3) * 1 + 1 * 0 = t.val % 3; rw [h30]; omega
    | ⟨1, _⟩ => show win0_3.index t (1 : Fin 3) * 2048 + 1 * r.val = 2048 * (t.val / 3) + r.val; rw [h31]; omega
    | ⟨2, _⟩ => show win0_3.index t (2 : Fin 3) * 1024 + 1 * k.val = k.val; rw [h32]; omega
  rw [hemb, G_apply]
  show out0_3 (F := Ideal) (iblk0 V c 0 t) (iblk0 V c 1 t) (iblk0 V c 2 t) (ix3 (0 : Fin 1) r k) = _
  rw [out0_3_apply, iblk0_2_apply]
  simp only [iblk0_0_apply, iblk0_1_apply]
  rfl

/-! ## The blocks cover the result -/

/-- An index of the result is in point `t`'s block iff each coordinate is in the block's range on its axis. -/
theorem mem_blk (t : Fin cfg0.N) (i : S3x16384x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v5).slice (win0_3.rect t)).set ↔ _
  rw [View.set_slice_whole, Rect.mem_set_unit]
  exact Iff.rfl

/-- Every index of the result is in the block of the point 3 · (row / 2048) + (its leading coordinate). -/
theorem cover (i : S3x16384x1024.Idx) :
    ∃ t : Fin cfg0.N, (cfg0.win 3).flush t = true ∧ i ∈ ((cfg0.win 3).blk t).view.set := by
  have hN : cfg0.N = 24 := N_0
  have h0 : (i 0).val < 3 := (i 0).isLt
  have h1 : (i 1).val < 16384 := (i 1).isLt
  have h2 : (i 2).val < 1024 := (i 2).isLt
  refine ⟨⟨3 * ((i 1).val / 2048) + (i 0).val, by omega⟩, flush0_3 _, ?_⟩
  obtain ⟨-, -, -, -, -, -, h30, h31, h32⟩ := idx_facts ⟨3 * ((i 1).val / 2048) + (i 0).val, by omega⟩
  rw [mem_blk]
  intro a
  match a with
  | ⟨0, _⟩ =>
    show win0_3.index _ (0 : Fin 3) * 1 ≤ (i 0).val ∧ (i 0).val < win0_3.index _ (0 : Fin 3) * 1 + 1
    rw [h30]; dsimp only; omega
  | ⟨1, _⟩ =>
    show win0_3.index _ (1 : Fin 3) * 2048 ≤ (i 1).val ∧ (i 1).val < win0_3.index _ (1 : Fin 3) * 2048 + 2048
    rw [h31]; dsimp only; omega
  | ⟨2, _⟩ =>
    show win0_3.index _ (2 : Fin 3) * 1024 ≤ (i 2).val ∧ (i 2).val < win0_3.index _ (2 : Fin 3) * 1024 + 1024
    rw [h32]; omega

/-! ## The result array -/

/-- After the region the result array is `G` of the arrays the region was entered with. -/
theorem final (c : Dev nD) : (dat0 V c).arrAt 3 cfg0.N = G (V c main_v0) (V c main_v2) (V c main_v4) :=
  (dat0 V c).arrAt_eq_of_cover 3 (G (V c main_v0) (V c main_v2) (V c main_v4)) (fun t _ => flushed_eq V c t) cover

/-- The result array at projection `j`, row `ρ`, column `k`. -/
theorem result_entry (c : Dev nD) (j : Fin 3) (ρ : Fin 16384) (k : Fin 1024) :
    ((dat0 V c).arrAt 3 cfg0.N : S3x16384x1024.Idx → EReal) (ix3 j ρ k)
      = entry (V c main_v0) (V c main_v2) (V c main_v4) j ρ k := by
  rw [final]; rfl

/-- The result array at an index: projection `j`, row `r` of row block `i`, column `k` — the row of the activations
    against column `1024 · j + k` of the weights, plus the bias at that column; `a0`, `a1`, `a2` name the three arrays
    the region is entered with. -/
theorem result_apply (c : Dev nD) (a0 : S16384x1024.Idx → EReal) (a1 : S1024x3072.Idx → EReal) (a2 : S1x3072.Idx → EReal)
    (h0 : V c main_v0 = a0) (h1 : V c main_v2 = a1) (h2 : V c main_v4 = a2)
    (j : Fin 3) (i : Fin 8) (r : Fin 2048) (k : Fin 1024) :
    ((dat0 V c).arrAt 3 cfg0.N : S3x16384x1024.Idx → EReal)
        (ix3 j (⟨2048 * i.val + r.val, by have := i.isLt; have := r.isLt; omega⟩ : Fin 16384) k)
      = (∑ e : Fin 1024, a0 (ix2 (⟨2048 * i.val + r.val, by have := i.isLt; have := r.isLt; omega⟩ : Fin 16384) e)
            * a1 (ix2 e (⟨1024 * j.val + k.val, by have := j.isLt; have := k.isLt; omega⟩ : Fin 3072)))
        + a2 (ix2 (0 : Fin 1) (⟨1024 * j.val + k.val, by have := j.isLt; have := k.isLt; omega⟩ : Fin 3072)) := by
  subst h0 h1 h2
  exact result_entry V c j _ k

end Region

end Cert.KernelIdeal.ProjArr

end
-- ==== Proof.HostStages.lean ====
/-
  The two stretches of host operations of the program, read at an index. Before the first region the host reshapes the
  input sequence [4, 4096, 1024] to rows [16384, 1024] (row-major: row 4096·b + q), lays the three weight matrices side by
  side along the columns ([1024, 3072]: matrix j in columns 1024·j … 1024·j + 1023; the change of format after it is the
  identity on extended reals), and lays the three bias vectors end to end ([3072], then [1, 3072]). Between the regions
  it cuts the three slabs of the projected array [3, 16384, 1024] apart and reshapes each back to [4, 4096, 1024].
  Each lemma holds for an arbitrary valuation of the buffers before the stretch.
-/
import proofs.«164067_j90838558311219_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostStages

open Idealize.ShloMosaic Idealize.ShloMosaic.ValueIdx
open Cert.KernelIdeal Cert.KernelIdeal.Gen

/-! ## Before the first region -/

/-- The row array is the input sequence reshaped. -/
theorem v0_fun (W : Valuation τ sig (Elt Ideal)) :
    (StableHlo.after (hostOps0 (F := Ideal)) W (Proc.devRef .tc main_v0) : S16384x1024.Idx → EReal)
      = shapeCast S16384x1024 (W (Proc.devRef .tc main_arg0) : S4x4096x1024.Idx → EReal)
          shapeCasts_S4x4096x1024_S16384x1024 := by
  dsimp only [hostOps0]
  after_results
  rfl

/-- Row 4096·b + q of the row array is row q of batch b of the input sequence. -/
theorem v0_at (W : Valuation τ sig (Elt Ideal)) (b : Fin 4) (q : Fin 4096) (e : Fin 1024) :
    (StableHlo.after (hostOps0 (F := Ideal)) W (Proc.devRef .tc main_v0) : S16384x1024.Idx → EReal)
        (ix2 (⟨4096 * b.val + q.val, by omega⟩ : Fin 16384) e)
      = (W (Proc.devRef .tc main_arg0) : S4x4096x1024.Idx → EReal) (ix3 b q e) := by
  rw [v0_fun]
  refine shapeCast_apply _ _ _ (ix3 b q e) ?_
  rw [Shape.rowMajor_val_three, Shape.rowMajor_val_two]
  show (b.val * 4096 + q.val) * 1024 + e.val = (4096 * b.val + q.val) * 1024 + e.val
  omega

/-- The three weight matrices, in the order they are laid side by side. -/
abbrev weights (W : Valuation τ sig (Elt Ideal)) : List ((s : Shape) × (s.Idx → EReal)) :=
  [⟨S1024x1024, (W (Proc.devRef .tc main_arg1) : S1024x1024.Idx → EReal)⟩,
   ⟨S1024x1024, (W (Proc.devRef .tc main_arg3) : S1024x1024.Idx → EReal)⟩,
   ⟨S1024x1024, (W (Proc.devRef .tc main_arg5) : S1024x1024.Idx → EReal)⟩]

/-- The three bias vectors, in the order they are laid end to end. -/
abbrev biases (W : Valuation τ sig (Elt Ideal)) : List ((s : Shape) × (s.Idx → EReal)) :=
  [⟨S1024, (W (Proc.devRef .tc main_arg2) : S1024.Idx → EReal)⟩,
   ⟨S1024, (W (Proc.devRef .tc main_arg4) : S1024.Idx → EReal)⟩,
   ⟨S1024, (W (Proc.devRef .tc main_arg6) : S1024.Idx → EReal)⟩]

/-- The weight array is the three weight matrices laid side by side along the columns (the change of format after the
    concatenation is the identity on extended reals). -/
theorem v2_fun (W : Valuation τ sig (Elt Ideal)) :
    (StableHlo.after (hostOps0 (F := Ideal)) W (Proc.devRef .tc main_v2) : S1024x3072.Idx → EReal)
      = concatenate S1024x3072 1 (weights W) concatenates_S1024x1024_S1024x1024_S1024x1024_S1024x3072_d1 := by
  dsimp only [hostOps0]
  after_results
  dsimp only [Matrix.cons_val]
  repeat (rw [StableHlo.reshape_result_ne]; rotate_left; decide)
  rfl

/-- Column 1024·0 + k of the weight array is column k of the first weight matrix. -/
theorem v2_at_0 (W : Valuation τ sig (Elt Ideal)) (e k : Fin 1024) :
    (StableHlo.after (hostOps0 (F := Ideal)) W (Proc.devRef .tc main_v2) : S1024x3072.Idx → EReal)
        (ix2 e (⟨k.val, by omega⟩ : Fin 3072))
      = (W (Proc.devRef .tc main_arg1) : S1024x1024.Idx → EReal) (ix2 e k) := by
  rw [v2_fun]
  refine concatenate_apply_piece (t := S1024x3072) (1 : Fin 2) (weights W) concatenates_S1024x1024_S1024x1024_S1024x1024_S1024x3072_d1 _ 0 (by show (0 : ℕ) < 3; omega) S1024x1024 _ rfl rfl 0 rfl (ix2 e k) ?_ ?_
  · intro b hb
    match b with
    | ⟨0, _⟩ => rfl
    | ⟨1, _⟩ => exact absurd rfl hb
  · show 0 + k.val = k.val
    omega

/-- Column 1024 + k of the weight array is column k of the second weight matrix. -/
theorem v2_at_1 (W : Valuation τ sig (Elt Ideal)) (e k : Fin 1024) :
    (StableHlo.after (hostOps0 (F := Ideal)) W (Proc.devRef .tc main_v2) : S1024x3072.Idx → EReal)
        (ix2 e (⟨1024 + k.val, by omega⟩ : Fin 3072))
      = (W (Proc.devRef .tc main_arg3) : S1024x1024.Idx → EReal) (ix2 e k) := by
  rw [v2_fun]
  refine concatenate_apply_piece (t := S1024x3072) (1 : Fin 2) (weights W) concatenates_S1024x1024_S1024x1024_S1024x1024_S1024x3072_d1 _ 1 (by show (1 : ℕ) < 3; omega) S1024x1024 _ rfl rfl 1024 rfl (ix2 e k) ?_ ?_
  · intro b hb
    match b with
    | ⟨0, _⟩ => rfl
    | ⟨1, _⟩ => exact absurd rfl hb
  · rfl

/-- Column 2048 + k of the weight array is column k of the third weight matrix. -/
theorem v2_at_2 (W : Valuation τ sig (Elt Ideal)) (e k : Fin 1024) :
    (StableHlo.after (hostOps0 (F := Ideal)) W (Proc.devRef .tc main_v2) : S1024x3072.Idx → EReal)
        (ix2 e (⟨2048 + k.val, by omega⟩ : Fin 3072))
      = (W (Proc.devRef .tc main_arg5) : S1024x1024.Idx → EReal) (ix2 e k) := by
  rw [v2_fun]
  refine concatenate_apply_piece (t := S1024x3072) (1 : Fin 2) (weights W) concatenates_S1024x1024_S1024x1024_S1024x1024_S1024x3072_d1 _ 2 (by show (2 : ℕ) < 3; omega) S1024x1024 _ rfl rfl 2048 rfl (ix2 e k) ?_ ?_
  · intro b hb
    match b with
    | ⟨0, _⟩ => rfl
    | ⟨1, _⟩ => exact absurd rfl hb
  · rfl

/-- The bias array is the three bias vectors laid end to end, as one row. -/
theorem v4_fun (W : Valuation τ sig (Elt Ideal)) :
    (StableHlo.after (hostOps0 (F := Ideal)) W (Proc.devRef .tc main_v4) : S1x3072.Idx → EReal)
      = shapeCast S1x3072
          (concatenate S3072 0 (biases W) concatenates_S1024_S1024_S1024_S3072_d0)
          shapeCasts_S3072_S1x3072 := by
  dsimp only [hostOps0]
  after_results
  dsimp only [Matrix.cons_val]
  repeat (first
    | (rw [StableHlo.unary_result_ne]; rotate_left; decide)
    | (rw [StableHlo.nary_result_ne]; rotate_left; decide)
    | (rw [StableHlo.reshape_result_ne]; rotate_left; decide))
  rfl

/-- Entry 1024·0 + k of the bias row is entry k of the first bias vector. -/
theorem v4_at_0 (W : Valuation τ sig (Elt Ideal)) (k : Fin 1024) :
    (StableHlo.after (hostOps0 (F := Ideal)) W (Proc.devRef .tc main_v4) : S1x3072.Idx → EReal)
        (ix2 (0 : Fin 1) (⟨k.val, by omega⟩ : Fin 3072))
      = (W (Proc.devRef .tc main_arg2) : S1024.Idx → EReal) (ix1 k) := by
  rw [v4_fun]
  refine (shapeCast_apply _ _ _ (ix1 (⟨k.val, by omega⟩ : Fin 3072)) ?_).trans ?_
  · rw [Shape.rowMajor_val_one, Shape.rowMajor_val_two]
    show k.val = 0 * 3072 + k.val
    omega
  refine concatenate_apply_piece (t := S3072) (0 : Fin 1) (biases W) concatenates_S1024_S1024_S1024_S3072_d0 _ 0 (by show (0 : ℕ) < 3; omega) S1024 _ rfl rfl 0 rfl (ix1 k) ?_ ?_
  · intro b hb
    match b with
    | ⟨0, _⟩ => exact absurd rfl hb
  · show 0 + k.val = k.val
    omega

/-- Entry 1024 + k of the bias row is entry k of the second bias vector. -/
theorem v4_at_1 (W : Valuation τ sig (Elt Ideal)) (k : Fin 1024) :
    (StableHlo.after (hostOps0 (F := Ideal)) W (Proc.devRef .tc main_v4) : S1x3072.Idx → EReal)
        (ix2 (0 : Fin 1) (⟨1024 + k.val, by omega⟩ : Fin 3072))
      = (W (Proc.devRef .tc main_arg4) : S1024.Idx → EReal) (ix1 k) := by
  rw [v4_fun]
  refine (shapeCast_apply _ _ _ (ix1 (⟨1024 + k.val, by omega⟩ : Fin 3072)) ?_).trans ?_
  · rw [Shape.rowMajor_val_one, Shape.rowMajor_val_two]
    show 1024 + k.val = 0 * 3072 + (1024 + k.val)
    omega
  refine concatenate_apply_piece (t := S3072) (0 : Fin 1) (biases W) concatenates_S1024_S1024_S1024_S3072_d0 _ 1 (by show (1 : ℕ) < 3; omega) S1024 _ rfl rfl 1024 rfl (ix1 k) ?_ ?_
  · intro b hb
    match b with
    | ⟨0, _⟩ => exact absurd rfl hb
  · rfl

/-- Entry 2048 + k of the bias row is entry k of the third bias vector. -/
theorem v4_at_2 (W : Valuation τ sig (Elt Ideal)) (k : Fin 1024) :
    (StableHlo.after (hostOps0 (F := Ideal)) W (Proc.devRef .tc main_v4) : S1x3072.Idx → EReal)
        (ix2 (0 : Fin 1) (⟨2048 + k.val, by omega⟩ : Fin 3072))
      = (W (Proc.devRef .tc main_arg6) : S1024.Idx → EReal) (ix1 k) := by
  rw [v4_fun]
  refine (shapeCast_apply _ _ _ (ix1 (⟨2048 + k.val, by omega⟩ : Fin 3072)) ?_).trans ?_
  · rw [Shape.rowMajor_val_one, Shape.rowMajor_val_two]
    show 2048 + k.val = 0 * 3072 + (2048 + k.val)
    omega
  refine concatenate_apply_piece (t := S3072) (0 : Fin 1) (biases W) concatenates_S1024_S1024_S1024_S3072_d0 _ 2 (by show (2 : ℕ) < 3; omega) S1024 _ rfl rfl 2048 rfl (ix1 k) ?_ ?_
  · intro b hb
    match b with
    | ⟨0, _⟩ => exact absurd rfl hb
  · rfl

/-! ## Between the regions -/

section Slabs
variable {F : FTy → Type} [FloatOps F]

/-- The first slab, reshaped to [4, 4096, 1024]. -/
theorem v8_fun (W : Valuation τ sig (Elt F)) :
    (StableHlo.after (hostOps1 (F := F)) W (Proc.devRef .tc main_v8) : S4x4096x1024.Idx → F .bf16)
      = shapeCast S4x4096x1024
          (shapeCast S16384x1024
            (extractStridedSlice S1x16384x1024 ![0, 0, 0] (W (Proc.devRef .tc main_v5) : S3x16384x1024.Idx → F .bf16)
              slices_S3x16384x1024_S1x16384x1024_0_0_0)
            shapeCasts_S1x16384x1024_S16384x1024)
          shapeCasts_S16384x1024_S4x4096x1024 := by
  dsimp only [hostOps1]
  after_results
  rfl

/-- Row q of batch b of the first reshaped slab is row 4096·b + q of slab 0 of the projected array. -/
theorem v8_at (W : Valuation τ sig (Elt F)) (b : Fin 4) (q : Fin 4096) (k : Fin 1024) :
    (StableHlo.after (hostOps1 (F := F)) W (Proc.devRef .tc main_v8) : S4x4096x1024.Idx → F .bf16) (ix3 b q k)
      = (W (Proc.devRef .tc main_v5) : S3x16384x1024.Idx → F .bf16)
          (ix3 (0 : Fin 3) (⟨4096 * b.val + q.val, by omega⟩ : Fin 16384) k) := by
  rw [v8_fun]
  refine (shapeCast_apply _ _ _ (ix2 (⟨4096 * b.val + q.val, by omega⟩ : Fin 16384) k) ?_).trans ?_
  · rw [Shape.rowMajor_val_two, Shape.rowMajor_val_three]
    show (4096 * b.val + q.val) * 1024 + k.val = (b.val * 4096 + q.val) * 1024 + k.val
    omega
  refine (shapeCast_apply _ _ _ (ix3 (0 : Fin 1) (⟨4096 * b.val + q.val, by omega⟩ : Fin 16384) k) ?_).trans ?_
  · rw [Shape.rowMajor_val_three, Shape.rowMajor_val_two]
    show ((0 : ℕ) * 16384 + (4096 * b.val + q.val)) * 1024 + k.val = (4096 * b.val + q.val) * 1024 + k.val
    omega
  refine extractStridedSlice_apply _ _ _ _
    (ix3 (0 : Fin 3) (⟨4096 * b.val + q.val, by omega⟩ : Fin 16384) k) ?_
  intro a
  match a with
  | ⟨0, _⟩ => rfl
  | ⟨1, _⟩ => exact (Nat.zero_add _).symm
  | ⟨2, _⟩ => exact (Nat.zero_add _).symm

/-- The second slab, reshaped to [4, 4096, 1024]. -/
theorem v11_fun (W : Valuation τ sig (Elt F)) :
    (StableHlo.after (hostOps1 (F := F)) W (Proc.devRef .tc main_v11) : S4x4096x1024.Idx → F .bf16)
      = shapeCast S4x4096x1024
          (shapeCast S16384x1024
            (extractStridedSlice S1x16384x1024 ![1, 0, 0] (W (Proc.devRef .tc main_v5) : S3x16384x1024.Idx → F .bf16)
              slices_S3x16384x1024_S1x16384x1024_1_0_0)
            shapeCasts_S1x16384x1024_S16384x1024)
          shapeCasts_S16384x1024_S4x4096x1024 := by
  dsimp only [hostOps1]
  after_results
  rfl

/-- Row q of batch b of the second reshaped slab is row 4096·b + q of slab 1 of the projected array. -/
theorem v11_at (W : Valuation τ sig (Elt F)) (b : Fin 4) (q : Fin 4096) (k : Fin 1024) :
    (StableHlo.after (hostOps1 (F := F)) W (Proc.devRef .tc main_v11) : S4x4096x1024.Idx → F .bf16) (ix3 b q k)
      = (W (Proc.devRef .tc main_v5) : S3x16384x1024.Idx → F .bf16)
          (ix3 (1 : Fin 3) (⟨4096 * b.val + q.val, by omega⟩ : Fin 16384) k) := by
  rw [v11_fun]
  refine (shapeCast_apply _ _ _ (ix2 (⟨4096 * b.val + q.val, by omega⟩ : Fin 16384) k) ?_).trans ?_
  · rw [Shape.rowMajor_val_two, Shape.rowMajor_val_three]
    show (4096 * b.val + q.val) * 1024 + k.val = (b.val * 4096 + q.val) * 1024 + k.val
    omega
  refine (shapeCast_apply _ _ _ (ix3 (0 : Fin 1) (⟨4096 * b.val + q.val, by omega⟩ : Fin 16384) k) ?_).trans ?_
  · rw [Shape.rowMajor_val_three, Shape.rowMajor_val_two]
    show ((0 : ℕ) * 16384 + (4096 * b.val + q.val)) * 1024 + k.val = (4096 * b.val + q.val) * 1024 + k.val
    omega
  refine extractStridedSlice_apply _ _ _ _
    (ix3 (1 : Fin 3) (⟨4096 * b.val + q.val, by omega⟩ : Fin 16384) k) ?_
  intro a
  match a with
  | ⟨0, _⟩ => rfl
  | ⟨1, _⟩ => exact (Nat.zero_add _).symm
  | ⟨2, _⟩ => exact (Nat.zero_add _).symm

/-- The third slab, reshaped to [4, 4096, 1024]. -/
theorem v14_fun (W : Valuation τ sig (Elt F)) :
    (StableHlo.after (hostOps1 (F := F)) W (Proc.devRef .tc main_v14) : S4x4096x1024.Idx → F .bf16)
      = shapeCast S4x4096x1024
          (shapeCast S16384x1024
            (extractStridedSlice S1x16384x1024 ![2, 0, 0] (W (Proc.devRef .tc main_v5) : S3x16384x1024.Idx → F .bf16)
              slices_S3x16384x1024_S1x16384x1024_2_0_0)
            shapeCasts_S1x16384x1024_S16384x1024)
          shapeCasts_S16384x1024_S4x4096x1024 := by
  dsimp only [hostOps1]
  after_results
  rfl

/-- Row q of batch b of the third reshaped slab is row 4096·b + q of slab 2 of the projected array. -/
theorem v14_at (W : Valuation τ sig (Elt F)) (b : Fin 4) (q : Fin 4096) (k : Fin 1024) :
    (StableHlo.after (hostOps1 (F := F)) W (Proc.devRef .tc main_v14) : S4x4096x1024.Idx → F .bf16) (ix3 b q k)
      = (W (Proc.devRef .tc main_v5) : S3x16384x1024.Idx → F .bf16)
          (ix3 (2 : Fin 3) (⟨4096 * b.val + q.val, by omega⟩ : Fin 16384) k) := by
  rw [v14_fun]
  refine (shapeCast_apply _ _ _ (ix2 (⟨4096 * b.val + q.val, by omega⟩ : Fin 16384) k) ?_).trans ?_
  · rw [Shape.rowMajor_val_two, Shape.rowMajor_val_three]
    show (4096 * b.val + q.val) * 1024 + k.val = (b.val * 4096 + q.val) * 1024 + k.val
    omega
  refine (shapeCast_apply _ _ _ (ix3 (0 : Fin 1) (⟨4096 * b.val + q.val, by omega⟩ : Fin 16384) k) ?_).trans ?_
  · rw [Shape.rowMajor_val_three, Shape.rowMajor_val_two]
    show ((0 : ℕ) * 16384 + (4096 * b.val + q.val)) * 1024 + k.val = (4096 * b.val + q.val) * 1024 + k.val
    omega
  refine extractStridedSlice_apply _ _ _ _
    (ix3 (2 : Fin 3) (⟨4096 * b.val + q.val, by omega⟩ : Fin 16384) k) ?_
  intro a
  match a with
  | ⟨0, _⟩ => rfl
  | ⟨1, _⟩ => exact (Nat.zero_add _).symm
  | ⟨2, _⟩ => exact (Nat.zero_add _).symm

end Slabs

end Cert.KernelIdeal.HostStages

end
-- ==== Proof.KernelValue.lean ====
/-
  The kernel program's result array as a function of its arguments. The first host stretch lays the sequence out as
  16384 rows and puts the three weight matrices side by side and the three biases end to end; the projection region
  fills slab j of its output with rows·(weights j) + bias j; the second host stretch cuts the three slabs out and gives
  them their batch axis back: these are the projected queries, keys and values the flash-attention region is entered
  with. Its output block at a query block's last key block is the softmax of each row's scores applied to the value
  columns, and the blocks tile the result array.
-/
import proofs.«164067_j90838558311219_2_alg».proof.Proof.KernelRun
import proofs.«164067_j90838558311219_2_alg».proof.Proof.FlashInduct
import proofs.«164067_j90838558311219_2_alg».proof.Proof.FlashArray
import proofs.«164067_j90838558311219_2_alg».proof.Proof.ProjArray
import proofs.«164067_j90838558311219_2_alg».proof.Proof.HostStages
import proofs.«164067_j90838558311219_2_alg».proof.Proof.LibRealOps
import proofs.«164067_j90838558311219_2_alg».proof.Proof.AttnSpec

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Cert.AttnSpec

/-- An entry of slab `j` of the projection region's output, when the rows, the weight columns and the bias entries it
    reads are coerced reals: the coerced projection. -/
theorem entry_real (x : SX.Idx → ℝ) (a0 : S16384x1024.Idx → EReal) (a1 : S1024x3072.Idx → EReal) (a2 : S1x3072.Idx → EReal)
    (j : Fin 3) (W : SW.Idx → ℝ) (bias : SB.Idx → ℝ) (b : Fin 4) (q : Fin 4096) (k : Fin 1024)
    (ρ : Fin 16384) (kk : Fin 3072) (hkk : kk.val = 1024 * j.val + k.val)
    (ha0 : ∀ e : Fin 1024, a0 (ix2 ρ e) = ((x (ix3 b q e) : ℝ) : EReal))
    (ha1 : ∀ e : Fin 1024, a1 (ix2 e kk) = ((W (ix2 e k) : ℝ) : EReal))
    (ha2 : a2 (ix2 (0 : Fin 1) kk) = ((bias (ix1 k) : ℝ) : EReal)) :
    ProjArr.entry a0 a1 a2 j ρ k = ((proj x W bias b q k : ℝ) : EReal) := by
  have hk : (⟨1024 * j.val + k.val, by omega⟩ : Fin 3072) = kk := Fin.ext hkk.symm
  unfold ProjArr.entry proj
  simp only [hk, ha0, ha1, ha2, RealOps.mul_coe, RealOps.sum_coe, RealOps.add_coe]

section
variable (m : (ℓ : Loc nD τ sig) → Buf (Elt Ideal) ℓ) (c : Dev nD)
variable (x : SX.Idx → ℝ) (Wq : SW.Idx → ℝ) (bq : SB.Idx → ℝ) (Wk : SW.Idx → ℝ) (bk : SB.Idx → ℝ) (Wv : SW.Idx → ℝ) (bv : SB.Idx → ℝ)
variable (h0 : m ((c.tc : Thread nD τ).loc main_arg0) = fun i => ((x i : ℝ) : EReal))
  (h1 : m ((c.tc : Thread nD τ).loc main_arg1) = fun i => ((Wq i : ℝ) : EReal))
  (h2 : m ((c.tc : Thread nD τ).loc main_arg2) = fun i => ((bq i : ℝ) : EReal))
  (h3 : m ((c.tc : Thread nD τ).loc main_arg3) = fun i => ((Wk i : ℝ) : EReal))
  (h4 : m ((c.tc : Thread nD τ).loc main_arg4) = fun i => ((bk i : ℝ) : EReal))
  (h5 : m ((c.tc : Thread nD τ).loc main_arg5) = fun i => ((Wv i : ℝ) : EReal))
  (h6 : m ((c.tc : Thread nD τ).loc main_arg6) = fun i => ((bv i : ℝ) : EReal))

include h0 in
/-- Row 4096·b + q of the flattened sequence is row (b, q) of `x`. -/
theorem rows_real (b : Fin 4) (q : Fin 4096) (e : Fin 1024) :
    (Run.V1 m c main_v0 : S16384x1024.Idx → EReal) (ix2 (⟨4096 * b.val + q.val, by omega⟩ : Fin 16384) e) = ((x (ix3 b q e) : ℝ) : EReal) :=
  (HostStages.v0_at (Run.W0 m c) b q e).trans (congrFun h0 (ix3 b q e))

include h0 h1 h2 in
/-- The projected queries as the flash-attention region finds them. -/
theorem slab_queries (b : Fin 4) (q : Fin 4096) (k : Fin 1024) :
    (Run.V3 m c main_v8 : S4x4096x1024.Idx → EReal) (ix3 b q k) = ((proj x Wq bq b q k : ℝ) : EReal) := by
  refine (HostStages.v8_at (F := Ideal) (Run.W2 m c) b q k).trans ?_
  rw [show Run.W2 m c (Proc.devRef .tc main_v5) = (Proj.dat0 (Run.V1 m) c).arrAt 3 cfg0.N from Run.W2_arr m c 3]
  refine (ProjArr.result_entry (Run.V1 m) c (0 : Fin 3) _ k).trans ?_
  exact entry_real x _ _ _ (0 : Fin 3) Wq bq b q k _ (⟨k.val, by omega⟩ : Fin 3072) (by show k.val = 1024 * 0 + k.val; omega)
    (rows_real m c x h0 b q)
    (fun e => (HostStages.v2_at_0 (Run.W0 m c) e k).trans (congrFun h1 (ix2 e k)))
    ((HostStages.v4_at_0 (Run.W0 m c) k).trans (congrFun h2 (ix1 k)))

include h0 h3 h4 in
/-- The projected keys as the flash-attention region finds them. -/
theorem slab_keys (b : Fin 4) (q : Fin 4096) (k : Fin 1024) :
    (Run.V3 m c main_v11 : S4x4096x1024.Idx → EReal) (ix3 b q k) = ((proj x Wk bk b q k : ℝ) : EReal) := by
  refine (HostStages.v11_at (F := Ideal) (Run.W2 m c) b q k).trans ?_
  rw [show Run.W2 m c (Proc.devRef .tc main_v5) = (Proj.dat0 (Run.V1 m) c).arrAt 3 cfg0.N from Run.W2_arr m c 3]
  refine (ProjArr.result_entry (Run.V1 m) c (1 : Fin 3) _ k).trans ?_
  exact entry_real x _ _ _ (1 : Fin 3) Wk bk b q k _ (⟨1024 + k.val, by omega⟩ : Fin 3072) (by show 1024 + k.val = 1024 * 1 + k.val; omega)
    (rows_real m c x h0 b q)
    (fun e => (HostStages.v2_at_1 (Run.W0 m c) e k).trans (congrFun h3 (ix2 e k)))
    ((HostStages.v4_at_1 (Run.W0 m c) k).trans (congrFun h4 (ix1 k)))

include h0 h5 h6 in
/-- The projected values as the flash-attention region finds them. -/
theorem slab_values (b : Fin 4) (q : Fin 4096) (k : Fin 1024) :
    (Run.V3 m c main_v14 : S4x4096x1024.Idx → EReal) (ix3 b q k) = ((proj x Wv bv b q k : ℝ) : EReal) := by
  refine (HostStages.v14_at (F := Ideal) (Run.W2 m c) b q k).trans ?_
  rw [show Run.W2 m c (Proc.devRef .tc main_v5) = (Proj.dat0 (Run.V1 m) c).arrAt 3 cfg0.N from Run.W2_arr m c 3]
  refine (ProjArr.result_entry (Run.V1 m) c (2 : Fin 3) _ k).trans ?_
  exact entry_real x _ _ _ (2 : Fin 3) Wv bv b q k _ (⟨2048 + k.val, by omega⟩ : Fin 3072) (by show 2048 + k.val = 1024 * 2 + k.val; omega)
    (rows_real m c x h0 b q)
    (fun e => (HostStages.v2_at_2 (Run.W0 m c) e k).trans (congrFun h5 (ix2 e k)))
    ((HostStages.v4_at_2 (Run.W0 m c) k).trans (congrFun h6 (ix1 k)))

include h0 h1 h2 h3 h4 h5 h6 in
/-- The output block of query-block group `g` (batch g / 2, query block g % 2) at its last key block, entry (r, col):
    attention's output at batch g / 2, query row 2048·(g % 2) + r, column col. -/
theorem out_block (g : ℕ) (hg : g < 8) (r : Fin 2048) (col : Fin 1024) :
    (Flash.outsAt1 (Run.V3 m) c (FlashInd.pt g 3 hg (by omega)).val (FlashInd.pt g 3 hg (by omega)).isLt).1 (ix3 (0 : Fin 1) r col)
      = ((out x Wq bq Wk bk Wv bv (⟨g / 2, by omega⟩ : Fin 4) (⟨2048 * (g % 2) + r.val, by omega⟩ : Fin 4096) col : ℝ) : EReal) := by
  refine (FlashInd.flash_out (Run.V3 m) c g hg r col
    (fun d => proj x Wq bq (⟨g / 2, by omega⟩ : Fin 4) (⟨2048 * (g % 2) + r.val, by omega⟩ : Fin 4096) d)
    (fun κ d => proj x Wk bk (⟨g / 2, by omega⟩ : Fin 4) κ d)
    (fun κ => proj x Wv bv (⟨g / 2, by omega⟩ : Fin 4) κ col) ?_ ?_ ?_).trans rfl
  · intro n hn d
    rw [FlashArr.iblk1_q_apply (Run.V3 m) c (FlashInd.pt g n hg hn) r d]
    have hb : (⟨(FlashInd.pt g n hg hn).val / 8, FlashArr.batch_lt _⟩ : Fin 4) = ⟨g / 2, by omega⟩ := Fin.ext (by show (4 * g + n) / 8 = g / 2; omega)
    have hq : (⟨2048 * (((FlashInd.pt g n hg hn).val / 4) % 2) + r.val, FlashArr.qrow_lt _ r⟩ : Fin 4096) = ⟨2048 * (g % 2) + r.val, by omega⟩ := Fin.ext (by show 2048 * (((4 * g + n) / 4) % 2) + r.val = 2048 * (g % 2) + r.val; omega)
    rw [hb, hq]
    exact slab_queries m c x Wq bq h0 h1 h2 _ _ _
  · intro n hn s d
    rw [FlashArr.iblk1_k_apply (Run.V3 m) c (FlashInd.pt g n hg hn) s d]
    have hb : (⟨(FlashInd.pt g n hg hn).val / 8, FlashArr.batch_lt _⟩ : Fin 4) = ⟨g / 2, by omega⟩ := Fin.ext (by show (4 * g + n) / 8 = g / 2; omega)
    have hq : (⟨1024 * ((FlashInd.pt g n hg hn).val % 4) + s.val, FlashArr.krow_lt _ s⟩ : Fin 4096) = ⟨1024 * n + s.val, by omega⟩ := Fin.ext (by show 1024 * ((4 * g + n) % 4) + s.val = 1024 * n + s.val; omega)
    rw [hb, hq]
    exact slab_keys m c x Wk bk h0 h3 h4 _ _ _
  · intro n hn s
    rw [FlashArr.iblk1_v_apply (Run.V3 m) c (FlashInd.pt g n hg hn) s col]
    have hb : (⟨(FlashInd.pt g n hg hn).val / 8, FlashArr.batch_lt _⟩ : Fin 4) = ⟨g / 2, by omega⟩ := Fin.ext (by show (4 * g + n) / 8 = g / 2; omega)
    have hq : (⟨1024 * ((FlashInd.pt g n hg hn).val % 4) + s.val, FlashArr.krow_lt _ s⟩ : Fin 4096) = ⟨1024 * n + s.val, by omega⟩ := Fin.ext (by show 1024 * ((4 * g + n) % 4) + s.val = 1024 * n + s.val; omega)
    rw [hb, hq]
    exact slab_values m c x Wv bv h0 h5 h6 _ _ _

/-- Attention's output as an array of extended reals. -/
def Gout (x : SX.Idx → ℝ) (Wq : SW.Idx → ℝ) (bq : SB.Idx → ℝ) (Wk : SW.Idx → ℝ) (bk : SB.Idx → ℝ) (Wv : SW.Idx → ℝ) (bv : SB.Idx → ℝ) :
    S4x4096x1024.Idx → EReal :=
  fun i => ((out x Wq bq Wk bk Wv bv (⟨(i 0).val, (i 0).isLt⟩ : Fin 4) (⟨(i 1).val, (i 1).isLt⟩ : Fin 4096) (⟨(i 2).val, (i 2).isLt⟩ : Fin 1024) : ℝ) : EReal)

theorem Gout_apply (b : Fin 4) (q : Fin 4096) (k : Fin 1024) :
    Gout x Wq bq Wk bk Wv bv (ix3 b q k) = ((out x Wq bq Wk bk Wv bv b q k : ℝ) : EReal) := rfl

include h0 h1 h2 h3 h4 h5 h6 in
/-- THE RESULT ARRAY of the kernel program: attention's output. -/
theorem kernel_result : (Flash.dat1 (Run.V3 m) c).arrAt 3 cfg1.N = Gout x Wq bq Wk bk Wv bv := by
  refine FlashArr.arrAt_eq (Run.V3 m) c (Gout x Wq bq Wk bk Wv bv) ?_
  intro t ht r col
  rw [Gout_apply]
  have hN : t.val < 32 := lt_of_lt_of_eq t.isLt (show cfg1.N = 32 from N_1)
  have hg : t.val / 4 < 8 := by omega
  rw [FlashInd.outsAt1_congr (Run.V3 m) c (show t.val = (FlashInd.pt (t.val / 4) 3 hg (by omega)).val from by show t.val = 4 * (t.val / 4) + 3; omega) t.isLt (FlashInd.pt (t.val / 4) 3 hg (by omega)).isLt]
  refine (out_block m c x Wq bq Wk bk Wv bv h0 h1 h2 h3 h4 h5 h6 (t.val / 4) hg r col).trans ?_
  have hb : (⟨t.val / 4 / 2, by omega⟩ : Fin 4) = ⟨t.val / 8, FlashArr.batch_lt t⟩ := Fin.ext (by show t.val / 4 / 2 = t.val / 8; omega)
  have hq : (⟨2048 * (t.val / 4 % 2) + r.val, by omega⟩ : Fin 4096) = ⟨2048 * ((t.val / 4) % 2) + r.val, FlashArr.qrow_lt t r⟩ := rfl
  rw [hb]

end

end Cert.KernelIdeal.KValue

end
-- ==== Proof.RefStages.lean ====
/-
  The reference program read one host operation at a time: each stage of its straight line as a function of the
  argument arrays at an index. On real arguments every stage is a real: the three projections are the rows of `x`
  against the columns of a weight matrix plus a bias; the scale is 1/32 (the square root of 1024 is 32); a score is
  the scaled inner product of a projected query row with a projected key row; the row maximum of 4096 real scores is
  a real; the shifted exponentials are positive, so their sum is not zero and the quotient is the real quotient; the
  result is the sum over the key rows of the weights times the projected value column.
-/
import proofs.«164067_j90838558311219_2_alg».proof.Defs
import proofs.«164067_j90838558311219_2_alg».proof.Proof.Gen.ReferenceIdeal.Run
import proofs.«164067_j90838558311219_2_alg».proof.Proof.Gen.ReferenceIdeal.Read
import proofs.«164067_j90838558311219_2_alg».proof.Proof.AttnSpec
import Idealize.ShloMosaic.Lib.ValueIdx
import Idealize.ShloMosaic.PureOps.Ideal.Laws

noncomputable section

open scoped BigOperators

namespace Cert.ReferenceIdeal.RefStages

open Cert.ReferenceIdeal Cert.ReferenceIdeal.Gen Cert.ReferenceIdeal.Read Cert.AttnSpec
open Idealize.ShloMosaic Idealize.ShloMosaic.ValueIdx

/-! ## Real numbers inside the extended reals -/

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion of the greater of two reals is the greater of the coercions. -/
theorem coe_max (a b : ℝ) : ((max a b : ℝ) : EReal) = max (a : EReal) (b : EReal) :=
  EReal.coe_strictMono.monotone.map_max

/-- The fold of the maximum from `-∞` over a nonempty finite family of reals is a real. -/
theorem fold_maximumf_coe {ι : Type*} (f : ι → ℝ) (t : Finset ι) (ht : t.Nonempty) :
    ∃ ν : ℝ, t.fold (FloatOps.maximumf (F := Ideal) (φ := .f32)) (⊥ : EReal) (fun s => ((f s : ℝ) : EReal)) = (ν : EReal) := by
  classical
  have key : ∀ t : Finset ι,
      t.fold (FloatOps.maximumf (F := Ideal) (φ := .f32)) (⊥ : EReal) (fun s => ((f s : ℝ) : EReal)) = ⊥ ∧ t = ∅
        ∨ ∃ ν : ℝ, t.fold (FloatOps.maximumf (F := Ideal) (φ := .f32)) (⊥ : EReal) (fun s => ((f s : ℝ) : EReal)) = (ν : EReal) := by
    intro t
    induction t using Finset.induction_on with
    | empty => exact Or.inl ⟨Finset.fold_empty, rfl⟩
    | insert a t ha ih =>
      refine Or.inr ?_
      rw [Finset.fold_insert ha, Ideal.maximumf_def]
      rcases ih with ⟨h, _⟩ | ⟨ν, h⟩
      · exact ⟨f a, by rw [h, max_bot_right]⟩
      · exact ⟨max (f a) ν, by rw [h, coe_max]⟩
  rcases key t with ⟨_, h⟩ | h
  · exact absurd h ht.ne_empty
  · exact h

/-! ## The float constants the program spells -/

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- The pattern `0xFF800000` denotes `-∞`. -/
theorem ofBits_neg_inf : Ideal.ofBits .f32 0xFF800000#32 = ⊥ := by
  simp [Ideal.ofBits, Ideal.ieee]

/-- The square root of 1024 is 32. -/
theorem sqrt_1024 : Real.sqrt 1024 = 32 := by
  rw [show (1024 : ℝ) = 32 ^ 2 by norm_num, Real.sqrt_sq (by norm_num)]

/-- The scale: one over the square root of 1024, the real 1/32. -/
theorem scale_eq (i : S_.Idx) : val_main_v13 (F := Ideal) i = ((1 / 32 : ℝ) : EReal) := by
  rw [val_main_v13_apply, val_main_cst_0_apply, val_main_v12_apply, val_main_cst_apply]
  rw [Ideal.hostDivf_def, Ideal.hostUnary_sqrt_def, Ideal.ofBits_def, Ideal.ofBits_def, ofBits_1024, ofBits_one,
    Ideal.sqrt_coe, if_neg (by norm_num), sqrt_1024, Ideal.div_coe (by norm_num), one_mul]

/-! ## The softmax does not depend on its shift -/

/-- A softmax weight does not depend on the shift: the factor `exp (-ν)` cancels between the exponential and the sum. -/
theorem softmax_shift (S : Fin 4096 → ℝ) (ν : ℝ) (s : Fin 4096) :
    Real.exp (S s - ν) / ∑ s' : Fin 4096, Real.exp (S s' - ν)
      = Real.exp (S s) / ∑ s' : Fin 4096, Real.exp (S s') := by
  simp only [Real.exp_sub, ← Finset.sum_div]
  exact div_div_div_cancel_right₀ (Real.exp_pos ν).ne' _ _

/-! ## The stages on real arguments -/

section Stages

variable (x : SX.Idx → ℝ) (Wq : SW.Idx → ℝ) (bq : SB.Idx → ℝ) (Wk : SW.Idx → ℝ) (bk : SB.Idx → ℝ)
  (Wv : SW.Idx → ℝ) (bv : SB.Idx → ℝ)

/-- The query projection at an index: the row of `x` against the column of the weights, plus the bias. -/
theorem proj_q (b : Fin 4) (q : Fin 4096) (k : Fin 1024) :
    val_main_v3 (F := Ideal) (fun i => ((x i : ℝ) : EReal)) (fun i => ((Wq i : ℝ) : EReal)) (fun i => ((bq i : ℝ) : EReal)) (ix3 b q k)
      = ((proj x Wq bq b q k : ℝ) : EReal) := by
  rw [val_main_v3_apply, val_main_v0_apply, val_main_v2_apply, val_main_v1_apply]
  have hl : ∀ e : Fin 1024, lidx_main_v0 (ix3 b q k) e = ix3 b q e := fun e =>
    funext fun a => by match a with | ⟨0, _⟩ => rfl | ⟨1, _⟩ => rfl | ⟨2, _⟩ => rfl
  have hr : ∀ e : Fin 1024, ridx_main_v0 (ix3 b q k) e = ix2 e k := fun e =>
    funext fun a => by match a with | ⟨0, _⟩ => rfl | ⟨1, _⟩ => rfl
  have hb : idx_main_v1 (idx_main_v2 (ix3 b q k)) = ix1 k :=
    funext fun a => by match a with | ⟨0, _⟩ => rfl
  simp only [hl, hr, hb, Ideal.addf_def, ← EReal.coe_mul, ← coe_sum, ← EReal.coe_add]
  rfl

/-- The key projection at an index. -/
theorem proj_k (b : Fin 4) (q : Fin 4096) (k : Fin 1024) :
    val_main_v7 (F := Ideal) (fun i => ((x i : ℝ) : EReal)) (fun i => ((Wk i : ℝ) : EReal)) (fun i => ((bk i : ℝ) : EReal)) (ix3 b q k)
      = ((proj x Wk bk b q k : ℝ) : EReal) := by
  rw [val_main_v7_apply, val_main_v4_apply, val_main_v6_apply, val_main_v5_apply]
  have hl : ∀ e : Fin 1024, lidx_main_v4 (ix3 b q k) e = ix3 b q e := fun e =>
    funext fun a => by match a with | ⟨0, _⟩ => rfl | ⟨1, _⟩ => rfl | ⟨2, _⟩ => rfl
  have hr : ∀ e : Fin 1024, ridx_main_v4 (ix3 b q k) e = ix2 e k := fun e =>
    funext fun a => by match a with | ⟨0, _⟩ => rfl | ⟨1, _⟩ => rfl
  have hb : idx_main_v5 (idx_main_v6 (ix3 b q k)) = ix1 k :=
    funext fun a => by match a with | ⟨0, _⟩ => rfl
  simp only [hl, hr, hb, Ideal.addf_def, ← EReal.coe_mul, ← coe_sum, ← EReal.coe_add]
  rfl

/-- The value projection at an index. -/
theorem proj_v (b : Fin 4) (q : Fin 4096) (k : Fin 1024) :
    val_main_v11 (F := Ideal) (fun i => ((x i : ℝ) : EReal)) (fun i => ((Wv i : ℝ) : EReal)) (fun i => ((bv i : ℝ) : EReal)) (ix3 b q k)
      = ((proj x Wv bv b q k : ℝ) : EReal) := by
  rw [val_main_v11_apply, val_main_v8_apply, val_main_v10_apply, val_main_v9_apply]
  have hl : ∀ e : Fin 1024, lidx_main_v8 (ix3 b q k) e = ix3 b q e := fun e =>
    funext fun a => by match a with | ⟨0, _⟩ => rfl | ⟨1, _⟩ => rfl | ⟨2, _⟩ => rfl
  have hr : ∀ e : Fin 1024, ridx_main_v8 (ix3 b q k) e = ix2 e k := fun e =>
    funext fun a => by match a with | ⟨0, _⟩ => rfl | ⟨1, _⟩ => rfl
  have hb : idx_main_v9 (idx_main_v10 (ix3 b q k)) = ix1 k :=
    funext fun a => by match a with | ⟨0, _⟩ => rfl
  simp only [hl, hr, hb, Ideal.addf_def, ← EReal.coe_mul, ← coe_sum, ← EReal.coe_add]
  rfl

/-- A scaled score at an index: the inner product of a projected query row with a projected key row, times 1/32. -/
theorem score_eq (b : Fin 4) (q s : Fin 4096) :
    val_main_v16 (F := Ideal) (fun i => ((x i : ℝ) : EReal)) (fun i => ((Wq i : ℝ) : EReal)) (fun i => ((bq i : ℝ) : EReal)) (fun i => ((Wk i : ℝ) : EReal)) (fun i => ((bk i : ℝ) : EReal)) (ix3 b q s)
      = ((score (proj x Wq bq) (proj x Wk bk) b q s : ℝ) : EReal) := by
  rw [val_main_v16_apply, val_main_v14_apply, val_main_v15_apply, scale_eq]
  have hl : ∀ k : Fin 1024, lidx_main_v14 (ix3 b q s) k = ix3 b q k := fun k =>
    funext fun a => by match a with | ⟨0, _⟩ => rfl | ⟨1, _⟩ => rfl | ⟨2, _⟩ => rfl
  have hr : ∀ k : Fin 1024, ridx_main_v14 (ix3 b q s) k = ix3 b s k := fun k =>
    funext fun a => by match a with | ⟨0, _⟩ => rfl | ⟨1, _⟩ => rfl | ⟨2, _⟩ => rfl
  simp only [hl, hr, proj_q, proj_k, Ideal.mulf_def, ← EReal.coe_mul, ← coe_sum]
  rfl

/-- The maximum over the key axis read at an index: the fold of the maximum, from the initial value, over the 4096
    entries of the row. -/
theorem rowmax_apply (x0 : (⟨S4x4096x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal)) (i : S4x4096.Idx) :
    val_main_v17 (F := Ideal) x0 x1 x2 x3 x4 i
      = (Finset.univ : Finset (Fin 4096)).fold (FloatOps.maximumf (F := Ideal) (φ := .f32))
          (val_main_cst_1 (F := Ideal) (Shape.Idx.first h_S_))
          (fun k => val_main_v16 (F := Ideal) x0 x1 x2 x3 x4 (idx_main_v24 i k)) := by
  unfold val_main_v17
  generalize val_main_v16 (F := Ideal) x0 x1 x2 x3 x4 = y0
  rw [Host.reduce_eq_fold_single _ y0 _ reducesTo_S4x4096x4096_S4x4096_d2 (by decide)]
  refine congrArg (fun g => Finset.fold _ _ g Finset.univ) (funext fun k => ?_)
  exact congrArg y0 (funext fun a => Fin.ext (by match a with | ⟨0, _⟩ => rfl | ⟨1, _⟩ => rfl | ⟨2, _⟩ => rfl))

/-- The row maximum of real scores is a real: the shift the softmax subtracts. -/
theorem rowmax_real (b : Fin 4) (q : Fin 4096) :
    ∃ ν : ℝ, val_main_v19 (F := Ideal) (fun i => ((x i : ℝ) : EReal)) (fun i => ((Wq i : ℝ) : EReal)) (fun i => ((bq i : ℝ) : EReal)) (fun i => ((Wk i : ℝ) : EReal)) (fun i => ((bk i : ℝ) : EReal)) (ix2 b q) = (ν : EReal) := by
  have hi : ∀ k : Fin 4096, idx_main_v24 (ix2 b q) k = ix3 b q k := fun k =>
    funext fun a => by match a with | ⟨0, _⟩ => rfl | ⟨1, _⟩ => rfl | ⟨2, _⟩ => rfl
  obtain ⟨ν, hν⟩ := fold_maximumf_coe (fun s => score (proj x Wq bq) (proj x Wk bk) b q s) Finset.univ
    ⟨(0 : Fin 4096), Finset.mem_univ _⟩
  refine ⟨ν, ?_⟩
  rw [val_main_v19_apply, val_main_v18_apply, val_main_cst_2_apply, rowmax_apply, val_main_cst_1_apply]
  simp only [hi, score_eq, Ideal.ofBits_def, ofBits_neg_inf]
  rw [hν, Ideal.maximumf_def, max_bot_left]

/-- A shifted exponential at an index: the exponential of the score minus the row's shift, a positive real. -/
theorem exp_eq (b : Fin 4) (q : Fin 4096) (ν : ℝ)
    (hν : val_main_v19 (F := Ideal) (fun i => ((x i : ℝ) : EReal)) (fun i => ((Wq i : ℝ) : EReal)) (fun i => ((bq i : ℝ) : EReal)) (fun i => ((Wk i : ℝ) : EReal)) (fun i => ((bk i : ℝ) : EReal)) (ix2 b q) = (ν : EReal)) (s : Fin 4096) :
    val_main_v23 (F := Ideal) (fun i => ((x i : ℝ) : EReal)) (fun i => ((Wq i : ℝ) : EReal)) (fun i => ((bq i : ℝ) : EReal)) (fun i => ((Wk i : ℝ) : EReal)) (fun i => ((bk i : ℝ) : EReal)) (ix3 b q s)
      = ((Real.exp (score (proj x Wq bq) (proj x Wk bk) b q s - ν) : ℝ) : EReal) := by
  have hi : idx_main_v20 (idx_main_v21 (ix3 b q s)) = ix2 b q :=
    funext fun a => by match a with | ⟨0, _⟩ => rfl | ⟨1, _⟩ => rfl
  rw [val_main_v23_apply, val_main_v22_apply, val_main_v21_apply, val_main_v20_apply, hi, hν, score_eq,
    Ideal.hostUnary_exp_def, Ideal.subf_def, ← EReal.coe_sub, Ideal.exp_coe]

/-- The row's sum of shifted exponentials: zero plus the sum of 4096 reals. -/
theorem sum_eq (b : Fin 4) (q : Fin 4096) (ν : ℝ)
    (hν : val_main_v19 (F := Ideal) (fun i => ((x i : ℝ) : EReal)) (fun i => ((Wq i : ℝ) : EReal)) (fun i => ((bq i : ℝ) : EReal)) (fun i => ((Wk i : ℝ) : EReal)) (fun i => ((bk i : ℝ) : EReal)) (ix2 b q) = (ν : EReal)) :
    val_main_v24 (F := Ideal) (fun i => ((x i : ℝ) : EReal)) (fun i => ((Wq i : ℝ) : EReal)) (fun i => ((bq i : ℝ) : EReal)) (fun i => ((Wk i : ℝ) : EReal)) (fun i => ((bk i : ℝ) : EReal)) (ix2 b q)
      = ((∑ s' : Fin 4096, Real.exp (score (proj x Wq bq) (proj x Wk bk) b q s' - ν) : ℝ) : EReal) := by
  have hi : ∀ k : Fin 4096, idx_main_v24 (ix2 b q) k = ix3 b q k := fun k =>
    funext fun a => by match a with | ⟨0, _⟩ => rfl | ⟨1, _⟩ => rfl | ⟨2, _⟩ => rfl
  rw [val_main_v24_apply, val_main_cst_3_apply, Ideal.ofBits_def, Ideal.ofBits_zero_f32, zero_add]
  simp only [hi, exp_eq x Wq bq Wk bk b q ν hν, ← coe_sum]

/-- A softmax weight at an index: the sum of the row's exponentials is positive, so the quotient is the real one. -/
theorem weight_eq (b : Fin 4) (q : Fin 4096) (ν : ℝ)
    (hν : val_main_v19 (F := Ideal) (fun i => ((x i : ℝ) : EReal)) (fun i => ((Wq i : ℝ) : EReal)) (fun i => ((bq i : ℝ) : EReal)) (fun i => ((Wk i : ℝ) : EReal)) (fun i => ((bk i : ℝ) : EReal)) (ix2 b q) = (ν : EReal)) (s : Fin 4096) :
    val_main_v27 (F := Ideal) (fun i => ((x i : ℝ) : EReal)) (fun i => ((Wq i : ℝ) : EReal)) (fun i => ((bq i : ℝ) : EReal)) (fun i => ((Wk i : ℝ) : EReal)) (fun i => ((bk i : ℝ) : EReal)) (ix3 b q s)
      = ((Real.exp (score (proj x Wq bq) (proj x Wk bk) b q s - ν) / ∑ s' : Fin 4096, Real.exp (score (proj x Wq bq) (proj x Wk bk) b q s' - ν) : ℝ) : EReal) := by
  have hi : idx_main_v25 (idx_main_v26 (ix3 b q s)) = ix2 b q :=
    funext fun a => by match a with | ⟨0, _⟩ => rfl | ⟨1, _⟩ => rfl
  have hpos : (0 : ℝ) < ∑ s' : Fin 4096, Real.exp (score (proj x Wq bq) (proj x Wk bk) b q s' - ν) :=
    Finset.sum_pos (fun _ _ => Real.exp_pos _) ⟨(0 : Fin 4096), Finset.mem_univ _⟩
  rw [val_main_v27_apply, val_main_v26_apply, val_main_v25_apply, hi, sum_eq x Wq bq Wk bk b q ν hν,
    exp_eq x Wq bq Wk bk b q ν hν, Ideal.hostDivf_def, Ideal.div_coe hpos.ne', ← EReal.coe_mul, mul_one_div]

/-- The reference's result at an index, as one real formula: the softmax weights of the score row, shifted by the
    row's maximum (a real), applied to the projected value column. -/
theorem ref_out (b : Fin 4) (q : Fin 4096) (c : Fin 1024) :
    ∃ ν : ℝ, val_main_v28 (F := Ideal) (fun i => ((x i : ℝ) : EReal)) (fun i => ((Wq i : ℝ) : EReal)) (fun i => ((bq i : ℝ) : EReal)) (fun i => ((Wk i : ℝ) : EReal)) (fun i => ((bk i : ℝ) : EReal)) (fun i => ((Wv i : ℝ) : EReal)) (fun i => ((bv i : ℝ) : EReal)) (ix3 b q c)
      = (((∑ s : Fin 4096, (Real.exp (score (proj x Wq bq) (proj x Wk bk) b q s - ν) / ∑ s' : Fin 4096, Real.exp (score (proj x Wq bq) (proj x Wk bk) b q s' - ν))
            * proj x Wv bv b s c) : ℝ) : EReal) := by
  obtain ⟨ν, hν⟩ := rowmax_real x Wq bq Wk bk b q
  refine ⟨ν, ?_⟩
  have hl : ∀ k : Fin 4096, lidx_main_v28 (ix3 b q c) k = ix3 b q k := fun k =>
    funext fun a => by match a with | ⟨0, _⟩ => rfl | ⟨1, _⟩ => rfl | ⟨2, _⟩ => rfl
  have hr : ∀ k : Fin 4096, ridx_main_v28 (ix3 b q c) k = ix3 b k c := fun k =>
    funext fun a => by match a with | ⟨0, _⟩ => rfl | ⟨1, _⟩ => rfl | ⟨2, _⟩ => rfl
  rw [val_main_v28_apply]
  simp only [hl, hr, weight_eq x Wq bq Wk bk b q ν hν, proj_v, ← EReal.coe_mul, ← coe_sum]

/-- The same without the shift: the reference's result at an index is the specification's output there. -/
theorem ref_out_spec (b : Fin 4) (q : Fin 4096) (c : Fin 1024) :
    val_main_v28 (F := Ideal) (fun i => ((x i : ℝ) : EReal)) (fun i => ((Wq i : ℝ) : EReal)) (fun i => ((bq i : ℝ) : EReal)) (fun i => ((Wk i : ℝ) : EReal)) (fun i => ((bk i : ℝ) : EReal)) (fun i => ((Wv i : ℝ) : EReal)) (fun i => ((bv i : ℝ) : EReal)) (ix3 b q c)
      = ((out x Wq bq Wk bk Wv bv b q c : ℝ) : EReal) := by
  obtain ⟨ν, h⟩ := ref_out x Wq bq Wk bk Wv bv b q c
  rw [h]
  simp only [softmax_shift (fun s => score (proj x Wq bq) (proj x Wk bk) b q s) ν]
  rfl

end Stages

end Cert.ReferenceIdeal.RefStages

end
-- ==== Proof.FiniteInputs.lean ====
/-
  The precondition read back: the printed predicate is the conjunction, over the seven argument arrays, of
  "every entry has absolute value below +∞". An extended real whose absolute value is below +∞ is neither
  infinity, so it is a real: each argument array is the coercion of a real array.
-/
import proofs.«164067_j90838558311219_2_alg».proof.Defs
import proofs.«164067_j90838558311219_2_alg».proof.Proof.AttnSpec
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx Idealize.SL.Sem

/-- The scalar shape has one index. -/
instance subsingleton_scalar_idx : Subsingleton Cert.Pre_finite_inputs.S_.Idx :=
  ⟨fun a b => funext fun d => d.elim0⟩

/-- The pattern `0x7F800000` denotes `+∞`. -/
theorem ofBits_pos_inf : Ideal.ofBits .f32 0x7F800000#32 = ⊤ := by
  simp [Ideal.ofBits, Ideal.ieee]

/-- An extended real whose absolute value compares below `+∞` is a real: at `+∞` and at `-∞` the absolute value
    is `+∞` itself. -/
theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  rw [ofBits_pos_inf, Ideal.cmpf_def] at h
  induction x using EReal.rec with
  | bot => simp [Ideal.cmp, FloatOps.hostAbsf] at h
  | coe r => exact ⟨r, rfl⟩
  | top => simp [Ideal.cmp, FloatOps.hostAbsf] at h

/-- One `jnp.all(abs(a) < inf)` that holds: the array is the coercion of a real array. -/
theorem real_of_all_finite {s : Shape} (a : FVec Ideal s .f32)
    (bc : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (e : Host.reduce IntOp.andi
          (cmpf .olt (Host.absf a) (broadcastInDim s ![] bc (constant Cert.Pre_finite_inputs.S_ .f32 0x7F800000#32)))
          (constantI Cert.Pre_finite_inputs.S_ 1 1#1) hr hu ix0 = 1#1) :
    ∃ f : s.Idx → ℝ, a = fun i => ((f i : ℝ) : EReal) := by
  have hall : ∀ i, ∃ r : ℝ, a i = (r : EReal) := fun i => by
    have hi := Host.reduce_andi_all _ _ hr hu ix0 e i
    exact real_of_abs_lt_inf (a i) hi
  choose f hf using hall
  exact ⟨f, funext hf⟩

/-- The precondition holds exactly on real arrays, in the direction used: if the printed predicate is all ones, each of
    the seven argument arrays is the coercion of a real array. -/
theorem real_of_pre [Cert.Pre_finite_inputs.Facts] (a0 : Cert.AttnSpec.SX.Idx → EReal) (a1 : Cert.AttnSpec.SW.Idx → EReal)
    (a2 : Cert.AttnSpec.SB.Idx → EReal) (a3 : Cert.AttnSpec.SW.Idx → EReal) (a4 : Cert.AttnSpec.SB.Idx → EReal)
    (a5 : Cert.AttnSpec.SW.Idx → EReal) (a6 : Cert.AttnSpec.SB.Idx → EReal)
    (h : Cert.Pre_finite_inputs.fn (F := Ideal) a0 a1 a2 a3 a4 a5 a6 = fun _ => 1#1) :
    ∃ (x : Cert.AttnSpec.SX.Idx → ℝ) (Wq : Cert.AttnSpec.SW.Idx → ℝ) (bq : Cert.AttnSpec.SB.Idx → ℝ) (Wk : Cert.AttnSpec.SW.Idx → ℝ)
        (bk : Cert.AttnSpec.SB.Idx → ℝ) (Wv : Cert.AttnSpec.SW.Idx → ℝ) (bv : Cert.AttnSpec.SB.Idx → ℝ),
        a0 = (fun i => ((x i : ℝ) : EReal)) ∧ a1 = (fun i => ((Wq i : ℝ) : EReal))
        ∧ a2 = (fun i => ((bq i : ℝ) : EReal)) ∧ a3 = (fun i => ((Wk i : ℝ) : EReal))
        ∧ a4 = (fun i => ((bk i : ℝ) : EReal)) ∧ a5 = (fun i => ((Wv i : ℝ) : EReal))
        ∧ a6 = (fun i => ((bv i : ℝ) : EReal)) := by
  have h0 := congrFun h ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  obtain ⟨x, hx⟩ := real_of_all_finite (s := Cert.Pre_finite_inputs.S4x4096x1024) a0 _ _ _ e0
  obtain ⟨Wq, hWq⟩ := real_of_all_finite (s := Cert.Pre_finite_inputs.S1024x1024) a1 _ _ _ e1
  obtain ⟨bq, hbq⟩ := real_of_all_finite (s := Cert.Pre_finite_inputs.S1024) a2 _ _ _ e2
  obtain ⟨Wk, hWk⟩ := real_of_all_finite (s := Cert.Pre_finite_inputs.S1024x1024) a3 _ _ _ e3
  obtain ⟨bk, hbk⟩ := real_of_all_finite (s := Cert.Pre_finite_inputs.S1024) a4 _ _ _ e4
  obtain ⟨Wv, hWv⟩ := real_of_all_finite (s := Cert.Pre_finite_inputs.S1024x1024) a5 _ _ _ e5
  obtain ⟨bv, hbv⟩ := real_of_all_finite (s := Cert.Pre_finite_inputs.S1024) a6 _ _ _ e6
  exact ⟨x, Wq, bq, Wk, bk, Wv, bv, hx, hWq, hbq, hWk, hbk, hWv, hbv⟩

/-- The kernel's precondition: on every device its seven argument arrays are coercions of real arrays. -/
theorem real_of_pre_kernel [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    ∃ (x : Cert.AttnSpec.SX.Idx → ℝ) (Wq : Cert.AttnSpec.SW.Idx → ℝ) (bq : Cert.AttnSpec.SB.Idx → ℝ) (Wk : Cert.AttnSpec.SW.Idx → ℝ)
        (bk : Cert.AttnSpec.SB.Idx → ℝ) (Wv : Cert.AttnSpec.SW.Idx → ℝ) (bv : Cert.AttnSpec.SB.Idx → ℝ),
        (m ((c.tc : Thread Cert.KernelIdeal.nD Cert.KernelIdeal.τ).loc Cert.KernelIdeal.main_arg0) : Cert.AttnSpec.SX.Idx → EReal) = (fun i => ((x i : ℝ) : EReal)) ∧ (m ((c.tc : Thread Cert.KernelIdeal.nD Cert.KernelIdeal.τ).loc Cert.KernelIdeal.main_arg1) : Cert.AttnSpec.SW.Idx → EReal) = (fun i => ((Wq i : ℝ) : EReal))
        ∧ (m ((c.tc : Thread Cert.KernelIdeal.nD Cert.KernelIdeal.τ).loc Cert.KernelIdeal.main_arg2) : Cert.AttnSpec.SB.Idx → EReal) = (fun i => ((bq i : ℝ) : EReal)) ∧ (m ((c.tc : Thread Cert.KernelIdeal.nD Cert.KernelIdeal.τ).loc Cert.KernelIdeal.main_arg3) : Cert.AttnSpec.SW.Idx → EReal) = (fun i => ((Wk i : ℝ) : EReal))
        ∧ (m ((c.tc : Thread Cert.KernelIdeal.nD Cert.KernelIdeal.τ).loc Cert.KernelIdeal.main_arg4) : Cert.AttnSpec.SB.Idx → EReal) = (fun i => ((bk i : ℝ) : EReal)) ∧ (m ((c.tc : Thread Cert.KernelIdeal.nD Cert.KernelIdeal.τ).loc Cert.KernelIdeal.main_arg5) : Cert.AttnSpec.SW.Idx → EReal) = (fun i => ((Wv i : ℝ) : EReal))
        ∧ (m ((c.tc : Thread Cert.KernelIdeal.nD Cert.KernelIdeal.τ).loc Cert.KernelIdeal.main_arg6) : Cert.AttnSpec.SB.Idx → EReal) = (fun i => ((bv i : ℝ) : EReal)) :=
  real_of_pre _ _ _ _ _ _ _ (hm c)

/-- The reference's precondition, likewise. -/
theorem real_of_pre_reference [Cert.Pre_finite_inputs.Facts]
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    ∃ (x : Cert.AttnSpec.SX.Idx → ℝ) (Wq : Cert.AttnSpec.SW.Idx → ℝ) (bq : Cert.AttnSpec.SB.Idx → ℝ) (Wk : Cert.AttnSpec.SW.Idx → ℝ)
        (bk : Cert.AttnSpec.SB.Idx → ℝ) (Wv : Cert.AttnSpec.SW.Idx → ℝ) (bv : Cert.AttnSpec.SB.Idx → ℝ),
        (m ((c.tc : Thread Cert.ReferenceIdeal.nD Cert.ReferenceIdeal.τ).loc Cert.ReferenceIdeal.main_arg0) : Cert.AttnSpec.SX.Idx → EReal) = (fun i => ((x i : ℝ) : EReal)) ∧ (m ((c.tc : Thread Cert.ReferenceIdeal.nD Cert.ReferenceIdeal.τ).loc Cert.ReferenceIdeal.main_arg1) : Cert.AttnSpec.SW.Idx → EReal) = (fun i => ((Wq i : ℝ) : EReal))
        ∧ (m ((c.tc : Thread Cert.ReferenceIdeal.nD Cert.ReferenceIdeal.τ).loc Cert.ReferenceIdeal.main_arg2) : Cert.AttnSpec.SB.Idx → EReal) = (fun i => ((bq i : ℝ) : EReal)) ∧ (m ((c.tc : Thread Cert.ReferenceIdeal.nD Cert.ReferenceIdeal.τ).loc Cert.ReferenceIdeal.main_arg3) : Cert.AttnSpec.SW.Idx → EReal) = (fun i => ((Wk i : ℝ) : EReal))
        ∧ (m ((c.tc : Thread Cert.ReferenceIdeal.nD Cert.ReferenceIdeal.τ).loc Cert.ReferenceIdeal.main_arg4) : Cert.AttnSpec.SB.Idx → EReal) = (fun i => ((bk i : ℝ) : EReal)) ∧ (m ((c.tc : Thread Cert.ReferenceIdeal.nD Cert.ReferenceIdeal.τ).loc Cert.ReferenceIdeal.main_arg5) : Cert.AttnSpec.SW.Idx → EReal) = (fun i => ((Wv i : ℝ) : EReal))
        ∧ (m ((c.tc : Thread Cert.ReferenceIdeal.nD Cert.ReferenceIdeal.τ).loc Cert.ReferenceIdeal.main_arg6) : Cert.AttnSpec.SB.Idx → EReal) = (fun i => ((bv i : ℝ) : EReal)) :=
  real_of_pre _ _ _ _ _ _ _ (hm c)

end Cert.Proof.FiniteInputs

end
-- ==== Proof.lean ====
/-
  The certificate of a fused projection + flash-attention kernel against plain softmax attention.

  Both programs compute, for a batch b, a query row q and an output column c, the softmax of the scaled scores of the
  projected query row against the 4096 projected key rows, applied to column c of the projected values (the
  specification, over the reals: the module AttnSpec). The reference does it in one pass: scores, their maximum, the
  exponentials of the differences, their sum, the quotients, the product with the values. The kernel does it in two
  regions: one computes the three projections as slabs of one array; the other walks the keys in four blocks per query
  block and keeps, per query row, a running maximum mu, a denominator l and an accumulator a, rescaling
  l and a by exp (mu − mu') whenever the maximum moves, and divides a by l after the last block. Because
  exp (mu − mu') · exp (s − mu) = exp (s − mu'), after the last block l and a are the sums of exp (s − mu) and of
  exp (s − mu) · v over all 4096 keys, whatever the sequence of maxima was; and a quotient of such sums does not depend
  on the shift mu. So the finite stand-in the kernel starts its maximum from, where the reference starts from −∞,
  changes nothing — as long as every number involved is real, which the precondition (every input finite) gives:
  distributing the rescaling factor over the sums is a law of the reals, not of the extended reals.

  The frames: neither kernel program has a generated frame, so each of the two regions' proof data, body run and body
  obligation are written here, once for any float instance, and instantiated at the word-level program and at its
  idealization; the reference's frame is its generated run with the result dropped. The idealization rewrote nothing.
-/
import proofs.«164067_j90838558311219_2_alg».proof.Defs
import proofs.«164067_j90838558311219_2_alg».proof.Proof.Gen.Kernel
import proofs.«164067_j90838558311219_2_alg».proof.Proof.Gen.KernelIdeal
import proofs.«164067_j90838558311219_2_alg».proof.Proof.Gen.ReferenceIdeal
import proofs.«164067_j90838558311219_2_alg».proof.Proof.Gen.Pre_finite_inputs
import proofs.«164067_j90838558311219_2_alg».proof.Proof.Gen.ReferenceIdeal.Run
import proofs.«164067_j90838558311219_2_alg».proof.Proof.Gen.ReferenceIdeal.Read
import proofs.«164067_j90838558311219_2_alg».proof.Proof.WKernelRun
import proofs.«164067_j90838558311219_2_alg».proof.Proof.KernelValue
import proofs.«164067_j90838558311219_2_alg».proof.Proof.RefStages
import proofs.«164067_j90838558311219_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, all finite, both idealized programs end with attention's output: the
    kernel's result array by the flash-attention recurrence, the reference's by reading its operations one at a time. -/
theorem algebraic : Cert.algebraic_KernelIdeal_ReferenceIdeal := by
  intro m ρ m' ρ' hpre hagree
  refine ⟨fun c => (Cert.KernelIdeal.Flash.dat1 (Cert.KernelIdeal.Run.V3 m) c).arrAt 3 Cert.KernelIdeal.cfg1.N,
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨x, Wq, bq, Wk, bk, Wv, bv, h0, h1, h2, h3, h4, h5, h6⟩ := Cert.Proof.FiniteInputs.real_of_pre_kernel m hpre c
  show _ = (Cert.KernelIdeal.Flash.dat1 (Cert.KernelIdeal.Run.V3 m) c).arrAt 3 Cert.KernelIdeal.cfg1.N
  rw [Cert.ReferenceIdeal.Read.val_main_v28_eq, (hagree c).1, (hagree c).2.1, (hagree c).2.2.1, (hagree c).2.2.2.1,
    (hagree c).2.2.2.2.1, (hagree c).2.2.2.2.2.1, (hagree c).2.2.2.2.2.2, h0, h1, h2, h3, h4, h5, h6,
    Cert.KernelIdeal.KValue.kernel_result m c x Wq bq Wk bk Wv bv h0 h1 h2 h3 h4 h5 h6]
  funext i
  obtain ⟨b, q, k, rfl⟩ : ∃ (b : Fin 4) (q : Fin 4096) (k : Fin 1024), i = ix3 b q k := ⟨i 0, i 1, i 2, eq_ix3 i⟩
  rw [Cert.ReferenceIdeal.RefStages.ref_out_spec, Cert.KernelIdeal.KValue.Gout_apply]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
